-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x2048 : Shape := ⟨2, ![65536, 2048]⟩
abbrev S64x2048 : Shape := ⟨2, ![64, 2048]⟩
abbrev S64 : Shape := ⟨1, ![64]⟩
abbrev S32x64 : Shape := ⟨2, ![32, 64]⟩
abbrev S32 : Shape := ⟨1, ![32]⟩
abbrev S128x512 : Shape := ⟨2, ![128, 512]⟩
abbrev S128 : Shape := ⟨1, ![128]⟩
abbrev S64x128 : Shape := ⟨2, ![64, 128]⟩
abbrev S16x32 : Shape := ⟨2, ![16, 32]⟩
abbrev S16 : Shape := ⟨1, ![16]⟩
abbrev S1x16 : Shape := ⟨2, ![1, 16]⟩
abbrev S1 : Shape := ⟨1, ![1]⟩
abbrev S4x16 : Shape := ⟨2, ![4, 16]⟩
abbrev S4 : Shape := ⟨1, ![4]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S4x16 : S_.BroadcastsInDim S4x16 (![] : Fin 0 → Fin S4x16.rank)
  reducesTo_S4x16_S_d0_1 : S4x16.ReducesTo [0, 1] S_
  bcast_S_S4 : S_.BroadcastsInDim S4 (![] : Fin 0 → Fin S4.rank)
  reducesTo_S4_S_d0 : S4.ReducesTo [0] S_

variable [Facts]

def fn_part6 {F : FTy → Type} [FloatOps F] (main_arg21 : FVec F S16 .f32) (main_arg22 : FVec F S4x16 .f32) (main_arg23 : FVec F S4 .f32) (main_v98 : IVec S_ 1) (main_v101 : IVec S16x32 1) (main_c_39 : IVec S_ 1) : IVec S_ 1 :=
  let main_v102 : IVec S_ 1 := (fun x v => Host.reduce IntOp.andi x v reducesTo_S16x32_S_d0_1 h_S_) main_v101 main_c_39
  let main_v103 : IVec S_ 1 := andi main_v98 main_v102
  let main_v104 : FVec F S16 .f32 := Host.absf main_arg21
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_v109 : FVec F S4x16 .f32 := Host.absf main_arg22
  let main_cst_42 : FVec F S_ .f32 := constant S_ .f32 0x7F800000#32
  let main_v110 : FVec F S4x16 .f32 := broadcastInDim S4x16 ![] bcast_S_S4x16 main_cst_42
  let main_v111 : IVec S4x16 1 := cmpf .olt main_v109 main_v110
  let main_c_43 : IVec S_ 1 := constantI S_ 1 1#1
  let main_v112 : IVec S_ 1 := (fun x v => Host.reduce IntOp.andi x v reducesTo_S4x16_S_d0_1 h_S_) main_v111 main_c_43
  let main_v113 : IVec S_ 1 := andi main_v108 main_v112
  let main_v114 : FVec F S4 .f32 := Host.absf main_arg23
  let main_cst_44 : FVec F S_ .f32 := constant S_ .f32 0x7F800000#32
  let main_v115 : FVec F S4 .f32 := broadcastInDim S4 ![] bcast_S_S4 main_cst_44
  let main_v116 : IVec S4 1 := cmpf .olt main_v114 main_v115
  let main_c_45 : IVec S_ 1 := constantI S_ 1 1#1
  let main_v117 : IVec S_ 1 := (fun x v => Host.reduce IntOp.andi x v reducesTo_S4_S_d0 h_S_) main_v116 main_c_45
  let main_v118 : IVec S_ 1 := andi main_v113 main_v117
  main_v118

def fn_part5 {F : FTy → Type} [FloatOps F] (main_arg18 : FVec F S1x16 .f32) (main_arg19 : FVec F S1 .f32) (main_arg20 : FVec F S16x32 .f32) (main_arg21 : FVec F S16 .f32) (main_arg22 : FVec F S4x16 .f32) (main_arg23 : FVec F S4 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S1x16 .f32 := Host.absf main_arg18
  let main_cst_34 : FVec F S_ .f32 := constant S_ .f32 0x7F800000#32
  let main_v90 : FVec F S1x16 .f32 := broadcastInDim S1x16 ![] bcast_S_S1x16 main_cst_34
  let main_v91 : IVec S1x16 1 := cmpf .olt main_v89 main_v90
  let main_c_35 : IVec S_ 1 := constantI S_ 1 1#1
  let main_v92 : IVec S_ 1 := (fun x v => Host.reduce IntOp.andi x v reducesTo_S1x16_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S16x32 .f32 := Host.absf main_arg20
  let main_cst_38 : FVec F S_ .f32 := constant S_ .f32 0x7F800000#32
  let main_v100 : FVec F S16x32 .f32 := broadcastInDim S16x32 ![] bcast_S_S16x32 main_cst_38
  let main_v101 : IVec S16x32 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S32x64 .f32) (main_arg15 : FVec F S32 .f32) (main_arg16 : FVec F S16x32 .f32) (main_arg17 : FVec F S16 .f32) (main_arg18 : FVec F S1x16 .f32) (main_arg19 : FVec F S1 .f32) (main_arg20 : FVec F S16x32 .f32) (main_arg21 : FVec F S16 .f32) (main_arg22 : FVec F S4x16 .f32) (main_arg23 : FVec F S4 .f32) (main_v63 : IVec S_ 1) (main_v67 : IVec S_ 1) : IVec S_ 1 :=
  let main_v68 : IVec S_ 1 := andi main_v63 main_v67
  let main_v69 : FVec F S32x64 .f32 := Host.absf main_arg14
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S16x32 .f32 := Host.absf main_arg16
  let main_cst_30 : FVec F S_ .f32 := constant S_ .f32 0x7F800000#32
  let main_v80 : FVec F S16x32 .f32 := broadcastInDim S16x32 ![] bcast_S_S16x32 main_cst_30
  let main_v81 : IVec S16x32 1 := cmpf .olt main_v79 main_v80
  let main_c_31 : IVec S_ 1 := constantI S_ 1 1#1
  let main_v82 : IVec S_ 1 := (fun x v => Host.reduce IntOp.andi x v reducesTo_S16x32_S_d0_1 h_S_) main_v81 main_c_31
  let main_v83 : IVec S_ 1 := andi main_v78 main_v82
  let main_v84 : FVec F S16 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S64 .f32) (main_arg12 : FVec F S64 .f32) (main_arg13 : FVec F S64 .f32) (main_arg14 : FVec F S32x64 .f32) (main_arg15 : FVec F S32 .f32) (main_arg16 : FVec F S16x32 .f32) (main_arg17 : FVec F S16 .f32) (main_arg18 : FVec F S1x16 .f32) (main_arg19 : FVec F S1 .f32) (main_arg20 : FVec F S16x32 .f32) (main_arg21 : FVec F S16 .f32) (main_arg22 : FVec F S4x16 .f32) (main_arg23 : FVec F S4 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S128 .f32) (main_arg8 : FVec F S128 .f32) (main_arg9 : FVec F S128 .f32) (main_arg10 : FVec F S64x128 .f32) (main_arg11 : FVec F S64 .f32) (main_arg12 : FVec F S64 .f32) (main_arg13 : FVec F S64 .f32) (main_arg14 : FVec F S32x64 .f32) (main_arg15 : FVec F S32 .f32) (main_arg16 : FVec F S16x32 .f32) (main_arg17 : FVec F S16 .f32) (main_arg18 : FVec F S1x16 .f32) (main_arg19 : FVec F S1 .f32) (main_arg20 : FVec F S16x32 .f32) (main_arg21 : FVec F S16 .f32) (main_arg22 : FVec F S4x16 .f32) (main_arg23 : FVec F S4 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S32x64 .f32) (main_arg5 : FVec F S32 .f32) (main_arg6 : FVec F S128x512 .f32) (main_arg7 : FVec F S128 .f32) (main_arg8 : FVec F S128 .f32) (main_arg9 : FVec F S128 .f32) (main_arg10 : FVec F S64x128 .f32) (main_arg11 : FVec F S64 .f32) (main_arg12 : FVec F S64 .f32) (main_arg13 : FVec F S64 .f32) (main_arg14 : FVec F S32x64 .f32) (main_arg15 : FVec F S32 .f32) (main_arg16 : FVec F S16x32 .f32) (main_arg17 : FVec F S16 .f32) (main_arg18 : FVec F S1x16 .f32) (main_arg19 : FVec F S1 .f32) (main_arg20 : FVec F S16x32 .f32) (main_arg21 : FVec F S16 .f32) (main_arg22 : FVec F S4x16 .f32) (main_arg23 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S128x512 .f32 := Host.absf main_arg6
  let main_cst_10 : FVec F S_ .f32 := constant S_ .f32 0x7F800000#32
  let main_v30 : FVec F S128x512 .f32 := broadcastInDim S128x512 ![] bcast_S_S128x512 main_cst_10
  let main_v31 : IVec S128x512 1 := cmpf .olt main_v29 main_v30
  let main_c_11 : IVec S_ 1 := constantI S_ 1 1#1
  let main_v32 : IVec S_ 1 := (fun x v => Host.reduce IntOp.andi x v reducesTo_S128x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S65536x512 .f32) (main_arg1 : FVec F S65536x2048 .f32) (main_arg2 : FVec F S64x2048 .f32) (main_arg3 : FVec F S64 .f32) (main_arg4 : FVec F S32x64 .f32) (main_arg5 : FVec F S32 .f32) (main_arg6 : FVec F S128x512 .f32) (main_arg7 : FVec F S128 .f32) (main_arg8 : FVec F S128 .f32) (main_arg9 : FVec F S128 .f32) (main_arg10 : FVec F S64x128 .f32) (main_arg11 : FVec F S64 .f32) (main_arg12 : FVec F S64 .f32) (main_arg13 : FVec F S64 .f32) (main_arg14 : FVec F S32x64 .f32) (main_arg15 : FVec F S32 .f32) (main_arg16 : FVec F S16x32 .f32) (main_arg17 : FVec F S16 .f32) (main_arg18 : FVec F S1x16 .f32) (main_arg19 : FVec F S1 .f32) (main_arg20 : FVec F S16x32 .f32) (main_arg21 : FVec F S16 .f32) (main_arg22 : FVec F S4x16 .f32) (main_arg23 : FVec F S4 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S65536x512 : Shape := ⟨2, ![65536, 512]⟩
abbrev S65536x2048 : Shape := ⟨2, ![65536, 2048]⟩
abbrev S64x2048 : Shape := ⟨2, ![64, 2048]⟩
abbrev S64 : Shape := ⟨1, ![64]⟩
abbrev S32x64 : Shape := ⟨2, ![32, 64]⟩
abbrev S32 : Shape := ⟨1, ![32]⟩
abbrev S128x512 : Shape := ⟨2, ![128, 512]⟩
abbrev S128 : Shape := ⟨1, ![128]⟩
abbrev S64x128 : Shape := ⟨2, ![64, 128]⟩
abbrev S16x32 : Shape := ⟨2, ![16, 32]⟩
abbrev S16 : Shape := ⟨1, ![16]⟩
abbrev S1x16 : Shape := ⟨2, ![1, 16]⟩
abbrev S1 : Shape := ⟨1, ![1]⟩
abbrev S4x16 : Shape := ⟨2, ![4, 16]⟩
abbrev S4 : Shape := ⟨1, ![4]⟩
abbrev S32x32 : Shape := ⟨2, ![32, 32]⟩
abbrev S1x32 : Shape := ⟨2, ![1, 32]⟩
abbrev S_ : Shape := ⟨0, ![]⟩
abbrev S4x32 : Shape := ⟨2, ![4, 32]⟩
abbrev S5x32 : Shape := ⟨2, ![5, 32]⟩
abbrev S5 : Shape := ⟨1, ![5]⟩
abbrev S1x5 : Shape := ⟨2, ![1, 5]⟩
abbrev S1x64 : Shape := ⟨2, ![1, 64]⟩
abbrev S1x128 : Shape := ⟨2, ![1, 128]⟩
abbrev S65536x4 : Shape := ⟨2, ![65536, 4]⟩
abbrev S65536x32 : Shape := ⟨2, ![65536, 32]⟩
abbrev S1024x512 : Shape := ⟨2, ![1024, 512]⟩
abbrev S1024x2048 : Shape := ⟨2, ![1024, 2048]⟩
abbrev S1024x4 : Shape := ⟨2, ![1024, 4]⟩
abbrev S1024x32 : Shape := ⟨2, ![1024, 32]⟩
abbrev S1024x64 : Shape := ⟨2, ![1024, 64]⟩
abbrev S1024 : Shape := ⟨1, ![1024]⟩
abbrev S1024x1 : Shape := ⟨2, ![1024, 1]⟩
abbrev S1024x128 : Shape := ⟨2, ![1024, 128]⟩
abbrev S1024x5 : Shape := ⟨2, ![1024, 5]⟩

abbrev nBuf : Space → Nat
  | .hbm => 53
  | .vmem => 26
  | .smem => 0
  | _ => 0

abbrev bufTy : (tb : Table) → Fin (tcTables nBuf tb) → BufTy
  | .hbm, ⟨0, _⟩ => ⟨S65536x512, .f32⟩
  | .hbm, ⟨1, _⟩ => ⟨S65536x2048, .f32⟩
  | .hbm, ⟨2, _⟩ => ⟨S64x2048, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S128x512, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S32x64, .f32⟩
  | .hbm, ⟨15, _⟩ => ⟨S32, .f32⟩
  | .hbm, ⟨16, _⟩ => ⟨S16x32, .f32⟩
  | .hbm, ⟨17, _⟩ => ⟨S16, .f32⟩
  | .hbm, ⟨18, _⟩ => ⟨S1x16, .f32⟩
  | .hbm, ⟨19, _⟩ => ⟨S1, .f32⟩
  | .hbm, ⟨20, _⟩ => ⟨S16x32, .f32⟩
  | .hbm, ⟨21, _⟩ => ⟨S16, .f32⟩
  | .hbm, ⟨22, _⟩ => ⟨S4x16, .f32⟩
  | .hbm, ⟨23, _⟩ => ⟨S4, .f32⟩
  | .hbm, ⟨24, _⟩ => ⟨S64x2048, .bf16⟩
  | .hbm, ⟨25, _⟩ => ⟨S128x512, .bf16⟩
  | .hbm, ⟨26, _⟩ => ⟨S64x128, .bf16⟩
  | .hbm, ⟨27, _⟩ => ⟨S32x64, .bf16⟩
  | .hbm, ⟨28, _⟩ => ⟨S32x32, .f32⟩
  | .hbm, ⟨29, _⟩ => ⟨S32x32, .bf16⟩
  | .hbm, ⟨30, _⟩ => ⟨S32, .f32⟩
  | .hbm, ⟨31, _⟩ => ⟨S1x32, .f32⟩
  | .hbm, ⟨32, _⟩ => ⟨S_, .f32⟩
  | .hbm, ⟨33, _⟩ => ⟨S1x16, .f32⟩
  | .hbm, ⟨34, _⟩ => ⟨S1x32, .f32⟩
  | .hbm, ⟨35, _⟩ => ⟨S_, .f32⟩
  | .hbm, ⟨36, _⟩ => ⟨S4x16, .f32⟩
  | .hbm, ⟨37, _⟩ => ⟨S4x32, .f32⟩
  | .hbm, ⟨38, _⟩ => ⟨S5x32, .f32⟩
  | .hbm, ⟨39, _⟩ => ⟨S5x32, .bf16⟩
  | .hbm, ⟨40, _⟩ => ⟨S5, .f32⟩
  | .hbm, ⟨41, _⟩ => ⟨S1x5, .f32⟩
  | .hbm, ⟨42, _⟩ => ⟨S1x64, .f32⟩
  | .hbm, ⟨43, _⟩ => ⟨S1x32, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x32, .f32⟩
  | .hbm, ⟨51, _⟩ => ⟨S65536x4, .f32⟩
  | .hbm, ⟨52, _⟩ => ⟨S65536x32, .f32⟩
  | .local _ .vmem, ⟨0, _⟩ => ⟨S1024x512, .f32⟩
  | .local _ .vmem, ⟨1, _⟩ => ⟨S1024x512, .f32⟩
  | .local _ .vmem, ⟨2, _⟩ => ⟨S1024x2048, .f32⟩
  | .local _ .vmem, ⟨3, _⟩ => ⟨S1024x2048, .f32⟩
  | .local _ .vmem, ⟨4, _⟩ => ⟨S64x2048, .bf16⟩
  | .local _ .vmem, ⟨5, _⟩ => ⟨S1x64, .f32⟩
  | .local _ .vmem, ⟨6, _⟩ => ⟨S32x64, .f32⟩
  | .local _ .vmem, ⟨7, _⟩ => ⟨S1x32, .f32⟩
  | .local _ .vmem, ⟨8, _⟩ => ⟨S128x512, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S64x128, .bf16⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S32x64, .bf16⟩
  | .local _ .vmem, ⟨17, _⟩ => ⟨S1x32, .f32⟩
  | .local _ .vmem, ⟨18, _⟩ => ⟨S32x32, .bf16⟩
  | .local _ .vmem, ⟨19, _⟩ => ⟨S1x32, .f32⟩
  | .local _ .vmem, ⟨20, _⟩ => ⟨S5x32, .bf16⟩
  | .local _ .vmem, ⟨21, _⟩ => ⟨S1x5, .f32⟩
  | .local _ .vmem, ⟨22, _⟩ => ⟨S1024x4, .f32⟩
  | .local _ .vmem, ⟨23, _⟩ => ⟨S1024x4, .f32⟩
  | .local _ .vmem, ⟨24, _⟩ => ⟨S1024x32, .f32⟩
  | .local _ .vmem, ⟨25, _⟩ => ⟨S1024x32, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25_0 : Ref sig .tc := ⟨.hbm, 51, rfl⟩
abbrev main_v25_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x32 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S5x32 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x5 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x4 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x32 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bitsLt_bf16_f32 : FTy.bits .bf16 < FTy.bits .f32
  concatenates_S16x32_S16x32_S32x32_d0 : Shape.Concatenates [S16x32, S16x32] S32x32 0
  concatenates_S16_S16_S32_d0 : Shape.Concatenates [S16, S16] S32 0
  shapeCasts_S32_S1x32 : S32.ShapeCasts S1x32
  bcast_S_S1x16 : S_.BroadcastsInDim S1x16 (![] : Fin 0 → Fin S1x16.rank)
  concatenates_S1x16_S1x16_S1x32_d1 : Shape.Concatenates [S1x16, S1x16] S1x32 1
  bcast_S_S4x16 : S_.BroadcastsInDim S4x16 (![] : Fin 0 → Fin S4x16.rank)
  concatenates_S4x16_S4x16_S4x32_d1 : Shape.Concatenates [S4x16, S4x16] S4x32 1
  concatenates_S1x32_S4x32_S5x32_d0 : Shape.Concatenates [S1x32, S4x32] S5x32 0
  concatenates_S1_S4_S5_d0 : Shape.Concatenates [S1, S4] S5 0
  shapeCasts_S5_S1x5 : S5.ShapeCasts S1x5
  shapeCasts_S64_S1x64 : S64.ShapeCasts S1x64
  shapeCasts_S128_S1x128 : S128.ShapeCasts S1x128
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  reduces_S1024x32_S1024 : S1024x32.Reduces [1] S1024
  shapeCasts_S1024_S1024x1 : S1024.ShapeCasts S1024x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S1024x64_S1024 : S1024x64.Reduces [1] S1024
  broadcasts_S1024x1_S1024x64 : S1024x1.Broadcasts S1024x64
  shapeCasts_S32x64_S32x64 : S32x64.ShapeCasts S32x64
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S5x32_S5x32_0_0 : ∀ a, (![0, 0] : Fin 2 → Nat) a + S5x32.size a ≤ S5x32.size a
  h_S5x32 : 0 < S5x32.numel
  shapeCasts_S5x32_S5x32 : S5x32.ShapeCasts S5x32
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1024x5 : S1x5.Broadcasts S1024x5
  slices_S1024x5_o0_0_S1024x1 : S1024x5.Slices ![0, 0] S1024x1
  slices_S1024x5_o0_1_S1024x4 : S1024x5.Slices ![0, 1] S1024x4
  reduces_S1024x4_S1024 : S1024x4.Reduces [1] S1024
  broadcasts_S1024x1_S1024x4 : S1024x1.Broadcasts S1024x4
  inb_S1024x4_S1024x4_0_0 : ∀ a, (![0, 0] : Fin 2 → Nat) a + S1024x4.size a ≤ S1024x4.size a
  h_S1024x4 : 0 < S1024x4.numel
  dot_S1024x2048_S64x2048_S1024x64_1_1_0_0_n_n_wf : DotDims.WF S1024x2048 S64x2048 S1024x64 [1] [1] [0] [0] [] []
  dot_S1024x64_S32x64_S1024x32_1_1_0_0_n_n_wf : DotDims.WF S1024x64 S32x64 S1024x32 [1] [1] [0] [0] [] []
  dot_S1024x512_S128x512_S1024x128_1_1_0_0_n_n_wf : DotDims.WF S1024x512 S128x512 S1024x128 [1] [1] [0] [0] [] []
  dot_S1024x128_S64x128_S1024x64_1_1_0_0_n_n_wf : DotDims.WF S1024x128 S64x128 S1024x64 [1] [1] [0] [0] [] []
  dot_S1024x32_S32x32_S1024x32_1_1_0_0_n_n_wf : DotDims.WF S1024x32 S32x32 S1024x32 [1] [1] [0] [0] [] []
  dot_S1024x32_S5x32_S1024x5_1_1_0_0_n_n_wf : DotDims.WF S1024x32 S5x32 S1024x5 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .bf16 = 32 ∨ (Rect.block (s := S64x2048) S64x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x512.size a
  hwx0_6 : ∀ i : grid0.Coords, EltTy.bits .bf16 = 32 ∨ (Rect.block (s := S128x512) S128x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x128.size a ≤ S64x128.size a
  hwx0_10 : ∀ i : grid0.Coords, EltTy.bits .bf16 = 32 ∨ (Rect.block (s := S64x128) S64x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x64.size a ≤ S32x64.size a
  hwx0_14 : ∀ i : grid0.Coords, EltTy.bits .bf16 = 32 ∨ (Rect.block (s := S32x64) S32x64.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x32.size a ≤ S1x32.size a
  hwx0_15 : ∀ i : grid0.Coords, EltTy.bits .f32 = 32 ∨ (Rect.block (s := S1x32) S1x32.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S32x32.size a ≤ S32x32.size a
  hwx0_16 : ∀ i : grid0.Coords, EltTy.bits .bf16 = 32 ∨ (Rect.block (s := S32x32) S32x32.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x32.size a ≤ S1x32.size a
  hwx0_17 : ∀ i : grid0.Coords, EltTy.bits .f32 = 32 ∨ (Rect.block (s := S1x32) S1x32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S5x32.size a ≤ S5x32.size a
  hwx0_18 : ∀ i : grid0.Coords, EltTy.bits .bf16 = 32 ∨ (Rect.block (s := S5x32) S5x32.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x5.size a ≤ S1x5.size a
  hwx0_19 : ∀ i : grid0.Coords, EltTy.bits .f32 = 32 ∨ (Rect.block (s := S1x5) S1x5.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x4.size a ≤ S65536x4.size a
  hwx0_20 : ∀ i : grid0.Coords, EltTy.bits .f32 = 32 ∨ (Rect.block (s := S65536x4) S1024x4.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x32.size a ≤ S65536x32.size a
  hwx0_21 : ∀ i : grid0.Coords, EltTy.bits .f32 = 32 ∨ (Rect.block (s := S65536x32) S1024x32.size (cc0_transform_21 i) (hinb0_21 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf
def dot_S1024x64_S32x64_S1024x32_1_1_0_0_n_n : DotDims S1024x64 S32x64 S1024x32 where
  lhsContracting := [1]
  rhsContracting := [1]
  lhsNonContracting := [0]
  rhsNonContracting := [0]
  lhsBatch := []
  rhsBatch := []
  wf := dot_S1024x64_S32x64_S1024x32_1_1_0_0_n_n_wf
def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S1024x32_S32x32_S1024x32_1_1_0_0_n_n : DotDims S1024x32 S32x32 S1024x32 where
  lhsContracting := [1]
  rhsContracting := [1]
  lhsNonContracting := [0]
  rhsNonContracting := [0]
  lhsBatch := []
  rhsBatch := []
  wf := dot_S1024x32_S32x32_S1024x32_1_1_0_0_n_n_wf
def dot_S1024x32_S5x32_S1024x5_1_1_0_0_n_n : DotDims S1024x32 S5x32 S1024x5 where
  lhsContracting := [1]
  rhsContracting := [1]
  lhsNonContracting := [0]
  rhsNonContracting := [0]
  lhsBatch := []
  rhsBatch := []
  wf := dot_S1024x32_S5x32_S1024x5_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v3) S32x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24) S1x32.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S32x32.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S1x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S5x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v15) S1x5.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v25_0) S1024x4.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v25_1) S1024x32.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x2048 : Shape := ⟨2, ![65536, 2048]⟩
abbrev S64x2048 : Shape := ⟨2, ![64, 2048]⟩
abbrev S64 : Shape := ⟨1, ![64]⟩
abbrev S32x64 : Shape := ⟨2, ![32, 64]⟩
abbrev S32 : Shape := ⟨1, ![32]⟩
abbrev S128x512 : Shape := ⟨2, ![128, 512]⟩
abbrev S128 : Shape := ⟨1, ![128]⟩
abbrev S64x128 : Shape := ⟨2, ![64, 128]⟩
abbrev S16x32 : Shape := ⟨2, ![16, 32]⟩
abbrev S16 : Shape := ⟨1, ![16]⟩
abbrev S1x16 : Shape := ⟨2, ![1, 16]⟩
abbrev S1 : Shape := ⟨1, ![1]⟩
abbrev S4x16 : Shape := ⟨2, ![4, 16]⟩
abbrev S4 : Shape := ⟨1, ![4]⟩
abbrev S2048x64 : Shape := ⟨2, ![2048, 64]⟩
abbrev S65536x64 : Shape := ⟨2, ![65536, 64]⟩
abbrev S1x64 : Shape := ⟨2, ![1, 64]⟩
abbrev S_ : Shape := ⟨0, ![]⟩
abbrev S64x32 : Shape := ⟨2, ![64, 32]⟩
abbrev S65536x32 : Shape := ⟨2, ![65536, 32]⟩
abbrev S1x32 : Shape := ⟨2, ![1, 32]⟩
abbrev S65536 : Shape := ⟨1, ![65536]⟩
abbrev S65536x1 : Shape := ⟨2, ![65536, 1]⟩
abbrev S512x128 : Shape := ⟨2, ![512, 128]⟩
abbrev S65536x128 : Shape := ⟨2, ![65536, 128]⟩
abbrev S1x128 : Shape := ⟨2, ![1, 128]⟩
abbrev S128x64 : Shape := ⟨2, ![128, 64]⟩
abbrev S32x16 : Shape := ⟨2, ![32, 16]⟩
abbrev S65536x16 : Shape := ⟨2, ![65536, 16]⟩
abbrev S16x1 : Shape := ⟨2, ![16, 1]⟩
abbrev S1x1 : Shape := ⟨2, ![1, 1]⟩
abbrev S16x4 : Shape := ⟨2, ![16, 4]⟩
abbrev S65536x4 : Shape := ⟨2, ![65536, 4]⟩
abbrev S1x4 : Shape := ⟨2, ![1, 4]⟩

abbrev nBuf : Space → Nat
  | .hbm => 177
  | .vmem => 0
  | .smem => 0
  | _ => 0

abbrev hbmTy0_0 (i : Nat) : BufTy := match i % 128 with
  | 0 => ⟨S65536x512, .f32⟩
  | 1 => ⟨S65536x2048, .f32⟩
  | 2 => ⟨S64x2048, .f32⟩
  | 3 => ⟨S64, .f32⟩
  | 4 => ⟨S32x64, .f32⟩
  | 5 => ⟨S32, .f32⟩
  | 6 => ⟨S128x512, .f32⟩
  | 7 => ⟨S128, .f32⟩
  | 8 => ⟨S128, .f32⟩
  | 9 => ⟨S128, .f32⟩
  | 10 => ⟨S64x128, .f32⟩
  | 11 => ⟨S64, .f32⟩
  | 12 => ⟨S64, .f32⟩
  | 13 => ⟨S64, .f32⟩
  | 14 => ⟨S32x64, .f32⟩
  | 15 => ⟨S32, .f32⟩
  | 16 => ⟨S16x32, .f32⟩
  | 17 => ⟨S16, .f32⟩
  | 18 => ⟨S1x16, .f32⟩
  | 19 => ⟨S1, .f32⟩
  | 20 => ⟨S16x32, .f32⟩
  | 21 => ⟨S16, .f32⟩
  | 22 => ⟨S4x16, .f32⟩
  | 23 => ⟨S4, .f32⟩
  | 24 => ⟨S2048x64, .f32⟩
  | 25 => ⟨S65536x64, .f32⟩
  | 26 => ⟨S1x64, .f32⟩
  | 27 => ⟨S65536x64, .f32⟩
  | 28 => ⟨S65536x64, .f32⟩
  | 29 => ⟨S_, .f32⟩
  | 30 => ⟨S65536x64, .f32⟩
  | 31 => ⟨S65536x64, .f32⟩
  | 32 => ⟨S64x32, .f32⟩
  | 33 => ⟨S65536x32, .f32⟩
  | 34 => ⟨S1x32, .f32⟩
  | 35 => ⟨S65536x32, .f32⟩
  | 36 => ⟨S65536x32, .f32⟩
  | 37 => ⟨S65536x32, .f32⟩
  | 38 => ⟨S65536x32, .f32⟩
  | 39 => ⟨S_, .f32⟩
  | 40 => ⟨S65536x32, .f32⟩
  | 41 => ⟨S65536x32, .f32⟩
  | 42 => ⟨S_, .f32⟩
  | 43 => ⟨S65536x32, .f32⟩
  | 44 => ⟨S65536x32, .f32⟩
  | 45 => ⟨S_, .f32⟩
  | 46 => ⟨S65536, .f32⟩
  | 47 => ⟨S65536x1, .f32⟩
  | 48 => ⟨S_, .f32⟩
  | 49 => ⟨S65536x1, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S65536x1, .f32⟩
  | 56 => ⟨S65536x1, .f32⟩
  | 57 => ⟨S512x128, .f32⟩
  | 58 => ⟨S65536x128, .f32⟩
  | 59 => ⟨S65536x128, .f32⟩
  | 60 => ⟨S65536x128, .f32⟩
  | 61 => ⟨S1x128, .f32⟩
  | 62 => ⟨S65536x128, .f32⟩
  | 63 => ⟨S65536x128, .f32⟩
  | 64 => ⟨S_, .f32⟩
  | 65 => ⟨S65536x128, .f32⟩
  | 66 => ⟨S65536x128, .f32⟩
  | 67 => ⟨S_, .f32⟩
  | 68 => ⟨S65536, .f32⟩
  | 69 => ⟨S65536x1, .f32⟩
  | 70 => ⟨S_, .f32⟩
  | 71 => ⟨S65536x1, .f32⟩
  | 72 => ⟨S65536x1, .f32⟩
  | 73 => ⟨S65536x128, .f32⟩
  | 74 => ⟨S65536x128, .f32⟩
  | 75 => ⟨S65536x128, .f32⟩
  | 76 => ⟨S_, .f32⟩
  | 77 => ⟨S65536, .f32⟩
  | 78 => ⟨S65536x1, .f32⟩
  | 79 => ⟨S_, .f32⟩
  | 80 => ⟨S65536x1, .f32⟩
  | 81 => ⟨S65536x1, .f32⟩
  | 82 => ⟨S65536x128, .f32⟩
  | 83 => ⟨S65536x128, .f32⟩
  | 84 => ⟨S_, .f32⟩
  | 85 => ⟨S65536x1, .f32⟩
  | 86 => ⟨S65536x1, .f32⟩
  | 87 => ⟨S65536x1, .f32⟩
  | 88 => ⟨S65536x128, .f32⟩
  | 89 => ⟨S65536x128, .f32⟩
  | 90 => ⟨S1x128, .f32⟩
  | 91 => ⟨S65536x128, .f32⟩
  | 92 => ⟨S65536x128, .f32⟩
  | 93 => ⟨S1x128, .f32⟩
  | 94 => ⟨S65536x128, .f32⟩
  | 95 => ⟨S65536x128, .f32⟩
  | 96 => ⟨S128x64, .f32⟩
  | 97 => ⟨S65536x64, .f32⟩
  | 98 => ⟨S1x64, .f32⟩
  | 99 => ⟨S65536x64, .f32⟩
  | 100 => ⟨S65536x64, .f32⟩
  | 101 => ⟨S_, .f32⟩
  | 102 => ⟨S65536x64, .f32⟩
  | 103 => ⟨S65536x64, .f32⟩
  | 104 => ⟨S_, .f32⟩
  | 105 => ⟨S65536, .f32⟩
  | 106 => ⟨S65536x1, .f32⟩
  | 107 => ⟨S_, .f32⟩
  | 108 => ⟨S65536x1, .f32⟩
  | 109 => ⟨S65536x1, .f32⟩
  | 110 => ⟨S65536x64, .f32⟩
  | 111 => ⟨S65536x64, .f32⟩
  | 112 => ⟨S65536x64, .f32⟩
  | 113 => ⟨S_, .f32⟩
  | 114 => ⟨S65536, .f32⟩
  | 115 => ⟨S65536x1, .f32⟩
  | 116 => ⟨S_, .f32⟩
  | 117 => ⟨S65536x1, .f32⟩
  | 118 => ⟨S65536x1, .f32⟩
  | 119 => ⟨S65536x64, .f32⟩
  | 120 => ⟨S65536x64, .f32⟩
  | 121 => ⟨S_, .f32⟩
  | 122 => ⟨S65536x1, .f32⟩
  | 123 => ⟨S65536x1, .f32⟩
  | 124 => ⟨S65536x1, .f32⟩
  | 125 => ⟨S65536x64, .f32⟩
  | 126 => ⟨S65536x64, .f32⟩
  | 127 => ⟨S1x64, .f32⟩
  | _ => ⟨S65536x512, .f32⟩

abbrev hbmTy0_1 (i : Nat) : BufTy := match i % 128 with
  | 0 => ⟨S65536x64, .f32⟩
  | 1 => ⟨S65536x64, .f32⟩
  | 2 => ⟨S1x64, .f32⟩
  | 3 => ⟨S65536x64, .f32⟩
  | 4 => ⟨S65536x64, .f32⟩
  | 5 => ⟨S64x32, .f32⟩
  | 6 => ⟨S65536x32, .f32⟩
  | 7 => ⟨S1x32, .f32⟩
  | 8 => ⟨S65536x32, .f32⟩
  | 9 => ⟨S65536x32, .f32⟩
  | 10 => ⟨S_, .f32⟩
  | 11 => ⟨S65536x32, .f32⟩
  | 12 => ⟨S65536x32, .f32⟩
  | 13 => ⟨S32x16, .f32⟩
  | 14 => ⟨S65536x16, .f32⟩
  | 15 => ⟨S1x16, .f32⟩
  | 16 => ⟨S65536x16, .f32⟩
  | 17 => ⟨S65536x16, .f32⟩
  | 18 => ⟨S_, .f32⟩
  | 19 => ⟨S65536x16, .f32⟩
  | 20 => ⟨S65536x16, .f32⟩
  | 21 => ⟨S16x1, .f32⟩
  | 22 => ⟨S65536x1, .f32⟩
  | 23 => ⟨S1x1, .f32⟩
  | 24 => ⟨S65536x1, .f32⟩
  | 25 => ⟨S65536x1, .f32⟩
  | 26 => ⟨S32x16, .f32⟩
  | 27 => ⟨S65536x16, .f32⟩
  | 28 => ⟨S1x16, .f32⟩
  | 29 => ⟨S65536x16, .f32⟩
  | 30 => ⟨S65536x16, .f32⟩
  | 31 => ⟨S_, .f32⟩
  | 32 => ⟨S65536x16, .f32⟩
  | 33 => ⟨S65536x16, .f32⟩
  | 34 => ⟨S16x4, .f32⟩
  | 35 => ⟨S65536x4, .f32⟩
  | 36 => ⟨S1x4, .f32⟩
  | 37 => ⟨S65536x4, .f32⟩
  | 38 => ⟨S65536x4, .f32⟩
  | 39 => ⟨S_, .f32⟩
  | 40 => ⟨S65536, .f32⟩
  | 41 => ⟨S65536x1, .f32⟩
  | 42 => ⟨S_, .f32⟩
  | 43 => ⟨S65536x1, .f32⟩
  | 44 => ⟨S65536x1, .f32⟩
  | 45 => ⟨S65536x4, .f32⟩
  | 46 => ⟨S65536x4, .f32⟩
  | 47 => ⟨S65536x4, .f32⟩
  | 48 => ⟨S65536x4, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_call0_cst : Ref sig .tc := ⟨.hbm, 29, rfl⟩
abbrev main_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_cst_1 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_v21 : Ref sig .tc := ⟨.hbm, 52, rfl⟩
abbrev main_v22 : Ref sig .tc := ⟨.hbm, 53, rfl⟩
abbrev main_cst_4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call1_cst : Ref sig .tc := ⟨.hbm, 64, rfl⟩
abbrev main_call1_v0 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_cst_6 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_cst_8 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call2_cst : Ref sig .tc := ⟨.hbm, 101, rfl⟩
abbrev main_call2_v0 : Ref sig .tc := ⟨.hbm, 102, rfl⟩
abbrev main_v62 : Ref sig .tc := ⟨.hbm, 103, rfl⟩
abbrev main_cst_10 : Ref sig .tc := ⟨.hbm, 104, rfl⟩
abbrev main_v63 : Ref sig .tc := ⟨.hbm, 105, rfl⟩
abbrev main_v64 : Ref sig .tc := ⟨.hbm, 106, rfl⟩
abbrev main_cst_11 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_12 : Ref sig .tc := ⟨.hbm, 113, rfl⟩
abbrev main_v70 : Ref sig .tc := ⟨.hbm, 114, rfl⟩
abbrev main_v71 : Ref sig .tc := ⟨.hbm, 115, rfl⟩
abbrev main_cst_13 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_14 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_call3_cst : Ref sig .tc := ⟨.hbm, 138, rfl⟩
abbrev main_call3_v0 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_call4_cst : Ref sig .tc := ⟨.hbm, 146, rfl⟩
abbrev main_call4_v0 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call5_cst : Ref sig .tc := ⟨.hbm, 159, rfl⟩
abbrev main_call5_v0 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_15 : Ref sig .tc := ⟨.hbm, 167, rfl⟩
abbrev main_v115 : Ref sig .tc := ⟨.hbm, 168, rfl⟩
abbrev main_v116 : Ref sig .tc := ⟨.hbm, 169, rfl⟩
abbrev main_cst_16 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  transposes_S32x64_S64x32_1_0 : S32x64.Transposes [1, 0] S64x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  reducesTo_S65536x32_S65536_d1 : S65536x32.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  transposes_S128x512_S512x128_1_0 : S128x512.Transposes [1, 0] S512x128
  bcast_S65536x1_S65536x128_0_1 : S65536x1.BroadcastsInDim S65536x128 (![0, 1] : Fin 2 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x128_S65536_d1 : S65536x128.ReducesTo [1] S65536
  transposes_S64x128_S128x64_1_0 : S64x128.Transposes [1, 0] S128x64
  reducesTo_S65536x64_S65536_d1 : S65536x64.ReducesTo [1] S65536
  bcast_S65536x1_S65536x64_0_1 : S65536x1.BroadcastsInDim S65536x64 (![0, 1] : Fin 2 → Fin S65536x64.rank)
  transposes_S16x32_S32x16_1_0 : S16x32.Transposes [1, 0] S32x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  transposes_S1x16_S16x1_1_0 : S1x16.Transposes [1, 0] S16x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  transposes_S4x16_S16x4_1_0 : S4x16.Transposes [1, 0] S16x4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  reducesTo_S65536x4_S65536_d1 : S65536x4.ReducesTo [1] S65536
  bcast_S65536x1_S65536x4_0_1 : S65536x1.BroadcastsInDim S65536x4 (![0, 1] : Fin 2 → Fin S65536x4.rank)
  dot_S65536x2048_S2048x64_S65536x64_1_0_0_1_n_n_wf : DotDims.WF S65536x2048 S2048x64 S65536x64 [1] [0] [0] [1] [] []
  dot_S65536x64_S64x32_S65536x32_1_0_0_1_n_n_wf : DotDims.WF S65536x64 S64x32 S65536x32 [1] [0] [0] [1] [] []
  dot_S65536x512_S512x128_S65536x128_1_0_0_1_n_n_wf : DotDims.WF S65536x512 S512x128 S65536x128 [1] [0] [0] [1] [] []
  dot_S65536x128_S128x64_S65536x64_1_0_0_1_n_n_wf : DotDims.WF S65536x128 S128x64 S65536x64 [1] [0] [0] [1] [] []
  dot_S65536x32_S32x16_S65536x16_1_0_0_1_n_n_wf : DotDims.WF S65536x32 S32x16 S65536x16 [1] [0] [0] [1] [] []
  dot_S65536x16_S16x1_S65536x1_1_0_0_1_n_n_wf : DotDims.WF S65536x16 S16x1 S65536x1 [1] [0] [0] [1] [] []
  dot_S65536x16_S16x4_S65536x4_1_0_0_1_n_n_wf : DotDims.WF S65536x16 S16x4 S65536x4 [1] [0] [0] [1] [] []

variable [Facts₀]

def dot_S65536x2048_S2048x64_S65536x64_1_0_0_1_n_n : DotDims S65536x2048 S2048x64 S65536x64 where
  lhsContracting := [1]
  rhsContracting := [0]
  lhsNonContracting := [0]
  rhsNonContracting := [1]
  lhsBatch := []
  rhsBatch := []
  wf := dot_S65536x2048_S2048x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x32_S32x16_S65536x16_1_0_0_1_n_n : DotDims S65536x32 S32x16 S65536x16 where
  lhsContracting := [1]
  rhsContracting := [0]
  lhsNonContracting := [0]
  rhsNonContracting := [1]
  lhsBatch := []
  rhsBatch := []
  wf := dot_S65536x32_S32x16_S65536x16_1_0_0_1_n_n_wf
def dot_S65536x16_S16x1_S65536x1_1_0_0_1_n_n : DotDims S65536x16 S16x1 S65536x1 where
  lhsContracting := [1]
  rhsContracting := [0]
  lhsNonContracting := [0]
  rhsNonContracting := [1]
  lhsBatch := []
  rhsBatch := []
  wf := dot_S65536x16_S16x1_S65536x1_1_0_0_1_n_n_wf
def dot_S65536x16_S16x4_S65536x4_1_0_0_1_n_n : DotDims S65536x16 S16x4 S65536x4 where
  lhsContracting := [1]
  rhsContracting := [0]
  lhsNonContracting := [0]
  rhsNonContracting := [1]
  lhsBatch := []
  rhsBatch := []
  wf := dot_S65536x16_S16x4_S65536x4_1_0_0_1_n_n_wf

class Facts : Prop extends Facts₀ where

variable [Facts]
-- ==== Proof.Net.lean ====
/-
  THE NETWORK, ONE BATCH ROW AT A TIME, ON THE EXTENDED REALS.

  Every result row of the gated duelling network depends on one row of the two batch inputs and on the weights, so the
  whole computation is a function of a row: a gate (two dense layers, a relu between them, a logistic on top), a
  modulation scalar (0.7 + 0.3 · the mean of the gate), a base layer scaled by it, two layer normalisations with dense
  layers after them, and a duelling head (a value stream and an advantage stream, joined as v + (a − mean a)).
  The building blocks are stated for any sizes; the float literals stay as the words the programs spell.

  The last part is the one algebraic law the comparison needs: the value and advantage streams computed together
  through stacked first-layer weights and a block-diagonal second layer (zeros off the diagonal) are the two streams
  computed apart. On the extended reals x · 0 = 0 for every x, so the zero blocks drop out of the sums with no
  finiteness assumption.
-/
import Idealize.ShloMosaic.PureOps.Ideal
import Idealize.ShloMosaic.PureOps.Ideal.Laws
import Idealize.ShloMosaic.Lib.ValueIdx

noncomputable section

open scoped BigOperators

namespace Cert.Net

open Idealize.ShloMosaic Idealize.ShloMosaic.ValueIdx

/-- The extended real an f32 word denotes. -/
abbrev lit (w : BitVec 32) : EReal := Ideal.ofBits .f32 w

/-- Row r of a matrix, as a function of the column. -/
def rowOf {A B : Nat} (X : (⟨2, ![A, B]⟩ : Shape).Idx → EReal) (r : Fin A) : Fin B → EReal := fun k => X (ix2 r k)

/-- A matrix as a function of row and column. -/
def matOf {A B : Nat} (X : (⟨2, ![A, B]⟩ : Shape).Idx → EReal) : Fin A → Fin B → EReal := fun n k => X (ix2 n k)

/-- A vector as a function of its coordinate. -/
def vecOf {A : Nat} (X : (⟨1, ![A]⟩ : Shape).Idx → EReal) : Fin A → EReal := fun n => X (ix1 n)

/-- The one row of a [1, A] array. -/
def row0 {A : Nat} (X : (⟨2, ![1, A]⟩ : Shape).Idx → EReal) : Fin A → EReal := fun n => X (ix2 (0 : Fin 1) n)

/-- x · Wᵀ: entry n is the sum over k of x k · W n k. -/
def matT {K N : Nat} (W : Fin N → Fin K → EReal) (x : Fin K → EReal) : Fin N → EReal :=
  fun n => ∑ k : Fin K, x k * W n k

/-- A dense layer x · Wᵀ + b. -/
def dense {K N : Nat} (W : Fin N → Fin K → EReal) (b : Fin N → EReal) (x : Fin K → EReal) : Fin N → EReal :=
  fun n => (∑ k : Fin K, x k * W n k) + b n

/-- max(·, 0), entry by entry. -/
def relu {N : Nat} (y : Fin N → EReal) : Fin N → EReal := fun n => max (y n) (lit 0x00000000#32)

/-- The sum of the entries divided by the word c (the programs divide by the count, spelt as a float). -/
def mean {N : Nat} (c : BitVec 32) (y : Fin N → EReal) : EReal := Ideal.div (∑ k : Fin N, y k) (lit c)

/-- Layer normalisation: (y − μ) · rsqrt(σ² + ε) · g + b with μ the mean, σ² the mean squared deviation, ε = f32(1e-5). -/
def layerNorm {N : Nat} (c : BitVec 32) (g b : Fin N → EReal) (y : Fin N → EReal) : Fin N → EReal :=
  fun n => (y n - mean c y) * Ideal.rsqrt (mean c (fun k => (y k - mean c y) * (y k - mean c y)) + lit 0x3727C5AC#32) * g n + b n

/-- The gate: logistic (relu (h · W₁ᵀ + b₁) · W₂ᵀ + b₂). -/
def gate {K H N : Nat} (W1 : Fin H → Fin K → EReal) (b1 : Fin H → EReal) (W2 : Fin N → Fin H → EReal) (b2 : Fin N → EReal)
    (h : Fin K → EReal) : Fin N → EReal :=
  fun n => Ideal.logistic (dense W2 b2 (relu (dense W1 b1 h)) n)

/-- The modulation scalar 0.7 + 0.3 · mean(gate), the mean over 32 entries. -/
def modulation {N : Nat} (gt : Fin N → EReal) : EReal :=
  lit 0x3F333333#32 + lit 0x3E99999A#32 * mean 0x42000000#32 gt

/-- The base layer relu ((x · Wᵀ) · mod + b). -/
def base {K N : Nat} (W : Fin N → Fin K → EReal) (b : Fin N → EReal) (md : EReal) (x : Fin K → EReal) : Fin N → EReal :=
  relu fun n => (∑ k : Fin K, x k * W n k) * md + b n

/-- The duelling join v + (a j − mean a), the mean over 4 entries. -/
def duel (v : EReal) (a : Fin 4 → EReal) : Fin 4 → EReal := fun j => v + (a j - mean 0x40800000#32 a)

/-- The trunk after the base layer: LN(128) → dense → relu → LN(64) → dense → relu. -/
def trunk (g1 be1 : Fin 128 → EReal) (Wn : Fin 64 → Fin 128 → EReal) (bn : Fin 64 → EReal) (g2 be2 : Fin 64 → EReal)
    (Wm : Fin 32 → Fin 64 → EReal) (bm : Fin 32 → EReal) (y : Fin 128 → EReal) : Fin 32 → EReal :=
  relu (dense Wm bm (layerNorm 0x42800000#32 g2 be2 (relu (dense Wn bn (layerNorm 0x43000000#32 g1 be1 y)))))

/-- The head with the two streams apart. -/
def head (Wv1 : Fin 16 → Fin 32 → EReal) (bv1 : Fin 16 → EReal) (Wv2 : Fin 1 → Fin 16 → EReal) (bv2 : Fin 1 → EReal)
    (Wa1 : Fin 16 → Fin 32 → EReal) (ba1 : Fin 16 → EReal) (Wa2 : Fin 4 → Fin 16 → EReal) (ba2 : Fin 4 → EReal)
    (f : Fin 32 → EReal) : Fin 4 → EReal :=
  duel (dense Wv2 bv2 (relu (dense Wv1 bv1 f)) 0) (dense Wa2 ba2 (relu (dense Wa1 ba1 f)))

/-- The head with the two streams computed together: one 32-wide first layer, one 5-row second layer whose row 0 is the
    value and rows 1…4 the advantages. -/
def fusedHead (Wc : Fin 32 → Fin 32 → EReal) (bc : Fin 32 → EReal) (W2 : Fin 5 → Fin 32 → EReal) (b2 : Fin 5 → EReal)
    (f : Fin 32 → EReal) : Fin 4 → EReal :=
  duel (dense W2 b2 (relu (dense Wc bc f)) 0) (fun j => dense W2 b2 (relu (dense Wc bc f)) j.succ)

/-! ## The two streams together are the two streams apart -/

/-- A sum over 32 = 16 + 16 entries splits into its two halves. -/
theorem sum_halves (F : Fin 32 → EReal) :
    ∑ k : Fin 32, F k = (∑ k : Fin 16, F (Fin.castAdd 16 k)) + ∑ k : Fin 16, F (Fin.natAdd 16 k) :=
  Fin.sum_univ_add (a := 16) (b := 16) (f := F)

theorem fusedHead_eq_head
    (Wc : Fin 32 → Fin 32 → EReal) (bc : Fin 32 → EReal) (W2 : Fin 5 → Fin 32 → EReal) (b2 : Fin 5 → EReal)
    (Wv1 : Fin 16 → Fin 32 → EReal) (bv1 : Fin 16 → EReal) (Wv2 : Fin 1 → Fin 16 → EReal) (bv2 : Fin 1 → EReal)
    (Wa1 : Fin 16 → Fin 32 → EReal) (ba1 : Fin 16 → EReal) (Wa2 : Fin 4 → Fin 16 → EReal) (ba2 : Fin 4 → EReal)
    (hWc_lo : ∀ (n : Fin 16) (k : Fin 32), Wc (Fin.castAdd 16 n) k = Wv1 n k)
    (hWc_hi : ∀ (n : Fin 16) (k : Fin 32), Wc (Fin.natAdd 16 n) k = Wa1 n k)
    (hbc_lo : ∀ n : Fin 16, bc (Fin.castAdd 16 n) = bv1 n) (hbc_hi : ∀ n : Fin 16, bc (Fin.natAdd 16 n) = ba1 n)
    (hW2_00 : ∀ k : Fin 16, W2 0 (Fin.castAdd 16 k) = Wv2 0 k) (hW2_01 : ∀ k : Fin 16, W2 0 (Fin.natAdd 16 k) = 0)
    (hW2_10 : ∀ (j : Fin 4) (k : Fin 16), W2 j.succ (Fin.castAdd 16 k) = 0)
    (hW2_11 : ∀ (j : Fin 4) (k : Fin 16), W2 j.succ (Fin.natAdd 16 k) = Wa2 j k)
    (hb2_0 : b2 0 = bv2 0) (hb2_1 : ∀ j : Fin 4, b2 j.succ = ba2 j) (f : Fin 32 → EReal) :
    fusedHead Wc bc W2 b2 f = head Wv1 bv1 Wv2 bv2 Wa1 ba1 Wa2 ba2 f := by
  have hlo : ∀ n : Fin 16, relu (dense Wc bc f) (Fin.castAdd 16 n) = relu (dense Wv1 bv1 f) n := fun n => by
    simp only [relu, dense, hWc_lo, hbc_lo]
  have hhi : ∀ n : Fin 16, relu (dense Wc bc f) (Fin.natAdd 16 n) = relu (dense Wa1 ba1 f) n := fun n => by
    simp only [relu, dense, hWc_hi, hbc_hi]
  have hv : dense W2 b2 (relu (dense Wc bc f)) 0 = dense Wv2 bv2 (relu (dense Wv1 bv1 f)) 0 := by
    show (∑ k : Fin 32, relu (dense Wc bc f) k * W2 0 k) + b2 0 = (∑ k : Fin 16, relu (dense Wv1 bv1 f) k * Wv2 0 k) + bv2 0
    rw [sum_halves, hb2_0]
    simp only [hlo, hhi, hW2_00, hW2_01, mul_zero, Finset.sum_const_zero, add_zero]
  have ha : ∀ j : Fin 4, dense W2 b2 (relu (dense Wc bc f)) j.succ = dense Wa2 ba2 (relu (dense Wa1 ba1 f)) j := fun j => by
    show (∑ k : Fin 32, relu (dense Wc bc f) k * W2 j.succ k) + b2 j.succ = (∑ k : Fin 16, relu (dense Wa1 ba1 f) k * Wa2 j k) + ba2 j
    rw [sum_halves, hb2_1]
    simp only [hlo, hhi, hW2_10, hW2_11, mul_zero, Finset.sum_const_zero, zero_add]
  unfold fusedHead head
  rw [hv, funext ha]

end Cert.Net

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«145028_j88716844467015_2_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibColCast.lean ====
/-
  A VECTOR LAID OUT AS A COLUMN, READ AT AN ELEMENT.

  An array of shape [a] recast to shape [a, 1] — one number per row — holds, at (k, 0), the vector's entry k: both
  positions are the k-th in row-major order.
-/
import Idealize.ShloMosaic.Lib.Pipeline.Value
import Idealize.ShloMosaic.Lib.ValueIdx

noncomputable section

namespace Cert.Lib

open Idealize.ShloMosaic Idealize.ShloMosaic.ValueIdx

/-- An `[a]` array cast to `[a, 1]` reads, at `(k, u)`, the operand at `k`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (k : Fin a) (u : Fin 1) :
    shapeCast ⟨2, ![a, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Cert.Lib

end
-- ==== Proof.LibKernelLayers.lean ====
/-
  A KERNEL'S LAYERS ON A BLOCK OF ROWS, EACH READ AT AN ENTRY AS THE ROW-WISE NETWORK (generic in the sizes).

  A kernel that keeps M batch rows in a block computes every layer on the whole block with vector operations: a dense
  layer as a matrix product into the zero block plus a bias row repeated down the rows; a relu as a maximum with a zero
  splat; a row mean as a lane sum recast to a column and divided by a splat of the count; a layer normalisation through
  column broadcasts of the mean and of the reciprocal root; the modulation scalar; the duelling join through two column
  slices. Each definition below is that vector expression, and its lemma says that entry (r, n) of it is the matching
  row-wise function (module Net) of row r of the block.
-/
import proofs.«145028_j88716844467015_2_alg».proof.Proof.Net
import proofs.«145028_j88716844467015_2_alg».proof.Proof.LibTransMatmul
import proofs.«145028_j88716844467015_2_alg».proof.Proof.LibLaneSums
import proofs.«145028_j88716844467015_2_alg».proof.Proof.LibColBroadcast
import proofs.«145028_j88716844467015_2_alg».proof.Proof.LibColCast
import Idealize.ShloMosaic.Lib.ValueLayout

noncomputable section

open scoped BigOperators

namespace Cert.KLayers

open Idealize.ShloMosaic Idealize.ShloMosaic.ValueIdx Cert.Net Cert.Lib

variable {M K N : Nat}

/-- max(x, 0) on a block. -/
def kRelu {s : Shape} (x : FVec Ideal s .f32) : FVec Ideal s .f32 :=
  maximumf x (broadcast s (Scalar.ofBits (F := Ideal) .f32 0x00000000#32))

theorem kRelu_apply {s : Shape} (x : FVec Ideal s .f32) (i : s.Idx) : kRelu x i = max (x i) (lit 0x00000000#32) := rfl

theorem kRelu_row (x : FVec Ideal ⟨2, ![M, N]⟩ .f32) (r : Fin M) : rowOf (kRelu x) r = relu (rowOf x r) := rfl

/-- x · Wᵀ + b on a block: the product into the zero block plus the bias row repeated down the rows. -/
def kDense (d : DotDims ⟨2, ![M, K]⟩ ⟨2, ![N, K]⟩ ⟨2, ![M, N]⟩) {φ₁ φ₂ : FTy} (x : FVec Ideal ⟨2, ![M, K]⟩ φ₁)
    (W : FVec Ideal ⟨2, ![N, K]⟩ φ₂) (b : FVec Ideal ⟨2, ![1, N]⟩ .f32)
    (hb : (⟨2, ![1, N]⟩ : Shape).Broadcasts ⟨2, ![M, N]⟩) : FVec Ideal ⟨2, ![M, N]⟩ .f32 :=
  addf (matmul d none x W (constant (F := Ideal) ⟨2, ![M, N]⟩ .f32 0x00000000#32)) (broadcastTo ⟨2, ![M, N]⟩ b hb)

theorem kDense_row (d : DotDims ⟨2, ![M, K]⟩ ⟨2, ![N, K]⟩ ⟨2, ![M, N]⟩)
    (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (x : FVec Ideal ⟨2, ![M, K]⟩ φ₁) (W : FVec Ideal ⟨2, ![N, K]⟩ φ₂) (b : FVec Ideal ⟨2, ![1, N]⟩ .f32)
    (hb : (⟨2, ![1, N]⟩ : Shape).Broadcasts ⟨2, ![M, N]⟩) (r : Fin M) :
    rowOf (kDense d x W b hb) r = dense (matOf W) (row0 b) (rowOf x r) :=
  funext fun q => dense_t2_at d hl hr hln hrn hlb hrb none x W b hb r q

/-- The mean of each row as a column: the lane sum, recast [M] → [M, 1], divided by a splat of the count. -/
def kMean (c : BitVec 32) (x : FVec Ideal ⟨2, ![M, N]⟩ .f32) (h1 : Shape.Reduces ⟨2, ![M, N]⟩ [1] ⟨1, ![M]⟩)
    (h2 : (⟨1, ![M]⟩ : Shape).ShapeCasts ⟨2, ![M, 1]⟩) : FVec Ideal ⟨2, ![M, 1]⟩ .f32 :=
  divf (shapeCast ⟨2, ![M, 1]⟩ (multiReduction .add [1] ⟨1, ![M]⟩ x 0x00000000#32 h1 (.inl rfl) rfl) h2)
    (broadcast ⟨2, ![M, 1]⟩ (Scalar.ofBits (F := Ideal) .f32 c))

theorem kMean_apply (c : BitVec 32) (x : FVec Ideal ⟨2, ![M, N]⟩ .f32) (h1 : Shape.Reduces ⟨2, ![M, N]⟩ [1] ⟨1, ![M]⟩)
    (h2 : (⟨1, ![M]⟩ : Shape).ShapeCasts ⟨2, ![M, 1]⟩) (r : Fin M) (u : Fin 1) :
    kMean c x h1 h2 (ix2 r u) = mean c (rowOf x r) := by
  show Ideal.div (shapeCast ⟨2, ![M, 1]⟩ _ h2 (ix2 r u)) (lit c) = _
  rw [shapeCast_a_a1_apply]
  exact congrArg (fun s => Ideal.div s (lit c)) (rowSum_apply x 0x00000000#32 h1 (.inl rfl) rfl r)

/-- Layer normalisation on a block. -/
def kLayerNorm (c : BitVec 32) (x : FVec Ideal ⟨2, ![M, N]⟩ .f32) (g b : FVec Ideal ⟨2, ![1, N]⟩ .f32)
    (h1 : Shape.Reduces ⟨2, ![M, N]⟩ [1] ⟨1, ![M]⟩) (h2 : (⟨1, ![M]⟩ : Shape).ShapeCasts ⟨2, ![M, 1]⟩)
    (hc : (⟨2, ![M, 1]⟩ : Shape).Broadcasts ⟨2, ![M, N]⟩) (hr : (⟨2, ![1, N]⟩ : Shape).Broadcasts ⟨2, ![M, N]⟩) :
    FVec Ideal ⟨2, ![M, N]⟩ .f32 :=
  addf (mulf (mulf (subf x (broadcastTo ⟨2, ![M, N]⟩ (kMean c x h1 h2) hc))
      (broadcastTo ⟨2, ![M, N]⟩ (rsqrt (addf
        (kMean c (mulf (subf x (broadcastTo ⟨2, ![M, N]⟩ (kMean c x h1 h2) hc)) (subf x (broadcastTo ⟨2, ![M, N]⟩ (kMean c x h1 h2) hc))) h1 h2)
        (broadcast ⟨2, ![M, 1]⟩ (Scalar.ofBits (F := Ideal) .f32 0x3727C5AC#32)))) hc))
    (broadcastTo ⟨2, ![M, N]⟩ g hr)) (broadcastTo ⟨2, ![M, N]⟩ b hr)

theorem kLayerNorm_row (c : BitVec 32) (x : FVec Ideal ⟨2, ![M, N]⟩ .f32) (g b : FVec Ideal ⟨2, ![1, N]⟩ .f32)
    (h1 : Shape.Reduces ⟨2, ![M, N]⟩ [1] ⟨1, ![M]⟩) (h2 : (⟨1, ![M]⟩ : Shape).ShapeCasts ⟨2, ![M, 1]⟩)
    (hc : (⟨2, ![M, 1]⟩ : Shape).Broadcasts ⟨2, ![M, N]⟩) (hr : (⟨2, ![1, N]⟩ : Shape).Broadcasts ⟨2, ![M, N]⟩) (r : Fin M) :
    rowOf (kLayerNorm c x g b h1 h2 hc hr) r = layerNorm c (row0 g) (row0 b) (rowOf x r) := by
  have hd : ∀ k : Fin N, subf x (broadcastTo ⟨2, ![M, N]⟩ (kMean c x h1 h2) hc) (ix2 r k) = rowOf x r k - mean c (rowOf x r) := fun k => by
    show x (ix2 r k) - broadcastTo ⟨2, ![M, N]⟩ (kMean c x h1 h2) hc (ix2 r k) = _
    rw [broadcastTo_a1_ab_apply, kMean_apply]; rfl
  funext n
  show (subf x (broadcastTo ⟨2, ![M, N]⟩ (kMean c x h1 h2) hc) (ix2 r n)
      * broadcastTo ⟨2, ![M, N]⟩ (rsqrt (addf (kMean c (mulf (subf x (broadcastTo ⟨2, ![M, N]⟩ (kMean c x h1 h2) hc)) (subf x (broadcastTo ⟨2, ![M, N]⟩ (kMean c x h1 h2) hc))) h1 h2)
          (broadcast ⟨2, ![M, 1]⟩ (Scalar.ofBits (F := Ideal) .f32 0x3727C5AC#32)))) hc (ix2 r n))
      * broadcastTo ⟨2, ![M, N]⟩ g hr (ix2 r n) + broadcastTo ⟨2, ![M, N]⟩ b hr (ix2 r n) = _
  rw [broadcastTo_a1_ab_apply, broadcastTo_1b_ab_apply, broadcastTo_1b_ab_apply, hd]
  show (rowOf x r n - mean c (rowOf x r))
      * Ideal.rsqrt (kMean c (mulf (subf x (broadcastTo ⟨2, ![M, N]⟩ (kMean c x h1 h2) hc)) (subf x (broadcastTo ⟨2, ![M, N]⟩ (kMean c x h1 h2) hc))) h1 h2 (ix2 r (0 : Fin 1))
          + lit 0x3727C5AC#32) * row0 g n + row0 b n = _
  rw [kMean_apply]
  have hsq : rowOf (mulf (subf x (broadcastTo ⟨2, ![M, N]⟩ (kMean c x h1 h2) hc)) (subf x (broadcastTo ⟨2, ![M, N]⟩ (kMean c x h1 h2) hc))) r
      = fun k => (rowOf x r k - mean c (rowOf x r)) * (rowOf x r k - mean c (rowOf x r)) := funext fun k => by
    show subf x _ (ix2 r k) * subf x _ (ix2 r k) = _
    rw [hd]
  rw [hsq]
  rfl

/-- The modulation column 0.7 + 0.3 · mean(gate row). -/
def kMod (gt : FVec Ideal ⟨2, ![M, N]⟩ .f32) (h1 : Shape.Reduces ⟨2, ![M, N]⟩ [1] ⟨1, ![M]⟩)
    (h2 : (⟨1, ![M]⟩ : Shape).ShapeCasts ⟨2, ![M, 1]⟩) : FVec Ideal ⟨2, ![M, 1]⟩ .f32 :=
  addf (broadcast ⟨2, ![M, 1]⟩ (Scalar.ofBits (F := Ideal) .f32 0x3F333333#32))
    (mulf (broadcast ⟨2, ![M, 1]⟩ (Scalar.ofBits (F := Ideal) .f32 0x3E99999A#32)) (kMean 0x42000000#32 gt h1 h2))

theorem kMod_apply (gt : FVec Ideal ⟨2, ![M, N]⟩ .f32) (h1 : Shape.Reduces ⟨2, ![M, N]⟩ [1] ⟨1, ![M]⟩)
    (h2 : (⟨1, ![M]⟩ : Shape).ShapeCasts ⟨2, ![M, 1]⟩) (r : Fin M) (u : Fin 1) :
    kMod gt h1 h2 (ix2 r u) = modulation (rowOf gt r) := by
  show lit 0x3F333333#32 + lit 0x3E99999A#32 * kMean 0x42000000#32 gt h1 h2 (ix2 r u) = _
  rw [kMean_apply]
  rfl

/-- The base layer on a block: relu ((x · Wᵀ) · mod + b), the modulation a column repeated across the columns. -/
def kBase (d : DotDims ⟨2, ![M, K]⟩ ⟨2, ![N, K]⟩ ⟨2, ![M, N]⟩) {φ₁ φ₂ : FTy} (x : FVec Ideal ⟨2, ![M, K]⟩ φ₁)
    (W : FVec Ideal ⟨2, ![N, K]⟩ φ₂) (md : FVec Ideal ⟨2, ![M, 1]⟩ .f32) (b : FVec Ideal ⟨2, ![1, N]⟩ .f32)
    (hc : (⟨2, ![M, 1]⟩ : Shape).Broadcasts ⟨2, ![M, N]⟩) (hr : (⟨2, ![1, N]⟩ : Shape).Broadcasts ⟨2, ![M, N]⟩) :
    FVec Ideal ⟨2, ![M, N]⟩ .f32 :=
  kRelu (addf (mulf (matmul d none x W (constant (F := Ideal) ⟨2, ![M, N]⟩ .f32 0x00000000#32)) (broadcastTo ⟨2, ![M, N]⟩ md hc))
    (broadcastTo ⟨2, ![M, N]⟩ b hr))

theorem kBase_row (d : DotDims ⟨2, ![M, K]⟩ ⟨2, ![N, K]⟩ ⟨2, ![M, N]⟩)
    (hl : d.lhsContracting = [1]) (hr' : d.rhsContracting = [1])
    (hln : d.lhsNonContracting = [0]) (hrn : d.rhsNonContracting = [0]) (hlb : d.lhsBatch = []) (hrb : d.rhsBatch = [])
    {φ₁ φ₂ : FTy} (x : FVec Ideal ⟨2, ![M, K]⟩ φ₁) (W : FVec Ideal ⟨2, ![N, K]⟩ φ₂) (md : FVec Ideal ⟨2, ![M, 1]⟩ .f32)
    (b : FVec Ideal ⟨2, ![1, N]⟩ .f32) (hc : (⟨2, ![M, 1]⟩ : Shape).Broadcasts ⟨2, ![M, N]⟩)
    (hr : (⟨2, ![1, N]⟩ : Shape).Broadcasts ⟨2, ![M, N]⟩) (r : Fin M) :
    rowOf (kBase d x W md b hc hr) r = base (matOf W) (row0 b) (md (ix2 r (0 : Fin 1))) (rowOf x r) := by
  funext n
  show max (matmul d none x W (constant (F := Ideal) ⟨2, ![M, N]⟩ .f32 0x00000000#32) (ix2 r n) * broadcastTo ⟨2, ![M, N]⟩ md hc (ix2 r n)
      + broadcastTo ⟨2, ![M, N]⟩ b hr (ix2 r n)) (lit 0x00000000#32) = _
  rw [matmul_t2_zero_at d hl hr' hln hrn hlb hrb, broadcastTo_a1_ab_apply, broadcastTo_1b_ab_apply]
  rfl

/-- The duelling join on a block of [M, 5] head outputs: column 0 the value, columns 1…4 the advantages. -/
def kDuel (va : FVec Ideal ⟨2, ![M, 5]⟩ .f32) (hs1 : (⟨2, ![M, 5]⟩ : Shape).Slices ![0, 0] ⟨2, ![M, 1]⟩)
    (hs4 : (⟨2, ![M, 5]⟩ : Shape).Slices ![0, 1] ⟨2, ![M, 4]⟩) (h1 : Shape.Reduces ⟨2, ![M, 4]⟩ [1] ⟨1, ![M]⟩)
    (h2 : (⟨1, ![M]⟩ : Shape).ShapeCasts ⟨2, ![M, 1]⟩) (hc : (⟨2, ![M, 1]⟩ : Shape).Broadcasts ⟨2, ![M, 4]⟩) :
    FVec Ideal ⟨2, ![M, 4]⟩ .f32 :=
  addf (broadcastTo ⟨2, ![M, 4]⟩ (extractStridedSlice ⟨2, ![M, 1]⟩ ![0, 0] va hs1) hc)
    (subf (extractStridedSlice ⟨2, ![M, 4]⟩ ![0, 1] va hs4)
      (broadcastTo ⟨2, ![M, 4]⟩ (kMean 0x40800000#32 (extractStridedSlice ⟨2, ![M, 4]⟩ ![0, 1] va hs4) h1 h2) hc))

theorem kDuel_row (va : FVec Ideal ⟨2, ![M, 5]⟩ .f32) (hs1 : (⟨2, ![M, 5]⟩ : Shape).Slices ![0, 0] ⟨2, ![M, 1]⟩)
    (hs4 : (⟨2, ![M, 5]⟩ : Shape).Slices ![0, 1] ⟨2, ![M, 4]⟩) (h1 : Shape.Reduces ⟨2, ![M, 4]⟩ [1] ⟨1, ![M]⟩)
    (h2 : (⟨1, ![M]⟩ : Shape).ShapeCasts ⟨2, ![M, 1]⟩) (hc : (⟨2, ![M, 1]⟩ : Shape).Broadcasts ⟨2, ![M, 4]⟩) (r : Fin M) :
    rowOf (kDuel va hs1 hs4 h1 h2 hc) r = duel (rowOf va r 0) (fun j => rowOf va r j.succ) := by
  have ha : rowOf (extractStridedSlice ⟨2, ![M, 4]⟩ ![0, 1] va hs4) r = fun j => rowOf va r j.succ := funext fun j =>
    slice2_axis1_apply 1 va hs4 r j j.succ (by show j.val + 1 = 1 + j.val; omega)
  funext j
  show broadcastTo ⟨2, ![M, 4]⟩ (extractStridedSlice ⟨2, ![M, 1]⟩ ![0, 0] va hs1) hc (ix2 r j)
      + (extractStridedSlice ⟨2, ![M, 4]⟩ ![0, 1] va hs4 (ix2 r j)
        - broadcastTo ⟨2, ![M, 4]⟩ (kMean 0x40800000#32 (extractStridedSlice ⟨2, ![M, 4]⟩ ![0, 1] va hs4) h1 h2) hc (ix2 r j)) = _
  rw [broadcastTo_a1_ab_apply, broadcastTo_a1_ab_apply, kMean_apply, ha,
    slice2_axis1_apply 0 va hs1 r (0 : Fin 1) (0 : Fin 5) rfl]
  show _ + (rowOf (extractStridedSlice ⟨2, ![M, 4]⟩ ![0, 1] va hs4) r j - _) = _
  rw [ha]
  rfl

end Cert.KLayers

end
-- ==== Proof.KernelRows.lean ====
/-
  THE KERNEL'S BODY ON ONE BLOCK OF 1024 ROWS, ROW BY ROW.

  The body's arithmetic is five pure terms over the loaded blocks. Each is, after dropping the identity shape casts,
  a composition of the block layers of module LibKernelLayers (format changes are the identity on the extended reals):
  the gate; the modulated base product; the first layer normalisation with its dense layer; the second with its dense
  layer; the fused duelling head. Row r of each therefore is the row-wise network of module Net applied to row r of the
  input blocks, with the weights read off the weight blocks.
-/
import proofs.«145028_j88716844467015_2_alg».proof.Proof.Gen.KernelIdeal.Skeleton
import proofs.«145028_j88716844467015_2_alg».proof.Proof.LibKernelLayers

noncomputable section

open scoped BigOperators

namespace Cert.KernelIdeal.Rows

open Cert.KernelIdeal Cert.KernelIdeal.Gen Idealize.ShloMosaic Idealize.ShloMosaic.ValueIdx Cert.Net Cert.KLayers

/-! ## The payloads as layers -/

theorem pay2_eq (v0 : Vec Ideal S1024x2048 .f32) (v4 : Vec Ideal S64x2048 .bf16) (v6 : Vec Ideal S1x64 .f32)
    (v13 : Vec Ideal S32x64 .f32) (v14 : Vec Ideal S1x32 .f32) :
    k0_pay2 v0 v4 v6 v13 v14 = logistic (kDense (φ₂ := .f32) dot_S1024x64_S32x64_S1024x32_1_1_0_0_n_n
      (kRelu (kDense (φ₂ := .bf16) dot_S1024x2048_S64x2048_S1024x64_1_1_0_0_n_n (truncf .bf16 v0 bitsLt_bf16_f32) v4 v6 broadcasts_S1x64_S1024x64))
      v13 v14 broadcasts_S1x32_S1024x32) := by
  unfold k0_pay2
  simp only [shapeCast_self]
  rfl

theorem pay3_eq (v0 : Vec Ideal S1024x2048 .f32) (v2 : Vec Ideal S1024x512 .f32) (v4 : Vec Ideal S64x2048 .bf16)
    (v6 : Vec Ideal S1x64 .f32) (v13 : Vec Ideal S32x64 .f32) (v14 : Vec Ideal S1x32 .f32) (v29 : Vec Ideal S128x512 .bf16) :
    k0_pay3 v0 v2 v4 v6 v13 v14 v29 = mulf
      (matmul (φ₂ := .bf16) dot_S1024x512_S128x512_S1024x128_1_1_0_0_n_n none (truncf .bf16 v2 bitsLt_bf16_f32) v29
        (constant (F := Ideal) S1024x128 .f32 0x00000000#32))
      (broadcastTo S1024x128 (kMod (k0_pay2 v0 v4 v6 v13 v14) reduces_S1024x32_S1024 shapeCasts_S1024_S1024x1)
        broadcasts_S1024x1_S1024x128) := by
  unfold k0_pay3
  simp only [shapeCast_self]
  rfl

theorem pay4_eq (v33 : FVec Ideal S1024x128 .f32) (v34 v58 v62 : Vec Ideal S1x128 .f32) (v67 : Vec Ideal S64x128 .bf16)
    (v69 : Vec Ideal S1x64 .f32) :
    k0_pay4 v33 v34 v58 v62 v67 v69 = kRelu (kDense (φ₂ := .bf16) dot_S1024x128_S64x128_S1024x64_1_1_0_0_n_n
      (truncf .bf16 (kLayerNorm 0x43000000#32 (kRelu (addf v33 (broadcastTo S1024x128 v34 broadcasts_S1x128_S1024x128))) v58 v62
        reduces_S1024x128_S1024 shapeCasts_S1024_S1024x1 broadcasts_S1024x1_S1024x128 broadcasts_S1x128_S1024x128) bitsLt_bf16_f32)
      v67 v69 broadcasts_S1x64_S1024x64) := by
  unfold k0_pay4
  simp only [shapeCast_self]
  rfl

theorem pay5_eq (v75 : FVec Ideal S1024x64 .f32) (v94 v98 : Vec Ideal S1x64 .f32) (v103 : Vec Ideal S32x64 .bf16)
    (v105 : Vec Ideal S1x32 .f32) :
    k0_pay5 v75 v94 v98 v103 v105 = truncf .bf16 (kRelu (kDense (φ₂ := .bf16) dot_S1024x64_S32x64_S1024x32_1_1_0_0_n_n
      (truncf .bf16 (kLayerNorm 0x42800000#32 v75 v94 v98
        reduces_S1024x64_S1024 shapeCasts_S1024_S1024x1 broadcasts_S1024x1_S1024x64 broadcasts_S1x64_S1024x64) bitsLt_bf16_f32)
      v103 v105 broadcasts_S1x32_S1024x32)) bitsLt_bf16_f32 := by
  unfold k0_pay5
  simp only [shapeCast_self]
  rfl

theorem pay1_eq (v112 : FVec Ideal S1024x32 .bf16) (v114 : FVec Ideal S32x32 .bf16) (v116 : FVec Ideal S1x32 .f32)
    (v123 : Vec Ideal S5x32 .bf16) (v125 : Vec Ideal S1x5 .f32) :
    k0_pay1 v112 v114 v116 v123 v125 = kDuel (kDense (φ₂ := .bf16) dot_S1024x32_S5x32_S1024x5_1_1_0_0_n_n
      (truncf .bf16 (kRelu (kDense dot_S1024x32_S32x32_S1024x32_1_1_0_0_n_n v112 v114 v116 broadcasts_S1x32_S1024x32)) bitsLt_bf16_f32)
      v123 v125 broadcasts_S1x5_S1024x5)
      slices_S1024x5_o0_0_S1024x1 slices_S1024x5_o0_1_S1024x4 reduces_S1024x4_S1024 shapeCasts_S1024_S1024x1 broadcasts_S1024x1_S1024x4 := by
  unfold k0_pay1
  simp only [shapeCast_self]
  rfl

theorem pay6_eq (v113 : Vec Ideal S32x32 .bf16) : k0_pay6 v113 = v113 := by
  unfold k0_pay6
  simp only [shapeCast_self]

theorem pay7_eq (v115 : Vec Ideal S1x32 .f32) : k0_pay7 v115 = v115 := by
  unfold k0_pay7
  simp only [shapeCast_self]

/-! ## Row r of each payload -/

/-- The gate block: row r is the gate of row r of the history block. -/
theorem pay2_row (v0 : Vec Ideal S1024x2048 .f32) (v4 : Vec Ideal S64x2048 .bf16) (v6 : Vec Ideal S1x64 .f32)
    (v13 : Vec Ideal S32x64 .f32) (v14 : Vec Ideal S1x32 .f32) (r : Fin 1024) :
    rowOf (k0_pay2 v0 v4 v6 v13 v14) r = gate (matOf v4) (row0 v6) (matOf v13) (row0 v14) (rowOf v0 r) := by
  rw [pay2_eq]
  funext n
  show Ideal.logistic (rowOf (kDense (φ₂ := .f32) dot_S1024x64_S32x64_S1024x32_1_1_0_0_n_n
      (kRelu (kDense (φ₂ := .bf16) dot_S1024x2048_S64x2048_S1024x64_1_1_0_0_n_n (truncf .bf16 v0 bitsLt_bf16_f32) v4 v6 broadcasts_S1x64_S1024x64))
      v13 v14 broadcasts_S1x32_S1024x32) r n) = _
  rw [kDense_row _ rfl rfl rfl rfl rfl rfl, kRelu_row, kDense_row _ rfl rfl rfl rfl rfl rfl]
  rfl

/-- The base layer's block (the modulated product, then bias and relu): row r. -/
theorem base_row (v0 : Vec Ideal S1024x2048 .f32) (v2 : Vec Ideal S1024x512 .f32) (v4 : Vec Ideal S64x2048 .bf16)
    (v6 : Vec Ideal S1x64 .f32) (v13 : Vec Ideal S32x64 .f32) (v14 : Vec Ideal S1x32 .f32) (v29 : Vec Ideal S128x512 .bf16)
    (v34 : Vec Ideal S1x128 .f32) (r : Fin 1024) :
    rowOf (kRelu (addf (k0_pay3 v0 v2 v4 v6 v13 v14 v29) (broadcastTo S1024x128 v34 broadcasts_S1x128_S1024x128))) r
      = base (matOf v29) (row0 v34) (modulation (gate (matOf v4) (row0 v6) (matOf v13) (row0 v14) (rowOf v0 r))) (rowOf v2 r) := by
  rw [pay3_eq]
  show rowOf (kBase (φ₂ := .bf16) dot_S1024x512_S128x512_S1024x128_1_1_0_0_n_n (truncf .bf16 v2 bitsLt_bf16_f32) v29
      (kMod (k0_pay2 v0 v4 v6 v13 v14) reduces_S1024x32_S1024 shapeCasts_S1024_S1024x1) v34
      broadcasts_S1024x1_S1024x128 broadcasts_S1x128_S1024x128) r = _
  rw [kBase_row _ rfl rfl rfl rfl rfl rfl, kMod_apply, pay2_row]
  rfl

/-- The trunk: rows of the two normalised dense layers over the base layer's block. -/
theorem pay5_row (v33 : FVec Ideal S1024x128 .f32) (v34 v58 v62 : Vec Ideal S1x128 .f32) (v67 : Vec Ideal S64x128 .bf16)
    (v69 v94 v98 : Vec Ideal S1x64 .f32) (v103 : Vec Ideal S32x64 .bf16) (v105 : Vec Ideal S1x32 .f32) (r : Fin 1024) :
    rowOf (k0_pay5 (k0_pay4 v33 v34 v58 v62 v67 v69) v94 v98 v103 v105) r
      = trunk (row0 v58) (row0 v62) (matOf v67) (row0 v69) (row0 v94) (row0 v98) (matOf v103) (row0 v105)
          (rowOf (kRelu (addf v33 (broadcastTo S1024x128 v34 broadcasts_S1x128_S1024x128))) r) := by
  rw [pay5_eq, pay4_eq]
  show rowOf (kRelu (kDense (φ₂ := .bf16) dot_S1024x64_S32x64_S1024x32_1_1_0_0_n_n
      (truncf .bf16 (kLayerNorm 0x42800000#32 (kRelu (kDense (φ₂ := .bf16) dot_S1024x128_S64x128_S1024x64_1_1_0_0_n_n
        (truncf .bf16 (kLayerNorm 0x43000000#32 (kRelu (addf v33 (broadcastTo S1024x128 v34 broadcasts_S1x128_S1024x128))) v58 v62
          reduces_S1024x128_S1024 shapeCasts_S1024_S1024x1 broadcasts_S1024x1_S1024x128 broadcasts_S1x128_S1024x128) bitsLt_bf16_f32)
        v67 v69 broadcasts_S1x64_S1024x64)) v94 v98
        reduces_S1024x64_S1024 shapeCasts_S1024_S1024x1 broadcasts_S1024x1_S1024x64 broadcasts_S1x64_S1024x64) bitsLt_bf16_f32)
      v103 v105 broadcasts_S1x32_S1024x32)) r = _
  rw [kRelu_row, kDense_row _ rfl rfl rfl rfl rfl rfl]
  show relu (dense (matOf v103) (row0 v105) (rowOf (kLayerNorm 0x42800000#32 (kRelu (kDense (φ₂ := .bf16) dot_S1024x128_S64x128_S1024x64_1_1_0_0_n_n
        (truncf .bf16 (kLayerNorm 0x43000000#32 (kRelu (addf v33 (broadcastTo S1024x128 v34 broadcasts_S1x128_S1024x128))) v58 v62
          reduces_S1024x128_S1024 shapeCasts_S1024_S1024x1 broadcasts_S1024x1_S1024x128 broadcasts_S1x128_S1024x128) bitsLt_bf16_f32)
        v67 v69 broadcasts_S1x64_S1024x64)) v94 v98
        reduces_S1024x64_S1024 shapeCasts_S1024_S1024x1 broadcasts_S1024x1_S1024x64 broadcasts_S1x64_S1024x64) r)) = _
  rw [kLayerNorm_row, kRelu_row, kDense_row _ rfl rfl rfl rfl rfl rfl]
  show relu (dense (matOf v103) (row0 v105) (layerNorm 0x42800000#32 (row0 v94) (row0 v98) (relu (dense (matOf v67) (row0 v69)
      (rowOf (kLayerNorm 0x43000000#32 (kRelu (addf v33 (broadcastTo S1024x128 v34 broadcasts_S1x128_S1024x128))) v58 v62
          reduces_S1024x128_S1024 shapeCasts_S1024_S1024x1 broadcasts_S1024x1_S1024x128 broadcasts_S1x128_S1024x128) r))))) = _
  rw [kLayerNorm_row]
  rfl

/-- The fused head: row r of the result block from row r of the features block. -/
theorem pay1_row (v112 : FVec Ideal S1024x32 .bf16) (v114 : FVec Ideal S32x32 .bf16) (v116 : FVec Ideal S1x32 .f32)
    (v123 : Vec Ideal S5x32 .bf16) (v125 : Vec Ideal S1x5 .f32) (r : Fin 1024) :
    rowOf (k0_pay1 v112 v114 v116 v123 v125) r = fusedHead (matOf v114) (row0 v116) (matOf v123) (row0 v125) (rowOf v112 r) := by
  rw [pay1_eq, kDuel_row]
  show duel (rowOf (kDense (φ₂ := .bf16) dot_S1024x32_S5x32_S1024x5_1_1_0_0_n_n
      (truncf .bf16 (kRelu (kDense dot_S1024x32_S32x32_S1024x32_1_1_0_0_n_n v112 v114 v116 broadcasts_S1x32_S1024x32)) bitsLt_bf16_f32)
      v123 v125 broadcasts_S1x5_S1024x5) r 0) (fun j => rowOf (kDense (φ₂ := .bf16) dot_S1024x32_S5x32_S1024x5_1_1_0_0_n_n
      (truncf .bf16 (kRelu (kDense dot_S1024x32_S32x32_S1024x32_1_1_0_0_n_n v112 v114 v116 broadcasts_S1x32_S1024x32)) bitsLt_bf16_f32)
      v123 v125 broadcasts_S1x5_S1024x5) r j.succ) = _
  rw [kDense_row _ rfl rfl rfl rfl rfl rfl]
  show duel (dense (matOf v123) (row0 v125) (rowOf (kRelu (kDense dot_S1024x32_S32x32_S1024x32_1_1_0_0_n_n v112 v114 v116 broadcasts_S1x32_S1024x32)) r) 0)
      (fun j => dense (matOf v123) (row0 v125) (rowOf (kRelu (kDense dot_S1024x32_S32x32_S1024x32_1_1_0_0_n_n v112 v114 v116 broadcasts_S1x32_S1024x32)) r) j.succ) = _
  rw [kRelu_row, kDense_row _ rfl rfl rfl rfl rfl rfl]
  rfl

/-! ## The two results of a block -/

/-- The q block of a grid point, from its twenty input blocks (the order of the kernel's operands). -/
def qBlock (x0 : Vec Ideal S1024x512 .f32) (x1 : Vec Ideal S1024x2048 .f32) (x2 : Vec Ideal S64x2048 .bf16) (x3 : Vec Ideal S1x64 .f32)
    (x4 : Vec Ideal S32x64 .f32) (x5 : Vec Ideal S1x32 .f32) (x6 : Vec Ideal S128x512 .bf16) (x7 x8 x9 : Vec Ideal S1x128 .f32)
    (x10 : Vec Ideal S64x128 .bf16) (x11 x12 x13 : Vec Ideal S1x64 .f32) (x14 : Vec Ideal S32x64 .bf16) (x15 : Vec Ideal S1x32 .f32)
    (x16 : Vec Ideal S32x32 .bf16) (x17 : Vec Ideal S1x32 .f32) (x18 : Vec Ideal S5x32 .bf16) (x19 : Vec Ideal S1x5 .f32) :
    Vec Ideal S1024x4 .f32 :=
  k0_pay1 (k0_pay5 (k0_pay4 (k0_pay3 x1 x0 x2 x3 x4 x5 x6) x7 x8 x9 x10 x11) x12 x13 x14 x15) (k0_pay6 x16) (k0_pay7 x17) x18 x19

/-- Row r of the q block: the network with the fused head, on row r of the x and history blocks. -/
theorem qBlock_row (x0 : Vec Ideal S1024x512 .f32) (x1 : Vec Ideal S1024x2048 .f32) (x2 : Vec Ideal S64x2048 .bf16) (x3 : Vec Ideal S1x64 .f32)
    (x4 : Vec Ideal S32x64 .f32) (x5 : Vec Ideal S1x32 .f32) (x6 : Vec Ideal S128x512 .bf16) (x7 x8 x9 : Vec Ideal S1x128 .f32)
    (x10 : Vec Ideal S64x128 .bf16) (x11 x12 x13 : Vec Ideal S1x64 .f32) (x14 : Vec Ideal S32x64 .bf16) (x15 : Vec Ideal S1x32 .f32)
    (x16 : Vec Ideal S32x32 .bf16) (x17 : Vec Ideal S1x32 .f32) (x18 : Vec Ideal S5x32 .bf16) (x19 : Vec Ideal S1x5 .f32) (r : Fin 1024) :
    rowOf (qBlock x0 x1 x2 x3 x4 x5 x6 x7 x8 x9 x10 x11 x12 x13 x14 x15 x16 x17 x18 x19) r
      = fusedHead (matOf x16) (row0 x17) (matOf x18) (row0 x19)
          (trunk (row0 x8) (row0 x9) (matOf x10) (row0 x11) (row0 x12) (row0 x13) (matOf x14) (row0 x15)
            (base (matOf x6) (row0 x7) (modulation (gate (matOf x2) (row0 x3) (matOf x4) (row0 x5) (rowOf x1 r))) (rowOf x0 r))) := by
  unfold qBlock
  rw [pay1_row, pay6_eq, pay7_eq, pay5_row, base_row]

end Cert.KernelIdeal.Rows

end
-- ==== Proof.LibConcatPair.lean ====
/-
  TWO PIECES JOINED ALONG ONE AXIS, READ AT AN ELEMENT (generic in the sizes).

  Two matrices with the same columns stacked on top of each other: a row index below the first piece's height reads the
  first piece, one at or above it reads the second piece at the row less that height. Two matrices with the same rows
  set side by side: likewise on the column. Two vectors joined end to end: likewise on the one coordinate.
-/
import Idealize.ShloMosaic.Lib.Pipeline.Value
import Idealize.ShloMosaic.Lib.ValueIdx

noncomputable section

namespace Cert.Lib

open Idealize.ShloMosaic Idealize.ShloMosaic.ValueIdx

variable {α : Type}

/-- Stacked rows, the top piece. -/
theorem concat_rows_top {A B T C : Nat} (X : (⟨2, ![A, C]⟩ : Shape).Idx → α) (Y : (⟨2, ![B, C]⟩ : Shape).Idx → α)
    (h : Shape.Concatenates [⟨2, ![A, C]⟩, ⟨2, ![B, C]⟩] ⟨2, ![T, C]⟩ 0) (p : Fin T) (n : Fin A) (k : Fin C) (hp : p.val = n.val) :
    concatenate ⟨2, ![T, C]⟩ 0 [⟨⟨2, ![A, C]⟩, X⟩, ⟨⟨2, ![B, C]⟩, Y⟩] h (ix2 p k) = X (ix2 n k) :=
  concatenate_pair_apply_left 0 X Y h (ix2 p k) rfl (ix2 n k) fun b => match b with
    | ⟨0, _⟩ => hp.symm
    | ⟨1, _⟩ => rfl

/-- Stacked rows, the bottom piece. -/
theorem concat_rows_bot {A B T C : Nat} (X : (⟨2, ![A, C]⟩ : Shape).Idx → α) (Y : (⟨2, ![B, C]⟩ : Shape).Idx → α)
    (h : Shape.Concatenates [⟨2, ![A, C]⟩, ⟨2, ![B, C]⟩] ⟨2, ![T, C]⟩ 0) (p : Fin T) (n : Fin B) (k : Fin C) (hp : p.val = A + n.val) :
    concatenate ⟨2, ![T, C]⟩ 0 [⟨⟨2, ![A, C]⟩, X⟩, ⟨⟨2, ![B, C]⟩, Y⟩] h (ix2 p k) = Y (ix2 n k) :=
  concatenate_pair_apply_right 0 X Y h (ix2 p k) rfl rfl (ix2 n k)
    (fun b hb => match b, hb with
      | ⟨0, _⟩, hb => absurd rfl hb
      | ⟨1, _⟩, _ => rfl)
    (by show n.val + A = p.val; omega)

/-- Side by side, the left piece. -/
theorem concat_cols_left {R A B T : Nat} (X : (⟨2, ![R, A]⟩ : Shape).Idx → α) (Y : (⟨2, ![R, B]⟩ : Shape).Idx → α)
    (h : Shape.Concatenates [⟨2, ![R, A]⟩, ⟨2, ![R, B]⟩] ⟨2, ![R, T]⟩ 1) (r : Fin R) (p : Fin T) (k : Fin A) (hp : p.val = k.val) :
    concatenate ⟨2, ![R, T]⟩ 1 [⟨⟨2, ![R, A]⟩, X⟩, ⟨⟨2, ![R, B]⟩, Y⟩] h (ix2 r p) = X (ix2 r k) :=
  concatenate_pair_apply_left 1 X Y h (ix2 r p) rfl (ix2 r k) fun b => match b with
    | ⟨0, _⟩ => rfl
    | ⟨1, _⟩ => hp.symm

/-- Side by side, the right piece. -/
theorem concat_cols_right {R A B T : Nat} (X : (⟨2, ![R, A]⟩ : Shape).Idx → α) (Y : (⟨2, ![R, B]⟩ : Shape).Idx → α)
    (h : Shape.Concatenates [⟨2, ![R, A]⟩, ⟨2, ![R, B]⟩] ⟨2, ![R, T]⟩ 1) (r : Fin R) (p : Fin T) (k : Fin B) (hp : p.val = A + k.val) :
    concatenate ⟨2, ![R, T]⟩ 1 [⟨⟨2, ![R, A]⟩, X⟩, ⟨⟨2, ![R, B]⟩, Y⟩] h (ix2 r p) = Y (ix2 r k) :=
  concatenate_pair_apply_right 1 X Y h (ix2 r p) rfl rfl (ix2 r k)
    (fun b hb => match b, hb with
      | ⟨0, _⟩, _ => rfl
      | ⟨1, _⟩, hb => absurd rfl hb)
    (by show k.val + A = p.val; omega)

/-- End to end, the first piece. -/
theorem concat_vec_lo {A B T : Nat} (X : (⟨1, ![A]⟩ : Shape).Idx → α) (Y : (⟨1, ![B]⟩ : Shape).Idx → α)
    (h : Shape.Concatenates [⟨1, ![A]⟩, ⟨1, ![B]⟩] ⟨1, ![T]⟩ 0) (p : Fin T) (n : Fin A) (hp : p.val = n.val) :
    concatenate ⟨1, ![T]⟩ 0 [⟨⟨1, ![A]⟩, X⟩, ⟨⟨1, ![B]⟩, Y⟩] h (ix1 p) = X (ix1 n) :=
  concatenate_pair_apply_left 0 X Y h (ix1 p) rfl (ix1 n) fun b => match b with
    | ⟨0, _⟩ => hp.symm

/-- End to end, the second piece. -/
theorem concat_vec_hi {A B T : Nat} (X : (⟨1, ![A]⟩ : Shape).Idx → α) (Y : (⟨1, ![B]⟩ : Shape).Idx → α)
    (h : Shape.Concatenates [⟨1, ![A]⟩, ⟨1, ![B]⟩] ⟨1, ![T]⟩ 0) (p : Fin T) (n : Fin B) (hp : p.val = A + n.val) :
    concatenate ⟨1, ![T]⟩ 0 [⟨⟨1, ![A]⟩, X⟩, ⟨⟨1, ![B]⟩, Y⟩] h (ix1 p) = Y (ix1 n) :=
  concatenate_pair_apply_right 0 X Y h (ix1 p) rfl rfl (ix1 n)
    (fun b hb => match b, hb with
      | ⟨0, _⟩, hb => absurd rfl hb)
    (by show n.val + A = p.val; omega)

end Cert.Lib

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«145028_j88716844467015_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.HostGlue.lean ====
/-
  THE WEIGHTS AS THE KERNEL FINDS THEM.

  Before the kernel is launched the surrounding program re-lays its parameters: four weight matrices change format
  (nothing, on the extended reals); nine vectors become one-row matrices; the first layers of the value and advantage
  streams are stacked (weights on top of each other, biases end to end); their second layers are put on the diagonal
  of a 5-by-32 matrix whose other two blocks are zero, and their biases joined end to end. Each array the kernel's
  windows stage is read here as that function of the program's arguments, and then entry by entry in the vocabulary of
  module Net: what the stacked and block-diagonal weights hold in each quadrant.
-/
import proofs.«145028_j88716844467015_2_alg».proof.Proof.Gen.KernelIdeal.Frame
import proofs.«145028_j88716844467015_2_alg».proof.Proof.Net
import proofs.«145028_j88716844467015_2_alg».proof.Proof.LibConcatPair
import proofs.«145028_j88716844467015_2_alg».proof.Proof.LibRowReads
import proofs.«145028_j88716844467015_2_alg».proof.Proof.LibHostRead
import Idealize.ShloMosaic.Lib.StableHlo.Run
import Idealize.ShloMosaic.Lib.ValueLayout

noncomputable section

namespace Cert.KernelIdeal.Glue

open Cert.KernelIdeal Cert.KernelIdeal.Gen Idealize.ShloMosaic Idealize.ShloMosaic.TcCoe Idealize.SL.Sem
open Idealize.ShloMosaic.ValueIdx Cert.Net Cert.Lib

variable (m : (ℓ : Loc nD τ sig) → Buf (Elt Ideal) ℓ)

/-! ## Each staged array as a function of the arguments -/

/-- A change of format only. -/
theorem V_main_v0 (c : Dev nD) : (V m c main_v0 : S64x2048.Idx → EReal) = ((m ((c : Thread nD τ).loc main_arg2)) : S64x2048.Idx → EReal) := by
  dsimp only [V, hostOps0]
  after_results
  all_goals rfl

/-- A change of format only. -/
theorem V_main_v1 (c : Dev nD) : (V m c main_v1 : S128x512.Idx → EReal) = ((m ((c : Thread nD τ).loc main_arg6)) : S128x512.Idx → EReal) := by
  dsimp only [V, hostOps0]
  after_results
  all_goals rfl

/-- A change of format only. -/
theorem V_main_v2 (c : Dev nD) : (V m c main_v2 : S64x128.Idx → EReal) = ((m ((c : Thread nD τ).loc main_arg10)) : S64x128.Idx → EReal) := by
  dsimp only [V, hostOps0]
  after_results
  all_goals rfl

/-- A change of format only. -/
theorem V_main_v3 (c : Dev nD) : (V m c main_v3 : S32x64.Idx → EReal) = ((m ((c : Thread nD τ).loc main_arg14)) : S32x64.Idx → EReal) := by
  dsimp only [V, hostOps0]
  after_results
  all_goals rfl

/-- A vector made a one-row matrix. -/
theorem V_main_v16 (c : Dev nD) : (V m c main_v16 : S1x64.Idx → EReal) = shapeCast S1x64 ((m ((c : Thread nD τ).loc main_arg3)) : S64.Idx → EReal) shapeCasts_S64_S1x64 := by
  dsimp only [V, hostOps0]
  after_results
  all_goals rfl

/-- A vector made a one-row matrix. -/
theorem V_main_v17 (c : Dev nD) : (V m c main_v17 : S1x32.Idx → EReal) = shapeCast S1x32 ((m ((c : Thread nD τ).loc main_arg5)) : S32.Idx → EReal) shapeCasts_S32_S1x32 := by
  dsimp only [V, hostOps0]
  after_results
  all_goals rfl

/-- A vector made a one-row matrix. -/
theorem V_main_v18 (c : Dev nD) : (V m c main_v18 : S1x128.Idx → EReal) = shapeCast S1x128 ((m ((c : Thread nD τ).loc main_arg7)) : S128.Idx → EReal) shapeCasts_S128_S1x128 := by
  dsimp only [V, hostOps0]
  after_results
  all_goals rfl

/-- A vector made a one-row matrix. -/
theorem V_main_v19 (c : Dev nD) : (V m c main_v19 : S1x128.Idx → EReal) = shapeCast S1x128 ((m ((c : Thread nD τ).loc main_arg8)) : S128.Idx → EReal) shapeCasts_S128_S1x128 := by
  dsimp only [V, hostOps0]
  after_results
  all_goals rfl

/-- A vector made a one-row matrix. -/
theorem V_main_v20 (c : Dev nD) : (V m c main_v20 : S1x128.Idx → EReal) = shapeCast S1x128 ((m ((c : Thread nD τ).loc main_arg9)) : S128.Idx → EReal) shapeCasts_S128_S1x128 := by
  dsimp only [V, hostOps0]
  after_results
  all_goals rfl

/-- A vector made a one-row matrix. -/
theorem V_main_v21 (c : Dev nD) : (V m c main_v21 : S1x64.Idx → EReal) = shapeCast S1x64 ((m ((c : Thread nD τ).loc main_arg11)) : S64.Idx → EReal) shapeCasts_S64_S1x64 := by
  dsimp only [V, hostOps0]
  after_results
  all_goals rfl

/-- A vector made a one-row matrix. -/
theorem V_main_v22 (c : Dev nD) : (V m c main_v22 : S1x64.Idx → EReal) = shapeCast S1x64 ((m ((c : Thread nD τ).loc main_arg12)) : S64.Idx → EReal) shapeCasts_S64_S1x64 := by
  dsimp only [V, hostOps0]
  after_results
  all_goals rfl

/-- A vector made a one-row matrix. -/
theorem V_main_v23 (c : Dev nD) : (V m c main_v23 : S1x64.Idx → EReal) = shapeCast S1x64 ((m ((c : Thread nD τ).loc main_arg13)) : S64.Idx → EReal) shapeCasts_S64_S1x64 := by
  dsimp only [V, hostOps0]
  after_results
  all_goals rfl

/-- A vector made a one-row matrix. -/
theorem V_main_v24 (c : Dev nD) : (V m c main_v24 : S1x32.Idx → EReal) = shapeCast S1x32 ((m ((c : Thread nD τ).loc main_arg15)) : S32.Idx → EReal) shapeCasts_S32_S1x32 := by
  dsimp only [V, hostOps0]
  after_results
  all_goals rfl

/-- The two first-layer weight matrices stacked. -/
theorem V_main_v5 (c : Dev nD) : (V m c main_v5 : S32x32.Idx → EReal)
    = concatenate S32x32 0 [⟨S16x32, ((m ((c : Thread nD τ).loc main_arg16)) : S16x32.Idx → EReal)⟩, ⟨S16x32, ((m ((c : Thread nD τ).loc main_arg20)) : S16x32.Idx → EReal)⟩] concatenates_S16x32_S16x32_S32x32_d0 := by
  dsimp only [V, hostOps0]
  after_results
  all_goals rfl

/-- The two first-layer biases end to end, as a row. -/
theorem V_main_v7 (c : Dev nD) : (V m c main_v7 : S1x32.Idx → EReal)
    = shapeCast S1x32 (concatenate S32 0 [⟨S16, ((m ((c : Thread nD τ).loc main_arg17)) : S16.Idx → EReal)⟩, ⟨S16, ((m ((c : Thread nD τ).loc main_arg21)) : S16.Idx → EReal)⟩] concatenates_S16_S16_S32_d0) shapeCasts_S32_S1x32 := by
  dsimp only [V, hostOps0]
  after_results
  all_goals rfl

/-- The block-diagonal second layer: [value weights | 0] on top of [0 | advantage weights]. -/
theorem V_main_v13 (c : Dev nD) : (V m c main_v13 : S5x32.Idx → EReal)
    = concatenate S5x32 0 [⟨S1x32, concatenate S1x32 1 [⟨S1x16, ((m ((c : Thread nD τ).loc main_arg18)) : S1x16.Idx → EReal)⟩,
          ⟨S1x16, broadcastInDim S1x16 ![] bcast_S_S1x16 (constant (F := Ideal) S_ .f32 0x00000000#32)⟩] concatenates_S1x16_S1x16_S1x32_d1⟩,
        ⟨S4x32, concatenate S4x32 1 [⟨S4x16, broadcastInDim S4x16 ![] bcast_S_S4x16 (constant (F := Ideal) S_ .f32 0x00000000#32)⟩,
          ⟨S4x16, ((m ((c : Thread nD τ).loc main_arg22)) : S4x16.Idx → EReal)⟩] concatenates_S4x16_S4x16_S4x32_d1⟩] concatenates_S1x32_S4x32_S5x32_d0 := by
  dsimp only [V, hostOps0]
  after_results
  all_goals rfl

/-- The two second-layer biases end to end, as a row. -/
theorem V_main_v15 (c : Dev nD) : (V m c main_v15 : S1x5.Idx → EReal)
    = shapeCast S1x5 (concatenate S5 0 [⟨S1, ((m ((c : Thread nD τ).loc main_arg19)) : S1.Idx → EReal)⟩, ⟨S4, ((m ((c : Thread nD τ).loc main_arg23)) : S4.Idx → EReal)⟩] concatenates_S1_S4_S5_d0) shapeCasts_S5_S1x5 := by
  dsimp only [V, hostOps0]
  after_results
  all_goals rfl

/-! ## The one-row matrices as vectors -/

theorem row_main_v16 (c : Dev nD) : row0 (V m c main_v16 : S1x64.Idx → EReal) = vecOf ((m ((c : Thread nD τ).loc main_arg3)) : S64.Idx → EReal) := by
  rw [V_main_v16]
  exact funext fun n => rowOfVec_apply shapeCasts_S64_S1x64 _ (0 : Fin 1) n

theorem row_main_v17 (c : Dev nD) : row0 (V m c main_v17 : S1x32.Idx → EReal) = vecOf ((m ((c : Thread nD τ).loc main_arg5)) : S32.Idx → EReal) := by
  rw [V_main_v17]
  exact funext fun n => rowOfVec_apply shapeCasts_S32_S1x32 _ (0 : Fin 1) n

theorem row_main_v18 (c : Dev nD) : row0 (V m c main_v18 : S1x128.Idx → EReal) = vecOf ((m ((c : Thread nD τ).loc main_arg7)) : S128.Idx → EReal) := by
  rw [V_main_v18]
  exact funext fun n => rowOfVec_apply shapeCasts_S128_S1x128 _ (0 : Fin 1) n

theorem row_main_v19 (c : Dev nD) : row0 (V m c main_v19 : S1x128.Idx → EReal) = vecOf ((m ((c : Thread nD τ).loc main_arg8)) : S128.Idx → EReal) := by
  rw [V_main_v19]
  exact funext fun n => rowOfVec_apply shapeCasts_S128_S1x128 _ (0 : Fin 1) n

theorem row_main_v20 (c : Dev nD) : row0 (V m c main_v20 : S1x128.Idx → EReal) = vecOf ((m ((c : Thread nD τ).loc main_arg9)) : S128.Idx → EReal) := by
  rw [V_main_v20]
  exact funext fun n => rowOfVec_apply shapeCasts_S128_S1x128 _ (0 : Fin 1) n

theorem row_main_v21 (c : Dev nD) : row0 (V m c main_v21 : S1x64.Idx → EReal) = vecOf ((m ((c : Thread nD τ).loc main_arg11)) : S64.Idx → EReal) := by
  rw [V_main_v21]
  exact funext fun n => rowOfVec_apply shapeCasts_S64_S1x64 _ (0 : Fin 1) n

theorem row_main_v22 (c : Dev nD) : row0 (V m c main_v22 : S1x64.Idx → EReal) = vecOf ((m ((c : Thread nD τ).loc main_arg12)) : S64.Idx → EReal) := by
  rw [V_main_v22]
  exact funext fun n => rowOfVec_apply shapeCasts_S64_S1x64 _ (0 : Fin 1) n

theorem row_main_v23 (c : Dev nD) : row0 (V m c main_v23 : S1x64.Idx → EReal) = vecOf ((m ((c : Thread nD τ).loc main_arg13)) : S64.Idx → EReal) := by
  rw [V_main_v23]
  exact funext fun n => rowOfVec_apply shapeCasts_S64_S1x64 _ (0 : Fin 1) n

theorem row_main_v24 (c : Dev nD) : row0 (V m c main_v24 : S1x32.Idx → EReal) = vecOf ((m ((c : Thread nD τ).loc main_arg15)) : S32.Idx → EReal) := by
  rw [V_main_v24]
  exact funext fun n => rowOfVec_apply shapeCasts_S32_S1x32 _ (0 : Fin 1) n

/-! ## The stacked first layer -/

theorem stackW_top (c : Dev nD) (n : Fin 16) (k : Fin 32) :
    matOf (V m c main_v5 : S32x32.Idx → EReal) (Fin.castAdd 16 n) k = matOf ((m ((c : Thread nD τ).loc main_arg16)) : S16x32.Idx → EReal) n k := by
  rw [V_main_v5]
  exact concat_rows_top _ _ concatenates_S16x32_S16x32_S32x32_d0 (Fin.castAdd 16 n) n k rfl

theorem stackW_bot (c : Dev nD) (n : Fin 16) (k : Fin 32) :
    matOf (V m c main_v5 : S32x32.Idx → EReal) (Fin.natAdd 16 n) k = matOf ((m ((c : Thread nD τ).loc main_arg20)) : S16x32.Idx → EReal) n k := by
  rw [V_main_v5]
  exact concat_rows_bot _ _ concatenates_S16x32_S16x32_S32x32_d0 (Fin.natAdd 16 n) n k rfl

theorem stackB_lo (c : Dev nD) (n : Fin 16) :
    row0 (V m c main_v7 : S1x32.Idx → EReal) (Fin.castAdd 16 n) = vecOf ((m ((c : Thread nD τ).loc main_arg17)) : S16.Idx → EReal) n := by
  rw [V_main_v7]
  exact (rowOfVec_apply shapeCasts_S32_S1x32 _ (0 : Fin 1) (Fin.castAdd 16 n)).trans
    (concat_vec_lo _ _ concatenates_S16_S16_S32_d0 (Fin.castAdd 16 n) n rfl)

theorem stackB_hi (c : Dev nD) (n : Fin 16) :
    row0 (V m c main_v7 : S1x32.Idx → EReal) (Fin.natAdd 16 n) = vecOf ((m ((c : Thread nD τ).loc main_arg21)) : S16.Idx → EReal) n := by
  rw [V_main_v7]
  exact (rowOfVec_apply shapeCasts_S32_S1x32 _ (0 : Fin 1) (Fin.natAdd 16 n)).trans
    (concat_vec_hi _ _ concatenates_S16_S16_S32_d0 (Fin.natAdd 16 n) n rfl)

/-! ## The block-diagonal second layer, quadrant by quadrant -/

theorem diag_00 (c : Dev nD) (k : Fin 16) :
    matOf (V m c main_v13 : S5x32.Idx → EReal) 0 (Fin.castAdd 16 k) = matOf ((m ((c : Thread nD τ).loc main_arg18)) : S1x16.Idx → EReal) 0 k := by
  rw [V_main_v13]
  exact (concat_rows_top _ _ concatenates_S1x32_S4x32_S5x32_d0 (0 : Fin 5) (0 : Fin 1) (Fin.castAdd 16 k) rfl).trans
    (concat_cols_left _ _ concatenates_S1x16_S1x16_S1x32_d1 (0 : Fin 1) (Fin.castAdd 16 k) k rfl)

theorem diag_01 (c : Dev nD) (k : Fin 16) :
    matOf (V m c main_v13 : S5x32.Idx → EReal) 0 (Fin.natAdd 16 k) = 0 := by
  rw [V_main_v13]
  exact ((concat_rows_top _ _ concatenates_S1x32_S4x32_S5x32_d0 (0 : Fin 5) (0 : Fin 1) (Fin.natAdd 16 k) rfl).trans
    (concat_cols_right _ _ concatenates_S1x16_S1x16_S1x32_d1 (0 : Fin 1) (Fin.natAdd 16 k) k rfl)).trans
    ((bcast_const_apply (φ := .f32) bcast_S_S1x16 0x00000000#32 _).trans Ideal.ofBits_zero_f32)

theorem diag_10 (c : Dev nD) (j : Fin 4) (k : Fin 16) :
    matOf (V m c main_v13 : S5x32.Idx → EReal) j.succ (Fin.castAdd 16 k) = 0 := by
  rw [V_main_v13]
  exact ((concat_rows_bot _ _ concatenates_S1x32_S4x32_S5x32_d0 j.succ j (Fin.castAdd 16 k) (by show j.val + 1 = 1 + j.val; omega)).trans
    (concat_cols_left _ _ concatenates_S4x16_S4x16_S4x32_d1 j (Fin.castAdd 16 k) k rfl)).trans
    ((bcast_const_apply (φ := .f32) bcast_S_S4x16 0x00000000#32 _).trans Ideal.ofBits_zero_f32)

theorem diag_11 (c : Dev nD) (j : Fin 4) (k : Fin 16) :
    matOf (V m c main_v13 : S5x32.Idx → EReal) j.succ (Fin.natAdd 16 k) = matOf ((m ((c : Thread nD τ).loc main_arg22)) : S4x16.Idx → EReal) j k := by
  rw [V_main_v13]
  exact (concat_rows_bot _ _ concatenates_S1x32_S4x32_S5x32_d0 j.succ j (Fin.natAdd 16 k) (by show j.val + 1 = 1 + j.val; omega)).trans
    (concat_cols_right _ _ concatenates_S4x16_S4x16_S4x32_d1 j (Fin.natAdd 16 k) k rfl)

theorem diagB_0 (c : Dev nD) :
    row0 (V m c main_v15 : S1x5.Idx → EReal) 0 = vecOf ((m ((c : Thread nD τ).loc main_arg19)) : S1.Idx → EReal) 0 := by
  rw [V_main_v15]
  exact (rowOfVec_apply shapeCasts_S5_S1x5 _ (0 : Fin 1) (0 : Fin 5)).trans
    (concat_vec_lo _ _ concatenates_S1_S4_S5_d0 (0 : Fin 5) (0 : Fin 1) rfl)

theorem diagB_1 (c : Dev nD) (j : Fin 4) :
    row0 (V m c main_v15 : S1x5.Idx → EReal) j.succ = vecOf ((m ((c : Thread nD τ).loc main_arg23)) : S4.Idx → EReal) j := by
  rw [V_main_v15]
  exact (rowOfVec_apply shapeCasts_S5_S1x5 _ (0 : Fin 1) j.succ).trans
    (concat_vec_hi _ _ concatenates_S1_S4_S5_d0 j.succ j (by show j.val + 1 = 1 + j.val; omega))

end Cert.KernelIdeal.Glue

end
-- ==== Proof.Result.lean ====
/-
  THE TWO RESULT ARRAYS AS FUNCTIONS OF THE ARGUMENT ARRAYS.

  Entry (R, n) of the gate result is the gate of row R of the history at n; entry (R, j) of the q result is the whole
  network, with the value and advantage streams apart, on row R of the two batch inputs at j. Generic in the batch size.
-/
import proofs.«145028_j88716844467015_2_alg».proof.Proof.Net

noncomputable section

namespace Cert.Net

open Idealize.ShloMosaic Idealize.ShloMosaic.ValueIdx

/-- The gate result array. -/
def gateArr {B : Nat} (x1 : (⟨2, ![B, 2048]⟩ : Shape).Idx → EReal) (x2 : (⟨2, ![64, 2048]⟩ : Shape).Idx → EReal) (x3 : (⟨1, ![64]⟩ : Shape).Idx → EReal) (x4 : (⟨2, ![32, 64]⟩ : Shape).Idx → EReal) (x5 : (⟨1, ![32]⟩ : Shape).Idx → EReal) :
    (⟨2, ![B, 32]⟩ : Shape).Idx → EReal :=
  fun i => gate (matOf x2) (vecOf x3) (matOf x4) (vecOf x5) (rowOf x1 (i 0)) (i 1)

/-- The q result array. -/
def qArr {B : Nat} (x0 : (⟨2, ![B, 512]⟩ : Shape).Idx → EReal) (x1 : (⟨2, ![B, 2048]⟩ : Shape).Idx → EReal) (x2 : (⟨2, ![64, 2048]⟩ : Shape).Idx → EReal) (x3 : (⟨1, ![64]⟩ : Shape).Idx → EReal) (x4 : (⟨2, ![32, 64]⟩ : Shape).Idx → EReal) (x5 : (⟨1, ![32]⟩ : Shape).Idx → EReal)
    (x6 : (⟨2, ![128, 512]⟩ : Shape).Idx → EReal) (x7 x8 x9 : (⟨1, ![128]⟩ : Shape).Idx → EReal) (x10 : (⟨2, ![64, 128]⟩ : Shape).Idx → EReal) (x11 x12 x13 : (⟨1, ![64]⟩ : Shape).Idx → EReal) (x14 : (⟨2, ![32, 64]⟩ : Shape).Idx → EReal) (x15 : (⟨1, ![32]⟩ : Shape).Idx → EReal)
    (x16 : (⟨2, ![16, 32]⟩ : Shape).Idx → EReal) (x17 : (⟨1, ![16]⟩ : Shape).Idx → EReal) (x18 : (⟨2, ![1, 16]⟩ : Shape).Idx → EReal) (x19 : (⟨1, ![1]⟩ : Shape).Idx → EReal) (x20 : (⟨2, ![16, 32]⟩ : Shape).Idx → EReal) (x21 : (⟨1, ![16]⟩ : Shape).Idx → EReal) (x22 : (⟨2, ![4, 16]⟩ : Shape).Idx → EReal) (x23 : (⟨1, ![4]⟩ : Shape).Idx → EReal) :
    (⟨2, ![B, 4]⟩ : Shape).Idx → EReal :=
  fun i => head (matOf x16) (vecOf x17) (matOf x18) (vecOf x19) (matOf x20) (vecOf x21) (matOf x22) (vecOf x23)
    (trunk (vecOf x8) (vecOf x9) (matOf x10) (vecOf x11) (vecOf x12) (vecOf x13) (matOf x14) (vecOf x15)
      (base (matOf x6) (vecOf x7) (modulation (gate (matOf x2) (vecOf x3) (matOf x4) (vecOf x5) (rowOf x1 (i 0)))) (rowOf x0 (i 0)))) (i 1)

end Cert.Net

end
-- ==== Proof.Blocks.lean ====
/-
  FROM THE BLOCKS TO THE TWO RESULT ARRAYS.

  The grid has 64 points; at point t the x and history windows hold rows 1024·t … 1024·t + 1023 of their arrays, every
  weight window holds its whole array, and the two result windows write back rows 1024·t … 1024·t + 1023 of theirs.
  Row r of what point t writes back is therefore the row-wise network on row 1024·t + r of the batch inputs with the
  weights as the surrounding program laid them out; the stacked and block-diagonal head is the head with its two streams
  apart (module Net); and the 64 blocks cover the result arrays, so each array ends holding one function of the arguments.
-/
import proofs.«145028_j88716844467015_2_alg».proof.Proof.Gen.KernelIdeal.Value
import proofs.«145028_j88716844467015_2_alg».proof.Proof.KernelRows
import proofs.«145028_j88716844467015_2_alg».proof.Proof.HostGlue
import proofs.«145028_j88716844467015_2_alg».proof.Proof.Result

noncomputable section

namespace Cert.KernelIdeal.Blocks

open Cert.KernelIdeal Cert.KernelIdeal.Gen Idealize.ShloMosaic Idealize.ShloMosaic.TcCoe Idealize.SL.Sem
open Idealize.ShloMosaic.ValueIdx Cert.Net
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits at a grid point -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)

theorem t_lt (t : Fin cfg0.N) : t.val < 64 := lt_of_lt_of_eq t.isLt N_0

/-- The batch row that row r of point t's blocks is. -/
def grow (t : Fin cfg0.N) (r : Fin 1024) : Fin 65536 := ⟨1024 * t.val + r.val, by have := t_lt t; have := r.isLt; omega⟩

/-! ## The input blocks -/

/-- Row r of the x block at point t is row 1024·t + r of x. -/
theorem blk0_row (c : Dev nD) (t : Fin cfg0.N) (r : Fin 1024) :
    rowOf (iblk m c 0 t : S1024x512.Idx → EReal) r = rowOf ((m ((c : Thread nD τ).loc main_arg0)) : S65536x512.Idx → EReal) (grow t r) := by
  obtain ⟨e0, e1⟩ := idx0 t
  funext k
  show (iblk m c 0 t : S1024x512.Idx → EReal) (ix2 r k) = ((m ((c : Thread nD τ).loc main_arg0)) : S65536x512.Idx → EReal) (ix2 (grow t r) k)
  unfold iblk
  rw [View.read_apply]
  show V m c main_arg0 _ = _
  rw [V_main_arg0]
  congr 1
  funext a
  apply Fin.ext
  match a with
  | ⟨0, _⟩ => show win0_0.index t (0 : Fin 2) * 1024 + 1 * r.val = 1024 * t.val + r.val; rw [e0]; omega
  | ⟨1, _⟩ => show win0_0.index t (1 : Fin 2) * 512 + 1 * k.val = k.val; rw [e1]; omega

/-- Row r of the history block at point t is row 1024·t + r of the history. -/
theorem blk1_row (c : Dev nD) (t : Fin cfg0.N) (r : Fin 1024) :
    rowOf (iblk m c 1 t : S1024x2048.Idx → EReal) r = rowOf ((m ((c : Thread nD τ).loc main_arg1)) : S65536x2048.Idx → EReal) (grow t r) := by
  obtain ⟨e0, e1⟩ := idx1 t
  funext k
  show (iblk m c 1 t : S1024x2048.Idx → EReal) (ix2 r k) = ((m ((c : Thread nD τ).loc main_arg1)) : S65536x2048.Idx → EReal) (ix2 (grow t r) k)
  unfold iblk
  rw [View.read_apply]
  show V m c main_arg1 _ = _
  rw [V_main_arg1]
  congr 1
  funext a
  apply Fin.ext
  match a with
  | ⟨0, _⟩ => show win0_1.index t (0 : Fin 2) * 1024 + 1 * r.val = 1024 * t.val + r.val; rw [e0]; omega
  | ⟨1, _⟩ => show win0_1.index t (1 : Fin 2) * 2048 + 1 * k.val = k.val; rw [e1]; omega

/-- Window 2's block is its whole array at every point. -/
theorem blk2 (c : Dev nD) (t : Fin cfg0.N) : (iblk m c 2 t : S64x2048.Idx → EReal) = (V m c main_v0 : S64x2048.Idx → EReal) := by
  obtain ⟨e0, e1⟩ := idx2 t
  funext y
  unfold iblk
  rw [View.read_apply]
  show V m c main_v0 _ = V m c main_v0 y
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 2048 + 1 * (y 1).val = (y 1).val; rw [e1]; omega

/-- Window 3's block is its whole array at every point. -/
theorem blk3 (c : Dev nD) (t : Fin cfg0.N) : (iblk m c 3 t : S1x64.Idx → EReal) = (V m c main_v16 : S1x64.Idx → EReal) := by
  obtain ⟨e0, e1⟩ := idx3 t
  funext y
  unfold iblk
  rw [View.read_apply]
  show V m c main_v16 _ = V m c main_v16 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- Window 4's block is its whole array at every point. -/
theorem blk4 (c : Dev nD) (t : Fin cfg0.N) : (iblk m c 4 t : S32x64.Idx → EReal) = (V m c main_arg4 : S32x64.Idx → EReal) := by
  obtain ⟨e0, e1⟩ := idx4 t
  funext y
  unfold iblk
  rw [View.read_apply]
  show V m c main_arg4 _ = V m c main_arg4 y
  congr 1
  funext a
  apply Fin.ext
  match a with
  | ⟨0, _⟩ => show win0_4.index t (0 : Fin 2) * 32 + 1 * (y 0).val = (y 0).val; rw [e0]; omega
  | ⟨1, _⟩ => show win0_4.index t (1 : Fin 2) * 64 + 1 * (y 1).val = (y 1).val; rw [e1]; omega

/-- Window 5's block is its whole array at every point. -/
theorem blk5 (c : Dev nD) (t : Fin cfg0.N) : (iblk m c 5 t : S1x32.Idx → EReal) = (V m c main_v17 : S1x32.Idx → EReal) := by
  obtain ⟨e0, e1⟩ := idx5 t
  funext y
  unfold iblk
  rw [View.read_apply]
  show V m c main_v17 _ = V m c main_v17 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 32 + 1 * (y 1).val = (y 1).val; rw [e1]; omega

/-- Window 6's block is its whole array at every point. -/
theorem blk6 (c : Dev nD) (t : Fin cfg0.N) : (iblk m c 6 t : S128x512.Idx → EReal) = (V m c main_v1 : S128x512.Idx → EReal) := by
  obtain ⟨e0, e1⟩ := idx6 t
  funext y
  unfold iblk
  rw [View.read_apply]
  show V m c main_v1 _ = V m c main_v1 y
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 512 + 1 * (y 1).val = (y 1).val; rw [e1]; omega

/-- Window 7's block is its whole array at every point. -/
theorem blk7 (c : Dev nD) (t : Fin cfg0.N) : (iblk m c 7 t : S1x128.Idx → EReal) = (V m c main_v18 : S1x128.Idx → EReal) := by
  obtain ⟨e0, e1⟩ := idx7 t
  funext y
  unfold iblk
  rw [View.read_apply]
  show V m c main_v18 _ = V m c main_v18 y
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8's block is its whole array at every point. -/
theorem blk8 (c : Dev nD) (t : Fin cfg0.N) : (iblk m c 8 t : S1x128.Idx → EReal) = (V m c main_v19 : S1x128.Idx → EReal) := by
  obtain ⟨e0, e1⟩ := idx8 t
  funext y
  unfold iblk
  rw [View.read_apply]
  show V m c main_v19 _ = V m c main_v19 y
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- Window 9's block is its whole array at every point. -/
theorem blk9 (c : Dev nD) (t : Fin cfg0.N) : (iblk m c 9 t : S1x128.Idx → EReal) = (V m c main_v20 : S1x128.Idx → EReal) := by
  obtain ⟨e0, e1⟩ := idx9 t
  funext y
  unfold iblk
  rw [View.read_apply]
  show V m c main_v20 _ = V m c main_v20 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

/-- Window 10's block is its whole array at every point. -/
theorem blk10 (c : Dev nD) (t : Fin cfg0.N) : (iblk m c 10 t : S64x128.Idx → EReal) = (V m c main_v2 : S64x128.Idx → EReal) := by
  obtain ⟨e0, e1⟩ := idx10 t
  funext y
  unfold iblk
  rw [View.read_apply]
  show V m c main_v2 _ = V m c main_v2 y
  congr 1
  funext a
  apply Fin.ext
  match a with
  | ⟨0, _⟩ => show win0_10.index t (0 : Fin 2) * 64 + 1 * (y 0).val = (y 0).val; rw [e0]; omega
  | ⟨1, _⟩ => show win0_10.index t (1 : Fin 2) * 128 + 1 * (y 1).val = (y 1).val; rw [e1]; omega

/-- Window 11's block is its whole array at every point. -/
theorem blk11 (c : Dev nD) (t : Fin cfg0.N) : (iblk m c 11 t : S1x64.Idx → EReal) = (V m c main_v21 : S1x64.Idx → EReal) := by
  obtain ⟨e0, e1⟩ := idx11 t
  funext y
  unfold iblk
  rw [View.read_apply]
  show V m c main_v21 _ = V m c main_v21 y
  congr 1
  funext a
  apply Fin.ext
  match a with
  | ⟨0, _⟩ => show win0_11.index t (0 : Fin 2) * 1 + 1 * (y 0).val = (y 0).val; rw [e0]; omega
  | ⟨1, _⟩ => show win0_11.index t (1 : Fin 2) * 64 + 1 * (y 1).val = (y 1).val; rw [e1]; omega

/-- Window 12's block is its whole array at every point. -/
theorem blk12 (c : Dev nD) (t : Fin cfg0.N) : (iblk m c 12 t : S1x64.Idx → EReal) = (V m c main_v22 : S1x64.Idx → EReal) := by
  obtain ⟨e0, e1⟩ := idx12 t
  funext y
  unfold iblk
  rw [View.read_apply]
  show V m c main_v22 _ = V m c main_v22 y
  congr 1
  funext a
  apply Fin.ext
  match a with
  | ⟨0, _⟩ => show win0_12.index t (0 : Fin 2) * 1 + 1 * (y 0).val = (y 0).val; rw [e0]; omega
  | ⟨1, _⟩ => show win0_12.index t (1 : Fin 2) * 64 + 1 * (y 1).val = (y 1).val; rw [e1]; omega

/-- Window 13's block is its whole array at every point. -/
theorem blk13 (c : Dev nD) (t : Fin cfg0.N) : (iblk m c 13 t : S1x64.Idx → EReal) = (V m c main_v23 : S1x64.Idx → EReal) := by
  obtain ⟨e0, e1⟩ := idx13 t
  funext y
  unfold iblk
  rw [View.read_apply]
  show V m c main_v23 _ = V m c main_v23 y
  congr 1
  funext a
  apply Fin.ext
  match a with
  | ⟨0, _⟩ => show win0_13.index t (0 : Fin 2) * 1 + 1 * (y 0).val = (y 0).val; rw [e0]; omega
  | ⟨1, _⟩ => show win0_13.index t (1 : Fin 2) * 64 + 1 * (y 1).val = (y 1).val; rw [e1]; omega

/-- Window 14's block is its whole array at every point. -/
theorem blk14 (c : Dev nD) (t : Fin cfg0.N) : (iblk m c 14 t : S32x64.Idx → EReal) = (V m c main_v3 : S32x64.Idx → EReal) := by
  obtain ⟨e0, e1⟩ := idx14 t
  funext y
  unfold iblk
  rw [View.read_apply]
  show V m c main_v3 _ = V m c main_v3 y
  congr 1
  funext a
  apply Fin.ext
  match a with
  | ⟨0, _⟩ => show win0_14.index t (0 : Fin 2) * 32 + 1 * (y 0).val = (y 0).val; rw [e0]; omega
  | ⟨1, _⟩ => show win0_14.index t (1 : Fin 2) * 64 + 1 * (y 1).val = (y 1).val; rw [e1]; omega

/-- Window 15's block is its whole array at every point. -/
theorem blk15 (c : Dev nD) (t : Fin cfg0.N) : (iblk m c 15 t : S1x32.Idx → EReal) = (V m c main_v24 : S1x32.Idx → EReal) := by
  obtain ⟨e0, e1⟩ := idx15 t
  funext y
  unfold iblk
  rw [View.read_apply]
  show V m c main_v24 _ = V m c main_v24 y
  congr 1
  funext a
  apply Fin.ext
  match a with
  | ⟨0, _⟩ => show win0_15.index t (0 : Fin 2) * 1 + 1 * (y 0).val = (y 0).val; rw [e0]; omega
  | ⟨1, _⟩ => show win0_15.index t (1 : Fin 2) * 32 + 1 * (y 1).val = (y 1).val; rw [e1]; omega

/-- Window 16's block is its whole array at every point. -/
theorem blk16 (c : Dev nD) (t : Fin cfg0.N) : (iblk m c 16 t : S32x32.Idx → EReal) = (V m c main_v5 : S32x32.Idx → EReal) := by
  obtain ⟨e0, e1⟩ := idx16 t
  funext y
  unfold iblk
  rw [View.read_apply]
  show V m c main_v5 _ = V m c main_v5 y
  congr 1
  funext a
  apply Fin.ext
  match a with
  | ⟨0, _⟩ => show win0_16.index t (0 : Fin 2) * 32 + 1 * (y 0).val = (y 0).val; rw [e0]; omega
  | ⟨1, _⟩ => show win0_16.index t (1 : Fin 2) * 32 + 1 * (y 1).val = (y 1).val; rw [e1]; omega

/-- Window 17's block is its whole array at every point. -/
theorem blk17 (c : Dev nD) (t : Fin cfg0.N) : (iblk m c 17 t : S1x32.Idx → EReal) = (V m c main_v7 : S1x32.Idx → EReal) := by
  obtain ⟨e0, e1⟩ := idx17 t
  funext y
  unfold iblk
  rw [View.read_apply]
  show V m c main_v7 _ = V m c main_v7 y
  congr 1
  funext a
  apply Fin.ext
  match a with
  | ⟨0, _⟩ => show win0_17.index t (0 : Fin 2) * 1 + 1 * (y 0).val = (y 0).val; rw [e0]; omega
  | ⟨1, _⟩ => show win0_17.index t (1 : Fin 2) * 32 + 1 * (y 1).val = (y 1).val; rw [e1]; omega

/-- Window 18's block is its whole array at every point. -/
theorem blk18 (c : Dev nD) (t : Fin cfg0.N) : (iblk m c 18 t : S5x32.Idx → EReal) = (V m c main_v13 : S5x32.Idx → EReal) := by
  obtain ⟨e0, e1⟩ := idx18 t
  funext y
  unfold iblk
  rw [View.read_apply]
  show V m c main_v13 _ = V m c main_v13 y
  congr 1
  funext a
  apply Fin.ext
  match a with
  | ⟨0, _⟩ => show win0_18.index t (0 : Fin 2) * 5 + 1 * (y 0).val = (y 0).val; rw [e0]; omega
  | ⟨1, _⟩ => show win0_18.index t (1 : Fin 2) * 32 + 1 * (y 1).val = (y 1).val; rw [e1]; omega

/-- Window 19's block is its whole array at every point. -/
theorem blk19 (c : Dev nD) (t : Fin cfg0.N) : (iblk m c 19 t : S1x5.Idx → EReal) = (V m c main_v15 : S1x5.Idx → EReal) := by
  obtain ⟨e0, e1⟩ := idx19 t
  funext y
  unfold iblk
  rw [View.read_apply]
  show V m c main_v15 _ = V m c main_v15 y
  congr 1
  funext a
  apply Fin.ext
  match a with
  | ⟨0, _⟩ => show win0_19.index t (0 : Fin 2) * 1 + 1 * (y 0).val = (y 0).val; rw [e0]; omega
  | ⟨1, _⟩ => show win0_19.index t (1 : Fin 2) * 5 + 1 * (y 1).val = (y 1).val; rw [e1]; omega

/-! ## The weights the body sees, in the row-wise vocabulary -/

theorem w2 (c : Dev nD) (t : Fin cfg0.N) : matOf (iblk m c 2 t : S64x2048.Idx → EReal) = matOf ((m ((c : Thread nD τ).loc main_arg2)) : S64x2048.Idx → EReal) := by
  rw [blk2, Glue.V_main_v0]
theorem w3 (c : Dev nD) (t : Fin cfg0.N) : row0 (iblk m c 3 t : S1x64.Idx → EReal) = vecOf ((m ((c : Thread nD τ).loc main_arg3)) : S64.Idx → EReal) := by
  rw [blk3, Glue.row_main_v16]
theorem w4 (c : Dev nD) (t : Fin cfg0.N) : matOf (iblk m c 4 t : S32x64.Idx → EReal) = matOf ((m ((c : Thread nD τ).loc main_arg4)) : S32x64.Idx → EReal) := by
  rw [blk4, V_main_arg4]
theorem w5 (c : Dev nD) (t : Fin cfg0.N) : row0 (iblk m c 5 t : S1x32.Idx → EReal) = vecOf ((m ((c : Thread nD τ).loc main_arg5)) : S32.Idx → EReal) := by
  rw [blk5, Glue.row_main_v17]
theorem w6 (c : Dev nD) (t : Fin cfg0.N) : matOf (iblk m c 6 t : S128x512.Idx → EReal) = matOf ((m ((c : Thread nD τ).loc main_arg6)) : S128x512.Idx → EReal) := by
  rw [blk6, Glue.V_main_v1]
theorem w7 (c : Dev nD) (t : Fin cfg0.N) : row0 (iblk m c 7 t : S1x128.Idx → EReal) = vecOf ((m ((c : Thread nD τ).loc main_arg7)) : S128.Idx → EReal) := by
  rw [blk7, Glue.row_main_v18]
theorem w8 (c : Dev nD) (t : Fin cfg0.N) : row0 (iblk m c 8 t : S1x128.Idx → EReal) = vecOf ((m ((c : Thread nD τ).loc main_arg8)) : S128.Idx → EReal) := by
  rw [blk8, Glue.row_main_v19]
theorem w9 (c : Dev nD) (t : Fin cfg0.N) : row0 (iblk m c 9 t : S1x128.Idx → EReal) = vecOf ((m ((c : Thread nD τ).loc main_arg9)) : S128.Idx → EReal) := by
  rw [blk9, Glue.row_main_v20]
theorem w10 (c : Dev nD) (t : Fin cfg0.N) : matOf (iblk m c 10 t : S64x128.Idx → EReal) = matOf ((m ((c : Thread nD τ).loc main_arg10)) : S64x128.Idx → EReal) := by
  rw [blk10, Glue.V_main_v2]
theorem w11 (c : Dev nD) (t : Fin cfg0.N) : row0 (iblk m c 11 t : S1x64.Idx → EReal) = vecOf ((m ((c : Thread nD τ).loc main_arg11)) : S64.Idx → EReal) := by
  rw [blk11, Glue.row_main_v21]
theorem w12 (c : Dev nD) (t : Fin cfg0.N) : row0 (iblk m c 12 t : S1x64.Idx → EReal) = vecOf ((m ((c : Thread nD τ).loc main_arg12)) : S64.Idx → EReal) := by
  rw [blk12, Glue.row_main_v22]
theorem w13 (c : Dev nD) (t : Fin cfg0.N) : row0 (iblk m c 13 t : S1x64.Idx → EReal) = vecOf ((m ((c : Thread nD τ).loc main_arg13)) : S64.Idx → EReal) := by
  rw [blk13, Glue.row_main_v23]
theorem w14 (c : Dev nD) (t : Fin cfg0.N) : matOf (iblk m c 14 t : S32x64.Idx → EReal) = matOf ((m ((c : Thread nD τ).loc main_arg14)) : S32x64.Idx → EReal) := by
  rw [blk14, Glue.V_main_v3]
theorem w15 (c : Dev nD) (t : Fin cfg0.N) : row0 (iblk m c 15 t : S1x32.Idx → EReal) = vecOf ((m ((c : Thread nD τ).loc main_arg15)) : S32.Idx → EReal) := by
  rw [blk15, Glue.row_main_v24]

/-- The fused head on the staged stacked and block-diagonal weights is the head with its two streams apart. -/
theorem head_eq (c : Dev nD) (t : Fin cfg0.N) (f : Fin 32 → EReal) :
    fusedHead (matOf (iblk m c 16 t : S32x32.Idx → EReal)) (row0 (iblk m c 17 t : S1x32.Idx → EReal))
        (matOf (iblk m c 18 t : S5x32.Idx → EReal)) (row0 (iblk m c 19 t : S1x5.Idx → EReal)) f
      = head (matOf ((m ((c : Thread nD τ).loc main_arg16)) : S16x32.Idx → EReal)) (vecOf ((m ((c : Thread nD τ).loc main_arg17)) : S16.Idx → EReal))
          (matOf ((m ((c : Thread nD τ).loc main_arg18)) : S1x16.Idx → EReal)) (vecOf ((m ((c : Thread nD τ).loc main_arg19)) : S1.Idx → EReal))
          (matOf ((m ((c : Thread nD τ).loc main_arg20)) : S16x32.Idx → EReal)) (vecOf ((m ((c : Thread nD τ).loc main_arg21)) : S16.Idx → EReal))
          (matOf ((m ((c : Thread nD τ).loc main_arg22)) : S4x16.Idx → EReal)) (vecOf ((m ((c : Thread nD τ).loc main_arg23)) : S4.Idx → EReal)) f := by
  rw [blk16, blk17, blk18, blk19]
  exact fusedHead_eq_head _ _ _ _ _ _ _ _ _ _ _ _ (Glue.stackW_top m c) (Glue.stackW_bot m c) (Glue.stackB_lo m c) (Glue.stackB_hi m c)
    (Glue.diag_00 m c) (Glue.diag_01 m c) (Glue.diag_10 m c) (Glue.diag_11 m c) (Glue.diagB_0 m c) (Glue.diagB_1 m c) f

/-- The gate result of the arguments in the memory `m`. -/
abbrev gateRes (c : Dev nD) : S65536x32.Idx → EReal := gateArr ((m ((c : Thread nD τ).loc main_arg1)) : S65536x2048.Idx → EReal) ((m ((c : Thread nD τ).loc main_arg2)) : S64x2048.Idx → EReal) ((m ((c : Thread nD τ).loc main_arg3)) : S64.Idx → EReal) ((m ((c : Thread nD τ).loc main_arg4)) : S32x64.Idx → EReal) ((m ((c : Thread nD τ).loc main_arg5)) : S32.Idx → EReal)

/-- The q result of the arguments in the memory `m`. -/
abbrev qRes (c : Dev nD) : S65536x4.Idx → EReal := qArr ((m ((c : Thread nD τ).loc main_arg0)) : S65536x512.Idx → EReal) ((m ((c : Thread nD τ).loc main_arg1)) : S65536x2048.Idx → EReal) ((m ((c : Thread nD τ).loc main_arg2)) : S64x2048.Idx → EReal) ((m ((c : Thread nD τ).loc main_arg3)) : S64.Idx → EReal) ((m ((c : Thread nD τ).loc main_arg4)) : S32x64.Idx → EReal) ((m ((c : Thread nD τ).loc main_arg5)) : S32.Idx → EReal) ((m ((c : Thread nD τ).loc main_arg6)) : S128x512.Idx → EReal) ((m ((c : Thread nD τ).loc main_arg7)) : S128.Idx → EReal) ((m ((c : Thread nD τ).loc main_arg8)) : S128.Idx → EReal) ((m ((c : Thread nD τ).loc main_arg9)) : S128.Idx → EReal) ((m ((c : Thread nD τ).loc main_arg10)) : S64x128.Idx → EReal) ((m ((c : Thread nD τ).loc main_arg11)) : S64.Idx → EReal) ((m ((c : Thread nD τ).loc main_arg12)) : S64.Idx → EReal) ((m ((c : Thread nD τ).loc main_arg13)) : S64.Idx → EReal) ((m ((c : Thread nD τ).loc main_arg14)) : S32x64.Idx → EReal) ((m ((c : Thread nD τ).loc main_arg15)) : S32.Idx → EReal) ((m ((c : Thread nD τ).loc main_arg16)) : S16x32.Idx → EReal) ((m ((c : Thread nD τ).loc main_arg17)) : S16.Idx → EReal) ((m ((c : Thread nD τ).loc main_arg18)) : S1x16.Idx → EReal) ((m ((c : Thread nD τ).loc main_arg19)) : S1.Idx → EReal) ((m ((c : Thread nD τ).loc main_arg20)) : S16x32.Idx → EReal) ((m ((c : Thread nD τ).loc main_arg21)) : S16.Idx → EReal) ((m ((c : Thread nD τ).loc main_arg22)) : S4x16.Idx → EReal) ((m ((c : Thread nD τ).loc main_arg23)) : S4.Idx → EReal)

/-! ## What each point writes back -/

/-- Point t writes back block t of the gate array. -/
theorem flushed21_eq (c : Dev nD) (t : Fin cfg0.N) :
    (dats m 0 c).flushed 21 t = ((cfg0.win 21).blk t).view.read (Elt Ideal)
      (gateArr ((m ((c : Thread nD τ).loc main_arg1)) : S65536x2048.Idx → EReal) ((m ((c : Thread nD τ).loc main_arg2)) : S64x2048.Idx → EReal) ((m ((c : Thread nD τ).loc main_arg3)) : S64.Idx → EReal)
        ((m ((c : Thread nD τ).loc main_arg4)) : S32x64.Idx → EReal) ((m ((c : Thread nD τ).loc main_arg5)) : S32.Idx → EReal)) := by
  rw [Value.flushed21]
  unfold out0_21
  rw [View.canon_unit_zero hz]
  simp only [View.ld_unit_zero (S := S1024x2048) hz, View.ld_unit_zero (S := S64x2048) hz, View.ld_unit_zero (S := S1x64) hz,
    View.ld_unit_zero (S := S32x64) hz, View.ld_unit_zero (S := S1x32) hz]
  obtain ⟨e0, e1⟩ := idx21 t
  funext y
  obtain ⟨r, n, rfl⟩ : ∃ (r : Fin 1024) (n : Fin 32), y = ix2 r n := ⟨y 0, y 1, eq_ix2 y⟩
  have hi : (((cfg0.win 21).blk t).view.emb (ix2 r n) : S65536x32.Idx) = ix2 (grow t r) n := by
    funext a
    apply Fin.ext
    match a with
    | ⟨0, _⟩ => show win0_21.index t (0 : Fin 2) * 1024 + 1 * r.val = 1024 * t.val + r.val; rw [e0]; omega
    | ⟨1, _⟩ => show win0_21.index t (1 : Fin 2) * 32 + 1 * n.val = n.val; rw [e1]; omega
  show k0_pay2 (iblk m c 1 t) (iblk m c 2 t) (iblk m c 3 t) (iblk m c 4 t) (iblk m c 5 t) (ix2 r n)
    = gateArr ((m ((c : Thread nD τ).loc main_arg1)) : S65536x2048.Idx → EReal) ((m ((c : Thread nD τ).loc main_arg2)) : S64x2048.Idx → EReal) ((m ((c : Thread nD τ).loc main_arg3)) : S64.Idx → EReal)
        ((m ((c : Thread nD τ).loc main_arg4)) : S32x64.Idx → EReal) ((m ((c : Thread nD τ).loc main_arg5)) : S32.Idx → EReal) (((cfg0.win 21).blk t).view.emb (ix2 r n))
  rw [hi]
  refine (congrFun (Rows.pay2_row (iblk m c 1 t) (iblk m c 2 t) (iblk m c 3 t) (iblk m c 4 t) (iblk m c 5 t) r) n).trans ?_
  rw [w2, w3, w4, w5, blk1_row]
  rfl

/-- Point t writes back block t of the q array. -/
theorem flushed20_eq (c : Dev nD) (t : Fin cfg0.N) :
    (dats m 0 c).flushed 20 t = ((cfg0.win 20).blk t).view.read (Elt Ideal)
      (qArr ((m ((c : Thread nD τ).loc main_arg0)) : S65536x512.Idx → EReal) ((m ((c : Thread nD τ).loc main_arg1)) : S65536x2048.Idx → EReal) ((m ((c : Thread nD τ).loc main_arg2)) : S64x2048.Idx → EReal) ((m ((c : Thread nD τ).loc main_arg3)) : S64.Idx → EReal)
        ((m ((c : Thread nD τ).loc main_arg4)) : S32x64.Idx → EReal) ((m ((c : Thread nD τ).loc main_arg5)) : S32.Idx → EReal) ((m ((c : Thread nD τ).loc main_arg6)) : S128x512.Idx → EReal) ((m ((c : Thread nD τ).loc main_arg7)) : S128.Idx → EReal)
        ((m ((c : Thread nD τ).loc main_arg8)) : S128.Idx → EReal) ((m ((c : Thread nD τ).loc main_arg9)) : S128.Idx → EReal) ((m ((c : Thread nD τ).loc main_arg10)) : S64x128.Idx → EReal) ((m ((c : Thread nD τ).loc main_arg11)) : S64.Idx → EReal)
        ((m ((c : Thread nD τ).loc main_arg12)) : S64.Idx → EReal) ((m ((c : Thread nD τ).loc main_arg13)) : S64.Idx → EReal) ((m ((c : Thread nD τ).loc main_arg14)) : S32x64.Idx → EReal) ((m ((c : Thread nD τ).loc main_arg15)) : S32.Idx → EReal)
        ((m ((c : Thread nD τ).loc main_arg16)) : S16x32.Idx → EReal) ((m ((c : Thread nD τ).loc main_arg17)) : S16.Idx → EReal) ((m ((c : Thread nD τ).loc main_arg18)) : S1x16.Idx → EReal) ((m ((c : Thread nD τ).loc main_arg19)) : S1.Idx → EReal)
        ((m ((c : Thread nD τ).loc main_arg20)) : S16x32.Idx → EReal) ((m ((c : Thread nD τ).loc main_arg21)) : S16.Idx → EReal) ((m ((c : Thread nD τ).loc main_arg22)) : S4x16.Idx → EReal) ((m ((c : Thread nD τ).loc main_arg23)) : S4.Idx → EReal)) := by
  rw [Value.flushed20]
  unfold out0_20
  rw [View.canon_unit_zero hz]
  simp only [View.ld_unit_zero (S := S1024x2048) hz, View.ld_unit_zero (S := S1024x512) hz, View.ld_unit_zero (S := S64x2048) hz,
    View.ld_unit_zero (S := S1x64) hz, View.ld_unit_zero (S := S32x64) hz, View.ld_unit_zero (S := S1x32) hz,
    View.ld_unit_zero (S := S128x512) hz, View.ld_unit_zero (S := S1x128) hz, View.ld_unit_zero (S := S64x128) hz,
    View.ld_unit_zero (S := S32x32) hz, View.ld_unit_zero (S := S5x32) hz, View.ld_unit_zero (S := S1x5) hz]
  obtain ⟨e0, e1⟩ := idx20 t
  funext y
  obtain ⟨r, j, rfl⟩ : ∃ (r : Fin 1024) (j : Fin 4), y = ix2 r j := ⟨y 0, y 1, eq_ix2 y⟩
  have hi : (((cfg0.win 20).blk t).view.emb (ix2 r j) : S65536x4.Idx) = ix2 (grow t r) j := by
    funext a
    apply Fin.ext
    match a with
    | ⟨0, _⟩ => show win0_20.index t (0 : Fin 2) * 1024 + 1 * r.val = 1024 * t.val + r.val; rw [e0]; omega
    | ⟨1, _⟩ => show win0_20.index t (1 : Fin 2) * 4 + 1 * j.val = j.val; rw [e1]; omega
  show Rows.qBlock (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (ix2 r j) = qRes m c (((cfg0.win 20).blk t).view.emb (ix2 r j))
  rw [hi]
  refine (congrFun (Rows.qBlock_row (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) r) j).trans ?_
  rw [head_eq, w2, w3, w4, w5, w6, w7, w8, w9, w10, w11, w12, w13, w14, w15, blk0_row, blk1_row]
  rfl

/-! ## The blocks cover the arrays -/

theorem cover21 (i : S65536x32.Idx) : ∃ t : Fin cfg0.N, (cfg0.win 21).flush t = true ∧ i ∈ ((cfg0.win 21).blk t).view.set := by
  have hi0 : (i 0).val < 65536 := idx2_lt0 i
  have hi1 : (i 1).val < 32 := idx2_lt1 i
  let t : Fin cfg0.N := ⟨(i 0).val / 1024, by rw [show cfg0.N = 64 from N_0]; omega⟩
  obtain ⟨e0, e1⟩ := idx21 t
  have ht : t.val = (i 0).val / 1024 := rfl
  refine ⟨t, flush0_21 t, ?_⟩
  show i ∈ ((View.whole main_v25_1).slice (win0_21.rect t)).set
  rw [View.set_slice_whole, Rect.mem_set_unit]
  intro a
  match a with
  | ⟨0, _⟩ => show win0_21.index t (0 : Fin 2) * 1024 ≤ (i 0).val ∧ (i 0).val < win0_21.index t (0 : Fin 2) * 1024 + 1024; rw [e0, ht]; omega
  | ⟨1, _⟩ => show win0_21.index t (1 : Fin 2) * 32 ≤ (i 1).val ∧ (i 1).val < win0_21.index t (1 : Fin 2) * 32 + 32; rw [e1]; omega

theorem cover20 (i : S65536x4.Idx) : ∃ t : Fin cfg0.N, (cfg0.win 20).flush t = true ∧ i ∈ ((cfg0.win 20).blk t).view.set := by
  have hi0 : (i 0).val < 65536 := idx2_lt0 i
  have hi1 : (i 1).val < 4 := idx2_lt1 i
  let t : Fin cfg0.N := ⟨(i 0).val / 1024, by rw [show cfg0.N = 64 from N_0]; omega⟩
  obtain ⟨e0, e1⟩ := idx20 t
  have ht : t.val = (i 0).val / 1024 := rfl
  refine ⟨t, flush0_20 t, ?_⟩
  show i ∈ ((View.whole main_v25_0).slice (win0_20.rect t)).set
  rw [View.set_slice_whole, Rect.mem_set_unit]
  intro a
  match a with
  | ⟨0, _⟩ => show win0_20.index t (0 : Fin 2) * 1024 ≤ (i 0).val ∧ (i 0).val < win0_20.index t (0 : Fin 2) * 1024 + 1024; rw [e0, ht]; omega
  | ⟨1, _⟩ => show win0_20.index t (1 : Fin 2) * 4 ≤ (i 1).val ∧ (i 1).val < win0_20.index t (1 : Fin 2) * 4 + 4; rw [e1]; omega

/-! ## The arrays after the run, and the run -/

theorem final21 (c : Dev nD) : (dats m 0 c).arrAt 21 cfg0.N
    = gateArr ((m ((c : Thread nD τ).loc main_arg1)) : S65536x2048.Idx → EReal) ((m ((c : Thread nD τ).loc main_arg2)) : S64x2048.Idx → EReal) ((m ((c : Thread nD τ).loc main_arg3)) : S64.Idx → EReal)
        ((m ((c : Thread nD τ).loc main_arg4)) : S32x64.Idx → EReal) ((m ((c : Thread nD τ).loc main_arg5)) : S32.Idx → EReal) :=
  (dats m 0 c).arrAt_eq_of_cover 21 _ (fun t _ => flushed21_eq m c t) cover21

theorem final20 (c : Dev nD) : (dats m 0 c).arrAt 20 cfg0.N
    = qArr ((m ((c : Thread nD τ).loc main_arg0)) : S65536x512.Idx → EReal) ((m ((c : Thread nD τ).loc main_arg1)) : S65536x2048.Idx → EReal) ((m ((c : Thread nD τ).loc main_arg2)) : S64x2048.Idx → EReal) ((m ((c : Thread nD τ).loc main_arg3)) : S64.Idx → EReal)
        ((m ((c : Thread nD τ).loc main_arg4)) : S32x64.Idx → EReal) ((m ((c : Thread nD τ).loc main_arg5)) : S32.Idx → EReal) ((m ((c : Thread nD τ).loc main_arg6)) : S128x512.Idx → EReal) ((m ((c : Thread nD τ).loc main_arg7)) : S128.Idx → EReal)
        ((m ((c : Thread nD τ).loc main_arg8)) : S128.Idx → EReal) ((m ((c : Thread nD τ).loc main_arg9)) : S128.Idx → EReal) ((m ((c : Thread nD τ).loc main_arg10)) : S64x128.Idx → EReal) ((m ((c : Thread nD τ).loc main_arg11)) : S64.Idx → EReal)
        ((m ((c : Thread nD τ).loc main_arg12)) : S64.Idx → EReal) ((m ((c : Thread nD τ).loc main_arg13)) : S64.Idx → EReal) ((m ((c : Thread nD τ).loc main_arg14)) : S32x64.Idx → EReal) ((m ((c : Thread nD τ).loc main_arg15)) : S32.Idx → EReal)
        ((m ((c : Thread nD τ).loc main_arg16)) : S16x32.Idx → EReal) ((m ((c : Thread nD τ).loc main_arg17)) : S16.Idx → EReal) ((m ((c : Thread nD τ).loc main_arg18)) : S1x16.Idx → EReal) ((m ((c : Thread nD τ).loc main_arg19)) : S1.Idx → EReal)
        ((m ((c : Thread nD τ).loc main_arg20)) : S16x32.Idx → EReal) ((m ((c : Thread nD τ).loc main_arg21)) : S16.Idx → EReal) ((m ((c : Thread nD τ).loc main_arg22)) : S4x16.Idx → EReal) ((m ((c : Thread nD τ).loc main_arg23)) : S4.Idx → EReal) :=
  (dats m 0 c).arrAt_eq_of_cover 20 _ (fun t _ => flushed20_eq m c t) cover20

/-- The kernel's run: both result arrays at their functions of the arguments, the arguments unchanged. -/
theorem run : θ_run defs (onTc (τ := τ) (main (F := Ideal))) ⟨m, fun _ => 0, ρ⟩ fun r => ∀ c : Dev nD,
      r.2.mem ((c : Thread nD τ).loc main_v25_0) = qRes m c
      ∧ r.2.mem ((c : Thread nD τ).loc main_v25_1) = gateRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans (final20 m c), (h c).2.1.trans (final21 m c), (h c).2.2⟩)
    (Cert.KernelIdeal.Value.run_blocks m ρ)

end Cert.KernelIdeal.Blocks

end
-- ==== Proof.LibHostLayers.lean ====
/-
  A HOST PROGRAM'S LAYERS ON THE WHOLE BATCH, EACH READ AT AN ENTRY AS THE ROW-WISE NETWORK (generic in the sizes).

  The host program computes every layer on the whole [M, ·] batch with tensor operations: a dense layer as a dot with
  the transposed weight plus the bias broadcast to a row and then down the rows; a relu as a maximum with a broadcast
  zero; a row mean as a sum over axis 1 from zero, made a column and divided by a broadcast count; a logistic spelt out
  as 1 / (1 + exp(−z)); layer normalisation, the modulation scalar and the duelling join through column broadcasts.
  Each definition below is that tensor expression, and its lemma says that row R of it is the matching row-wise function
  (module Net) of row R of its operand.
-/
import proofs.«145028_j88716844467015_2_alg».proof.Proof.Net
import proofs.«145028_j88716844467015_2_alg».proof.Proof.LibRowReads
import proofs.«145028_j88716844467015_2_alg».proof.Proof.LibHostRead
import Idealize.ShloMosaic.Lib.ValueLayout
import Idealize.ShloMosaic.Lib.IdealHost

noncomputable section

open scoped BigOperators

namespace Cert.HLayers

open Idealize.ShloMosaic Idealize.ShloMosaic.ValueIdx Cert.Net Cert.Lib

variable {M K N : Nat}

/-- The scalar shape. -/
abbrev S0 : Shape := ⟨0, ![]⟩

/-- A float constant broadcast to a shape. -/
abbrev splat (s : Shape) (h0 : S0.BroadcastsInDim s ![]) (w : BitVec 32) : FVec Ideal s .f32 :=
  broadcastInDim s ![] h0 (constant (F := Ideal) S0 .f32 w)

theorem splat_apply (s : Shape) (h0 : S0.BroadcastsInDim s ![]) (w : BitVec 32) (i : s.Idx) :
    splat s h0 w i = Ideal.ofBits .f32 w :=
  bcast_const_apply (φ := .f32) h0 w i

/-- max(x, 0). -/
def hRelu {s : Shape} (x : FVec Ideal s .f32) (h0 : S0.BroadcastsInDim s ![]) : FVec Ideal s .f32 :=
  maximumf x (splat s h0 0x00000000#32)

theorem hRelu_apply {s : Shape} (x : FVec Ideal s .f32) (h0 : S0.BroadcastsInDim s ![]) (i : s.Idx) :
    hRelu x h0 i = max (x i) (lit 0x00000000#32) := by
  show max (x i) (splat s h0 0x00000000#32 i) = _
  rw [splat_apply]

theorem hRelu_row (x : FVec Ideal ⟨2, ![M, N]⟩ .f32) (h0 : S0.BroadcastsInDim ⟨2, ![M, N]⟩ ![]) (R : Fin M) :
    rowOf (hRelu x h0) R = relu (rowOf x R) := funext fun n => hRelu_apply x h0 (ix2 R n)

/-- The logistic, spelt 1 / (1 + exp(−z)). -/
def hLogistic {s : Shape} (z : FVec Ideal s .f32) (h0 : S0.BroadcastsInDim s ![]) : FVec Ideal s .f32 :=
  Host.divf (splat s h0 0x3F800000#32) (addf (splat s h0 0x3F800000#32) (Host.exp (Host.negf z)))

theorem hLogistic_apply {s : Shape} (z : FVec Ideal s .f32) (h0 : S0.BroadcastsInDim s ![]) (i : s.Idx) :
    hLogistic z h0 i = Ideal.logistic (z i) := by
  show Ideal.div (splat s h0 0x3F800000#32 i) (splat s h0 0x3F800000#32 i + Ideal.exp (-(z i))) = Ideal.div 1 (1 + Ideal.exp (-(z i)))
  rw [splat_apply, Ideal.ofBits_one_f32]

/-- x · Wᵀ as the host spells it: the dot of x with the transposed weight. -/
def hMatT (d : DotDims ⟨2, ![M, K]⟩ ⟨2, ![K, N]⟩ ⟨2, ![M, N]⟩) (x : FVec Ideal ⟨2, ![M, K]⟩ .f32)
    (W : FVec Ideal ⟨2, ![N, K]⟩ .f32) (ht : (⟨2, ![N, K]⟩ : Shape).Transposes [1, 0] ⟨2, ![K, N]⟩) :
    FVec Ideal ⟨2, ![M, N]⟩ .f32 :=
  Host.dotGeneral d none x (transpose ⟨2, ![K, N]⟩ [1, 0] W ht)

theorem hMatT_apply (d : DotDims ⟨2, ![M, K]⟩ ⟨2, ![K, N]⟩ ⟨2, ![M, N]⟩)
    (hl : d.lhsContracting = [1]) (hr : d.rhsContracting = [0])
    (hln : d.lhsNonContracting = [0]) (hrn : d.rhsNonContracting = [1]) (hlb : d.lhsBatch = []) (hrb : d.rhsBatch = [])
    (x : FVec Ideal ⟨2, ![M, K]⟩ .f32) (W : FVec Ideal ⟨2, ![N, K]⟩ .f32)
    (ht : (⟨2, ![N, K]⟩ : Shape).Transposes [1, 0] ⟨2, ![K, N]⟩) (R : Fin M) (n : Fin N) :
    hMatT d x W ht (ix2 R n) = ∑ k : Fin K, x (ix2 R k) * W (ix2 n k) := by
  show Host.dotGeneral d none x (transpose ⟨2, ![K, N]⟩ [1, 0] W ht) (ix2 R n) = _
  rw [dotGeneral_at d hl hr hln hrn hlb hrb]
  exact Finset.sum_congr rfl fun k _ => by rw [transpose_ix2_apply]

/-- A dense layer: the product plus the bias vector broadcast to a row and down the rows. -/
def hDense (d : DotDims ⟨2, ![M, K]⟩ ⟨2, ![K, N]⟩ ⟨2, ![M, N]⟩) (x : FVec Ideal ⟨2, ![M, K]⟩ .f32)
    (W : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1]) : FVec Ideal ⟨2, ![M, N]⟩ .f32 :=
  addf (hMatT d x W ht) (broadcastInDim ⟨2, ![M, N]⟩ ![0, 1] hb2 (broadcastInDim ⟨2, ![1, N]⟩ ![1] hb1 b))

theorem hDense_row (d : DotDims ⟨2, ![M, K]⟩ ⟨2, ![K, N]⟩ ⟨2, ![M, N]⟩)
    (hl : d.lhsContracting = [1]) (hr : d.rhsContracting = [0])
    (hln : d.lhsNonContracting = [0]) (hrn : d.rhsNonContracting = [1]) (hlb : d.lhsBatch = []) (hrb : d.rhsBatch = [])
    (x : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1]) (R : Fin M) :
    rowOf (hDense d x W b ht hb1 hb2) R = dense (matOf W) (vecOf b) (rowOf x R) := by
  funext n
  show hMatT d x W ht (ix2 R n) + broadcastInDim ⟨2, ![M, N]⟩ ![0, 1] hb2 (broadcastInDim ⟨2, ![1, N]⟩ ![1] hb1 b) (ix2 R n) = _
  rw [hMatT_apply d hl hr hln hrn hlb hrb, bcastInDim_vecRows_apply]
  rfl

/-- The host's sum over axis 1 from an initial scalar, at row R. -/
theorem hRowSum_apply (x : FVec Ideal ⟨2, ![M, N]⟩ .f32) (init : S0.Idx → EReal)
    (h' : (⟨2, ![M, N]⟩ : Shape).ReducesTo [1] ⟨1, ![M]⟩) (hu : 0 < S0.numel)
    (hR : Shape.Reduces ⟨2, ![M, N]⟩ [1] ⟨1, ![M]⟩) (R : Fin M) :
    Host.reduceAdd x init h' hu (ix1 R) = init (Shape.Idx.first hu) + ∑ k : Fin N, x (ix2 R k) :=
  (Ideal.hostReduceAdd_single h' hR x (init (Shape.Idx.first hu)) (ix1 R)).trans
    (congrArg (init (Shape.Idx.first hu) + ·) (Finset.sum_congr rfl fun k _ => congrArg x (funext fun a => Fin.ext (by
      match a with
      | ⟨0, _⟩ => rfl
      | ⟨1, _⟩ => rfl))))

/-- The mean of each row as a column. -/
def hMean (c : BitVec 32) (x : FVec Ideal ⟨2, ![M, N]⟩ .f32) (h' : (⟨2, ![M, N]⟩ : Shape).ReducesTo [1] ⟨1, ![M]⟩)
    (hu : 0 < S0.numel) (hb0 : (⟨1, ![M]⟩ : Shape).BroadcastsInDim ⟨2, ![M, 1]⟩ ![0])
    (h0 : S0.BroadcastsInDim ⟨2, ![M, 1]⟩ ![]) : FVec Ideal ⟨2, ![M, 1]⟩ .f32 :=
  Host.divf (broadcastInDim ⟨2, ![M, 1]⟩ ![0] hb0 (Host.reduceAdd x (constant (F := Ideal) S0 .f32 0x00000000#32) h' hu))
    (splat ⟨2, ![M, 1]⟩ h0 c)

theorem hMean_apply (c : BitVec 32) (x : FVec Ideal ⟨2, ![M, N]⟩ .f32) (h' : (⟨2, ![M, N]⟩ : Shape).ReducesTo [1] ⟨1, ![M]⟩)
    (hu : 0 < S0.numel) (hb0 : (⟨1, ![M]⟩ : Shape).BroadcastsInDim ⟨2, ![M, 1]⟩ ![0])
    (h0 : S0.BroadcastsInDim ⟨2, ![M, 1]⟩ ![]) (hR : Shape.Reduces ⟨2, ![M, N]⟩ [1] ⟨1, ![M]⟩) (R : Fin M) (u : Fin 1) :
    hMean c x h' hu hb0 h0 (ix2 R u) = mean c (rowOf x R) := by
  show Ideal.div (broadcastInDim ⟨2, ![M, 1]⟩ ![0] hb0 (Host.reduceAdd x (constant (F := Ideal) S0 .f32 0x00000000#32) h' hu) (ix2 R u))
      (splat ⟨2, ![M, 1]⟩ h0 c (ix2 R u)) = _
  rw [col_apply ![0] rfl hb0, splat_apply, hRowSum_apply x _ h' hu hR]
  show Ideal.div (Ideal.ofBits .f32 0x00000000#32 + ∑ k : Fin N, x (ix2 R k)) (Ideal.ofBits .f32 c) = _
  rw [Ideal.ofBits_zero_f32, zero_add]
  rfl

/-- A column repeated across the columns. -/
abbrev bcol (v : FVec Ideal ⟨2, ![M, 1]⟩ .f32) (hc : (⟨2, ![M, 1]⟩ : Shape).BroadcastsInDim ⟨2, ![M, N]⟩ ![0, 1]) :
    FVec Ideal ⟨2, ![M, N]⟩ .f32 := broadcastInDim ⟨2, ![M, N]⟩ ![0, 1] hc v

theorem bcol_apply (v : FVec Ideal ⟨2, ![M, 1]⟩ .f32) (hc : (⟨2, ![M, 1]⟩ : Shape).BroadcastsInDim ⟨2, ![M, N]⟩ ![0, 1])
    (R : Fin M) (n : Fin N) : bcol v hc (ix2 R n) = v (ix2 R (0 : Fin 1)) :=
  spread_apply ![0, 1] rfl rfl hc v R n

/-- A vector broadcast to a row and down the rows. -/
abbrev brow (b : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) : FVec Ideal ⟨2, ![M, N]⟩ .f32 :=
  broadcastInDim ⟨2, ![M, N]⟩ ![0, 1] hb2 (broadcastInDim ⟨2, ![1, N]⟩ ![1] hb1 b)

theorem brow_apply (b : FVec Ideal ⟨1, ![N]⟩ .f32) (hb1 : (⟨1, ![N]⟩ : Shape).BroadcastsInDim ⟨2, ![1, N]⟩ ![1])
    (hb2 : (⟨2, ![1, N]⟩ : Shape).BroadcastsInDim ⟨2, ![M, N]⟩ ![0, 1]) (R : Fin M) (n : Fin N) :
    brow b hb1 hb2 (ix2 R n) = b (ix1 n) := bcastInDim_vecRows_apply hb1 hb2 b R n

/-- Layer normalisation. -/
def hLayerNorm (c : BitVec 32) (x : FVec Ideal ⟨2, ![M, N]⟩ .f32) (g b : FVec Ideal ⟨1, ![N]⟩ .f32)
    (h' : (⟨2, ![M, N]⟩ : Shape).ReducesTo [1] ⟨1, ![M]⟩) (hu : 0 < S0.numel)
    (hb0 : (⟨1, ![M]⟩ : Shape).BroadcastsInDim ⟨2, ![M, 1]⟩ ![0]) (h0 : S0.BroadcastsInDim ⟨2, ![M, 1]⟩ ![])
    (hc : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1]) : FVec Ideal ⟨2, ![M, N]⟩ .f32 :=
  addf (mulf (mulf (subf x (bcol (hMean c x h' hu hb0 h0) hc))
      (bcol (Host.rsqrt (addf
        (hMean c (mulf (subf x (bcol (hMean c x h' hu hb0 h0) hc)) (subf x (bcol (hMean c x h' hu hb0 h0) hc))) h' hu hb0 h0)
        (splat ⟨2, ![M, 1]⟩ h0 0x3727C5AC#32))) hc))
    (brow g hb1 hb2)) (brow b hb1 hb2)

theorem hLayerNorm_row (c : BitVec 32) (x : FVec Ideal ⟨2, ![M, N]⟩ .f32) (g b : FVec Ideal ⟨1, ![N]⟩ .f32)
    (h' : (⟨2, ![M, N]⟩ : Shape).ReducesTo [1] ⟨1, ![M]⟩) (hu : 0 < S0.numel)
    (hb0 : (⟨1, ![M]⟩ : Shape).BroadcastsInDim ⟨2, ![M, 1]⟩ ![0]) (h0 : S0.BroadcastsInDim ⟨2, ![M, 1]⟩ ![])
    (hc : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (hR : Shape.Reduces ⟨2, ![M, N]⟩ [1] ⟨1, ![M]⟩) (R : Fin M) :
    rowOf (hLayerNorm c x g b h' hu hb0 h0 hc hb1 hb2) R = layerNorm c (vecOf g) (vecOf b) (rowOf x R) := by
  have hd : ∀ k : Fin N, subf x (bcol (hMean c x h' hu hb0 h0) hc) (ix2 R k) = rowOf x R k - mean c (rowOf x R) := fun k => by
    show x (ix2 R k) - bcol (hMean c x h' hu hb0 h0) hc (ix2 R k) = _
    rw [bcol_apply, hMean_apply c x h' hu hb0 h0 hR]; rfl
  funext n
  show (subf x (bcol (hMean c x h' hu hb0 h0) hc) (ix2 R n)
      * bcol (Host.rsqrt (addf (hMean c (mulf (subf x (bcol (hMean c x h' hu hb0 h0) hc)) (subf x (bcol (hMean c x h' hu hb0 h0) hc))) h' hu hb0 h0)
          (splat ⟨2, ![M, 1]⟩ h0 0x3727C5AC#32))) hc (ix2 R n))
      * brow g hb1 hb2 (ix2 R n) + brow b hb1 hb2 (ix2 R n) = _
  rw [bcol_apply, brow_apply, brow_apply, hd]
  show (rowOf x R n - mean c (rowOf x R))
      * Ideal.rsqrt (hMean c (mulf (subf x (bcol (hMean c x h' hu hb0 h0) hc)) (subf x (bcol (hMean c x h' hu hb0 h0) hc))) h' hu hb0 h0 (ix2 R (0 : Fin 1))
          + splat ⟨2, ![M, 1]⟩ h0 0x3727C5AC#32 (ix2 R (0 : Fin 1))) * vecOf g n + vecOf b n = _
  rw [hMean_apply _ _ h' hu hb0 h0 hR, splat_apply]
  have hsq : rowOf (mulf (subf x (bcol (hMean c x h' hu hb0 h0) hc)) (subf x (bcol (hMean c x h' hu hb0 h0) hc))) R
      = fun k => (rowOf x R k - mean c (rowOf x R)) * (rowOf x R k - mean c (rowOf x R)) := funext fun k => by
    show subf x _ (ix2 R k) * subf x _ (ix2 R k) = _
    rw [hd]
  rw [hsq]
  rfl

/-- The modulation column 0.7 + 0.3 · mean(gate row). -/
def hMod (gt : FVec Ideal ⟨2, ![M, N]⟩ .f32) (h' : (⟨2, ![M, N]⟩ : Shape).ReducesTo [1] ⟨1, ![M]⟩) (hu : 0 < S0.numel)
    (hb0 : (⟨1, ![M]⟩ : Shape).BroadcastsInDim ⟨2, ![M, 1]⟩ ![0]) (h0 : S0.BroadcastsInDim ⟨2, ![M, 1]⟩ ![]) :
    FVec Ideal ⟨2, ![M, 1]⟩ .f32 :=
  addf (splat ⟨2, ![M, 1]⟩ h0 0x3F333333#32) (mulf (splat ⟨2, ![M, 1]⟩ h0 0x3E99999A#32) (hMean 0x42000000#32 gt h' hu hb0 h0))

theorem hMod_apply (gt : FVec Ideal ⟨2, ![M, N]⟩ .f32) (h' : (⟨2, ![M, N]⟩ : Shape).ReducesTo [1] ⟨1, ![M]⟩) (hu : 0 < S0.numel)
    (hb0 : (⟨1, ![M]⟩ : Shape).BroadcastsInDim ⟨2, ![M, 1]⟩ ![0]) (h0 : S0.BroadcastsInDim ⟨2, ![M, 1]⟩ ![])
    (hR : Shape.Reduces ⟨2, ![M, N]⟩ [1] ⟨1, ![M]⟩) (R : Fin M) (u : Fin 1) :
    hMod gt h' hu hb0 h0 (ix2 R u) = modulation (rowOf gt R) := by
  show splat ⟨2, ![M, 1]⟩ h0 0x3F333333#32 (ix2 R u) + splat ⟨2, ![M, 1]⟩ h0 0x3E99999A#32 (ix2 R u) * hMean 0x42000000#32 gt h' hu hb0 h0 (ix2 R u) = _
  rw [splat_apply, splat_apply, hMean_apply _ _ h' hu hb0 h0 hR]
  rfl

/-- The base layer relu ((x · Wᵀ) · mod + b). -/
def hBase (d : DotDims ⟨2, ![M, K]⟩ ⟨2, ![K, N]⟩ ⟨2, ![M, N]⟩) (x : FVec Ideal ⟨2, ![M, K]⟩ .f32)
    (W : FVec Ideal ⟨2, ![N, K]⟩ .f32) (md : FVec Ideal ⟨2, ![M, 1]⟩ .f32) (b : FVec Ideal ⟨1, ![N]⟩ .f32)
    (ht : (⟨2, ![N, K]⟩ : Shape).Transposes [1, 0] ⟨2, ![K, N]⟩)
    (hc : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (h0 : S0.BroadcastsInDim ⟨2, ![M, N]⟩ ![]) : FVec Ideal ⟨2, ![M, N]⟩ .f32 :=
  hRelu (addf (mulf (hMatT d x W ht) (bcol md hc)) (brow b hb1 hb2)) h0

theorem hBase_row (d : DotDims ⟨2, ![M, K]⟩ ⟨2, ![K, N]⟩ ⟨2, ![M, N]⟩)
    (hl : d.lhsContracting = [1]) (hr : d.rhsContracting = [0])
    (hln : d.lhsNonContracting = [0]) (hrn : d.rhsNonContracting = [1]) (hlb : d.lhsBatch = []) (hrb : d.rhsBatch = [])
    (x : FVec Ideal ⟨2, ![M, K]⟩ .f32) (W : FVec Ideal ⟨2, ![N, K]⟩ .f32) (md : FVec Ideal ⟨2, ![M, 1]⟩ .f32)
    (b : FVec Ideal ⟨1, ![N]⟩ .f32) (ht : (⟨2, ![N, K]⟩ : Shape).Transposes [1, 0] ⟨2, ![K, N]⟩)
    (hc : (⟨2, ![M, 1]⟩ : Shape).BroadcastsInDim ⟨2, ![M, N]⟩ ![0, 1])
    (hb1 : (⟨1, ![N]⟩ : Shape).BroadcastsInDim ⟨2, ![1, N]⟩ ![1])
    (hb2 : (⟨2, ![1, N]⟩ : Shape).BroadcastsInDim ⟨2, ![M, N]⟩ ![0, 1])
    (h0 : S0.BroadcastsInDim ⟨2, ![M, N]⟩ ![]) (R : Fin M) :
    rowOf (hBase d x W md b ht hc hb1 hb2 h0) R = base (matOf W) (vecOf b) (md (ix2 R (0 : Fin 1))) (rowOf x R) := by
  funext n
  show hRelu (addf (mulf (hMatT d x W ht) (bcol md hc)) (brow b hb1 hb2)) h0 (ix2 R n) = _
  rw [hRelu_apply]
  show max (hMatT d x W ht (ix2 R n) * bcol md hc (ix2 R n) + brow b hb1 hb2 (ix2 R n)) (lit 0x00000000#32) = _
  rw [hMatT_apply d hl hr hln hrn hlb hrb, bcol_apply, brow_apply]
  rfl

/-- The duelling join of a value column and a 4-wide advantage. -/
def hDuel (v : FVec Ideal ⟨2, ![M, 1]⟩ .f32) (a : FVec Ideal ⟨2, ![M, 4]⟩ .f32)
    (h' : (⟨2, ![M, 4]⟩ : Shape).ReducesTo [1] ⟨1, ![M]⟩) (hu : 0 < S0.numel)
    (hb0 : (⟨1, ![M]⟩ : Shape).BroadcastsInDim ⟨2, ![M, 1]⟩ ![0]) (h0 : S0.BroadcastsInDim ⟨2, ![M, 1]⟩ ![])
    (hc : (⟨2, ![M, 1]⟩ : Shape).BroadcastsInDim ⟨2, ![M, 4]⟩ ![0, 1]) : FVec Ideal ⟨2, ![M, 4]⟩ .f32 :=
  addf (bcol v hc) (subf a (bcol (hMean 0x40800000#32 a h' hu hb0 h0) hc))

theorem hDuel_row (v : FVec Ideal ⟨2, ![M, 1]⟩ .f32) (a : FVec Ideal ⟨2, ![M, 4]⟩ .f32)
    (h' : (⟨2, ![M, 4]⟩ : Shape).ReducesTo [1] ⟨1, ![M]⟩) (hu : 0 < S0.numel)
    (hb0 : (⟨1, ![M]⟩ : Shape).BroadcastsInDim ⟨2, ![M, 1]⟩ ![0]) (h0 : S0.BroadcastsInDim ⟨2, ![M, 1]⟩ ![])
    (hc : (⟨2, ![M, 1]⟩ : Shape).BroadcastsInDim ⟨2, ![M, 4]⟩ ![0, 1])
    (hR : Shape.Reduces ⟨2, ![M, 4]⟩ [1] ⟨1, ![M]⟩) (R : Fin M) :
    rowOf (hDuel v a h' hu hb0 h0 hc) R = duel (v (ix2 R (0 : Fin 1))) (rowOf a R) := by
  funext j
  show bcol v hc (ix2 R j) + (a (ix2 R j) - bcol (hMean 0x40800000#32 a h' hu hb0 h0) hc (ix2 R j)) = _
  rw [bcol_apply, bcol_apply, hMean_apply _ _ h' hu hb0 h0 hR]
  rfl

end Cert.HLayers

end
-- ==== Proof.RefRows.lean ====
/-
  THE REFERENCE ON THE WHOLE BATCH, ROW BY ROW.

  Each stage of the reference program is, by unfolding its operations, one of the host layers of module LibHostLayers
  applied to the stage before it. Row R of each stage therefore is the row-wise network of module Net applied to row R
  of the two batch inputs: the gate; the modulated base layer; the two normalised dense layers; the value and advantage
  streams, apart, joined by the duelling formula.
-/
import proofs.«145028_j88716844467015_2_alg».proof.Proof.Gen.ReferenceIdeal.Read
import proofs.«145028_j88716844467015_2_alg».proof.Proof.LibHostLayers

noncomputable section

open scoped BigOperators

namespace Cert.ReferenceIdeal.Rows

open Cert.ReferenceIdeal Cert.ReferenceIdeal.Gen Cert.ReferenceIdeal.Read Idealize.ShloMosaic Idealize.ShloMosaic.ValueIdx
open Cert.Net Cert.HLayers

/-! ## The stages as layers -/

theorem v5_eq (x1 : (⟨S65536x2048, .f32⟩ : BufTy).Contents (Elt Ideal)) (x2 : (⟨S64x2048, .f32⟩ : BufTy).Contents (Elt Ideal)) (x3 : (⟨S64, .f32⟩ : BufTy).Contents (Elt Ideal)) :
    val_main_v5 (F := Ideal) x1 x2 x3 = hRelu (hDense dot_S65536x2048_S2048x64_S65536x64_1_0_0_1_n_n x1 x2 x3
      transposes_S64x2048_S2048x64_1_0 bcast_S64_S1x64_1 bcast_S1x64_S65536x64_0_1) bcast_S_S65536x64 := rfl

theorem v16_eq (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) :
    val_main_v16 (F := Ideal) x1 x2 x3 x4 x5 = hLogistic (hDense dot_S65536x64_S64x32_S65536x32_1_0_0_1_n_n (val_main_v5 (F := Ideal) x1 x2 x3) x4 x5
      transposes_S32x64_S64x32_1_0 bcast_S32_S1x32_1 bcast_S1x32_S65536x32_0_1) bcast_S_S65536x32 := rfl

theorem v24_eq (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) :
    val_main_v24 (F := Ideal) x1 x2 x3 x4 x5 = hMod (val_main_v16 (F := Ideal) x1 x2 x3 x4 x5)
      reducesTo_S65536x32_S65536_d1 h_S_ bcast_S65536_S65536x1_0 bcast_S_S65536x1 := rfl

theorem v32_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) :
    val_main_v32 (F := Ideal) x0 x1 x2 x3 x4 x5 x6 x7 = hBase dot_S65536x512_S512x128_S65536x128_1_0_0_1_n_n x0 x6 (val_main_v24 (F := Ideal) x1 x2 x3 x4 x5) x7
      transposes_S128x512_S512x128_1_0 bcast_S65536x1_S65536x128_0_1 bcast_S128_S1x128_1 bcast_S1x128_S65536x128_0_1 bcast_S_S65536x128 := rfl

theorem v56_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) :
    val_main_v56 (F := Ideal) x0 x1 x2 x3 x4 x5 x6 x7 x8 x9 = hLayerNorm 0x43000000#32 (val_main_v32 (F := Ideal) x0 x1 x2 x3 x4 x5 x6 x7) x8 x9
      reducesTo_S65536x128_S65536_d1 h_S_ bcast_S65536_S65536x1_0 bcast_S_S65536x1 bcast_S65536x1_S65536x128_0_1
      bcast_S128_S1x128_1 bcast_S1x128_S65536x128_0_1 := rfl

theorem v62_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) :
    val_main_v62 (F := Ideal) x0 x1 x2 x3 x4 x5 x6 x7 x8 x9 x10 x11 = hRelu (hDense dot_S65536x128_S128x64_S65536x64_1_0_0_1_n_n (val_main_v56 (F := Ideal) x0 x1 x2 x3 x4 x5 x6 x7 x8 x9) x10 x11
      transposes_S64x128_S128x64_1_0 bcast_S64_S1x64_1 bcast_S1x64_S65536x64_0_1) bcast_S_S65536x64 := rfl

theorem v86_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) :
    val_main_v86 (F := Ideal) x0 x1 x2 x3 x4 x5 x6 x7 x8 x9 x10 x11 x12 x13 = hLayerNorm 0x42800000#32 (val_main_v62 (F := Ideal) x0 x1 x2 x3 x4 x5 x6 x7 x8 x9 x10 x11) x12 x13
      reducesTo_S65536x64_S65536_d1 h_S_ bcast_S65536_S65536x1_0 bcast_S_S65536x1 bcast_S65536x1_S65536x64_0_1
      bcast_S64_S1x64_1 bcast_S1x64_S65536x64_0_1 := rfl

theorem v92_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) :
    val_main_v92 (F := Ideal) x0 x1 x2 x3 x4 x5 x6 x7 x8 x9 x10 x11 x12 x13 x14 x15 = hRelu (hDense dot_S65536x64_S64x32_S65536x32_1_0_0_1_n_n (val_main_v86 (F := Ideal) x0 x1 x2 x3 x4 x5 x6 x7 x8 x9 x10 x11 x12 x13) x14 x15
      transposes_S32x64_S64x32_1_0 bcast_S32_S1x32_1 bcast_S1x32_S65536x32_0_1) bcast_S_S65536x32 := rfl

theorem v98_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S16x32, .f32⟩ : BufTy).Contents (Elt Ideal)) (x17 : (⟨S16, .f32⟩ : BufTy).Contents (Elt Ideal)) :
    val_main_v98 (F := Ideal) x0 x1 x2 x3 x4 x5 x6 x7 x8 x9 x10 x11 x12 x13 x14 x15 x16 x17 = hRelu (hDense dot_S65536x32_S32x16_S65536x16_1_0_0_1_n_n (val_main_v92 (F := Ideal) x0 x1 x2 x3 x4 x5 x6 x7 x8 x9 x10 x11 x12 x13 x14 x15) x16 x17
      transposes_S16x32_S32x16_1_0 bcast_S16_S1x16_1 bcast_S1x16_S65536x16_0_1) bcast_S_S65536x16 := rfl

theorem v103_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S16x32, .f32⟩ : BufTy).Contents (Elt Ideal)) (x17 : (⟨S16, .f32⟩ : BufTy).Contents (Elt Ideal)) (x18 : (⟨S1x16, .f32⟩ : BufTy).Contents (Elt Ideal)) (x19 : (⟨S1, .f32⟩ : BufTy).Contents (Elt Ideal)) :
    val_main_v103 (F := Ideal) x0 x1 x2 x3 x4 x5 x6 x7 x8 x9 x10 x11 x12 x13 x14 x15 x16 x17 x18 x19 = hDense dot_S65536x16_S16x1_S65536x1_1_0_0_1_n_n (val_main_v98 (F := Ideal) x0 x1 x2 x3 x4 x5 x6 x7 x8 x9 x10 x11 x12 x13 x14 x15 x16 x17) x18 x19
      transposes_S1x16_S16x1_1_0 bcast_S1_S1x1_1 bcast_S1x1_S65536x1_0_1 := rfl

theorem v109_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x20 : (⟨S16x32, .f32⟩ : BufTy).Contents (Elt Ideal)) (x21 : (⟨S16, .f32⟩ : BufTy).Contents (Elt Ideal)) :
    val_main_v109 (F := Ideal) x0 x1 x2 x3 x4 x5 x6 x7 x8 x9 x10 x11 x12 x13 x14 x15 x20 x21 = hRelu (hDense dot_S65536x32_S32x16_S65536x16_1_0_0_1_n_n (val_main_v92 (F := Ideal) x0 x1 x2 x3 x4 x5 x6 x7 x8 x9 x10 x11 x12 x13 x14 x15) x20 x21
      transposes_S16x32_S32x16_1_0 bcast_S16_S1x16_1 bcast_S1x16_S65536x16_0_1) bcast_S_S65536x16 := rfl

theorem v114_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x20 : (⟨S16x32, .f32⟩ : BufTy).Contents (Elt Ideal)) (x21 : (⟨S16, .f32⟩ : BufTy).Contents (Elt Ideal)) (x22 : (⟨S4x16, .f32⟩ : BufTy).Contents (Elt Ideal)) (x23 : (⟨S4, .f32⟩ : BufTy).Contents (Elt Ideal)) :
    val_main_v114 (F := Ideal) x0 x1 x2 x3 x4 x5 x6 x7 x8 x9 x10 x11 x12 x13 x14 x15 x20 x21 x22 x23 = hDense dot_S65536x16_S16x4_S65536x4_1_0_0_1_n_n (val_main_v109 (F := Ideal) x0 x1 x2 x3 x4 x5 x6 x7 x8 x9 x10 x11 x12 x13 x14 x15 x20 x21) x22 x23
      transposes_S4x16_S16x4_1_0 bcast_S4_S1x4_1 bcast_S1x4_S65536x4_0_1 := rfl

theorem v122_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S16x32, .f32⟩ : BufTy).Contents (Elt Ideal)) (x17 : (⟨S16, .f32⟩ : BufTy).Contents (Elt Ideal)) (x18 : (⟨S1x16, .f32⟩ : BufTy).Contents (Elt Ideal)) (x19 : (⟨S1, .f32⟩ : BufTy).Contents (Elt Ideal)) (x20 : (⟨S16x32, .f32⟩ : BufTy).Contents (Elt Ideal)) (x21 : (⟨S16, .f32⟩ : BufTy).Contents (Elt Ideal)) (x22 : (⟨S4x16, .f32⟩ : BufTy).Contents (Elt Ideal)) (x23 : (⟨S4, .f32⟩ : BufTy).Contents (Elt Ideal)) :
    val_main_v122 (F := Ideal) x0 x1 x2 x3 x4 x5 x6 x7 x8 x9 x10 x11 x12 x13 x14 x15 x16 x17 x18 x19 x20 x21 x22 x23 = hDuel (val_main_v103 (F := Ideal) x0 x1 x2 x3 x4 x5 x6 x7 x8 x9 x10 x11 x12 x13 x14 x15 x16 x17 x18 x19) (val_main_v114 (F := Ideal) x0 x1 x2 x3 x4 x5 x6 x7 x8 x9 x10 x11 x12 x13 x14 x15 x20 x21 x22 x23)
      reducesTo_S65536x4_S65536_d1 h_S_ bcast_S65536_S65536x1_0 bcast_S_S65536x1 bcast_S65536x1_S65536x4_0_1 := rfl

/-! ## Row R of each stage -/

/-- The gate result: row R is the gate of row R of the history. -/
theorem gate_row (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (R : Fin 65536) :
    rowOf (val_main_v16 (F := Ideal) x1 x2 x3 x4 x5) R = gate (matOf x2) (vecOf x3) (matOf x4) (vecOf x5) (rowOf x1 R) := by
  rw [v16_eq]
  funext n
  show hLogistic (hDense dot_S65536x64_S64x32_S65536x32_1_0_0_1_n_n (val_main_v5 (F := Ideal) x1 x2 x3) x4 x5
      transposes_S32x64_S64x32_1_0 bcast_S32_S1x32_1 bcast_S1x32_S65536x32_0_1) bcast_S_S65536x32 (ix2 R n) = _
  rw [hLogistic_apply]
  show Ideal.logistic (rowOf (hDense dot_S65536x64_S64x32_S65536x32_1_0_0_1_n_n (val_main_v5 (F := Ideal) x1 x2 x3) x4 x5
      transposes_S32x64_S64x32_1_0 bcast_S32_S1x32_1 bcast_S1x32_S65536x32_0_1) R n) = _
  rw [hDense_row _ rfl rfl rfl rfl rfl rfl, v5_eq, hRelu_row, hDense_row _ rfl rfl rfl rfl rfl rfl]
  rfl

/-- The base layer. -/
theorem base_row (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (R : Fin 65536) :
    rowOf (val_main_v32 (F := Ideal) x0 x1 x2 x3 x4 x5 x6 x7) R
      = base (matOf x6) (vecOf x7) (modulation (gate (matOf x2) (vecOf x3) (matOf x4) (vecOf x5) (rowOf x1 R))) (rowOf x0 R) := by
  rw [v32_eq, hBase_row _ rfl rfl rfl rfl rfl rfl, v24_eq, hMod_apply _ _ _ _ _ (by decide), gate_row]

/-- The trunk over the base layer. -/
theorem trunk_row (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (R : Fin 65536) :
    rowOf (val_main_v92 (F := Ideal) x0 x1 x2 x3 x4 x5 x6 x7 x8 x9 x10 x11 x12 x13 x14 x15) R
      = trunk (vecOf x8) (vecOf x9) (matOf x10) (vecOf x11) (vecOf x12) (vecOf x13) (matOf x14) (vecOf x15)
          (rowOf (val_main_v32 (F := Ideal) x0 x1 x2 x3 x4 x5 x6 x7) R) := by
  rw [v92_eq, hRelu_row, hDense_row _ rfl rfl rfl rfl rfl rfl, v86_eq, hLayerNorm_row _ _ _ _ _ _ _ _ _ _ _ (by decide),
    v62_eq, hRelu_row, hDense_row _ rfl rfl rfl rfl rfl rfl, v56_eq, hLayerNorm_row _ _ _ _ _ _ _ _ _ _ _ (by decide)]
  rfl

/-- The q result: the two streams apart over the trunk's features, joined. -/
theorem q_row (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S16x32, .f32⟩ : BufTy).Contents (Elt Ideal)) (x17 : (⟨S16, .f32⟩ : BufTy).Contents (Elt Ideal)) (x18 : (⟨S1x16, .f32⟩ : BufTy).Contents (Elt Ideal)) (x19 : (⟨S1, .f32⟩ : BufTy).Contents (Elt Ideal)) (x20 : (⟨S16x32, .f32⟩ : BufTy).Contents (Elt Ideal)) (x21 : (⟨S16, .f32⟩ : BufTy).Contents (Elt Ideal)) (x22 : (⟨S4x16, .f32⟩ : BufTy).Contents (Elt Ideal)) (x23 : (⟨S4, .f32⟩ : BufTy).Contents (Elt Ideal)) (R : Fin 65536) :
    rowOf (val_main_v122 (F := Ideal) x0 x1 x2 x3 x4 x5 x6 x7 x8 x9 x10 x11 x12 x13 x14 x15 x16 x17 x18 x19 x20 x21 x22 x23) R
      = head (matOf x16) (vecOf x17) (matOf x18) (vecOf x19) (matOf x20) (vecOf x21) (matOf x22) (vecOf x23)
          (trunk (vecOf x8) (vecOf x9) (matOf x10) (vecOf x11) (vecOf x12) (vecOf x13) (matOf x14) (vecOf x15)
            (base (matOf x6) (vecOf x7) (modulation (gate (matOf x2) (vecOf x3) (matOf x4) (vecOf x5) (rowOf x1 R))) (rowOf x0 R))) := by
  rw [v122_eq, hDuel_row _ _ _ _ _ _ _ (by decide)]
  show duel (rowOf (val_main_v103 (F := Ideal) x0 x1 x2 x3 x4 x5 x6 x7 x8 x9 x10 x11 x12 x13 x14 x15 x16 x17 x18 x19) R 0) (rowOf (val_main_v114 (F := Ideal) x0 x1 x2 x3 x4 x5 x6 x7 x8 x9 x10 x11 x12 x13 x14 x15 x20 x21 x22 x23) R) = _
  rw [v103_eq, v114_eq, hDense_row _ rfl rfl rfl rfl rfl rfl, hDense_row _ rfl rfl rfl rfl rfl rfl, v98_eq, v109_eq,
    hRelu_row, hRelu_row, hDense_row _ rfl rfl rfl rfl rfl rfl, hDense_row _ rfl rfl rfl rfl rfl rfl, trunk_row, base_row]
  rfl

end Cert.ReferenceIdeal.Rows

end
-- ==== Proof.RefResult.lean ====
/-
  THE REFERENCE'S TWO RESULTS AS THE RESULT ARRAYS OF MODULE Result.

  Reading each result of the reference row by row (module RefRows) gives, entry by entry, the gate array and the q array
  of its arguments.
-/
import proofs.«145028_j88716844467015_2_alg».proof.Proof.RefRows
import proofs.«145028_j88716844467015_2_alg».proof.Proof.Result

noncomputable section

namespace Cert.ReferenceIdeal.Rows

open Cert.ReferenceIdeal Cert.ReferenceIdeal.Gen Cert.ReferenceIdeal.Read Idealize.ShloMosaic Idealize.ShloMosaic.ValueIdx
open Cert.Net

theorem gate_eq (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) :
    val_main_v16 (F := Ideal) x1 x2 x3 x4 x5 = gateArr x1 x2 x3 x4 x5 :=
  funext fun i => (congrArg (val_main_v16 (F := Ideal) x1 x2 x3 x4 x5) (eq_ix2 i)).trans
    (congrFun (gate_row x1 x2 x3 x4 x5 (i 0)) (i 1))

theorem q_eq (x0 : (⟨S65536x512, .f32⟩ : BufTy).Contents (Elt Ideal)) (x1 : (⟨S65536x2048, .f32⟩ : BufTy).Contents (Elt Ideal)) (x2 : (⟨S64x2048, .f32⟩ : BufTy).Contents (Elt Ideal)) (x3 : (⟨S64, .f32⟩ : BufTy).Contents (Elt Ideal)) (x4 : (⟨S32x64, .f32⟩ : BufTy).Contents (Elt Ideal)) (x5 : (⟨S32, .f32⟩ : BufTy).Contents (Elt Ideal)) (x6 : (⟨S128x512, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S64x128, .f32⟩ : BufTy).Contents (Elt Ideal)) (x11 : (⟨S64, .f32⟩ : BufTy).Contents (Elt Ideal)) (x12 : (⟨S64, .f32⟩ : BufTy).Contents (Elt Ideal)) (x13 : (⟨S64, .f32⟩ : BufTy).Contents (Elt Ideal)) (x14 : (⟨S32x64, .f32⟩ : BufTy).Contents (Elt Ideal)) (x15 : (⟨S32, .f32⟩ : BufTy).Contents (Elt Ideal)) (x16 : (⟨S16x32, .f32⟩ : BufTy).Contents (Elt Ideal)) (x17 : (⟨S16, .f32⟩ : BufTy).Contents (Elt Ideal)) (x18 : (⟨S1x16, .f32⟩ : BufTy).Contents (Elt Ideal)) (x19 : (⟨S1, .f32⟩ : BufTy).Contents (Elt Ideal)) (x20 : (⟨S16x32, .f32⟩ : BufTy).Contents (Elt Ideal)) (x21 : (⟨S16, .f32⟩ : BufTy).Contents (Elt Ideal)) (x22 : (⟨S4x16, .f32⟩ : BufTy).Contents (Elt Ideal)) (x23 : (⟨S4, .f32⟩ : BufTy).Contents (Elt Ideal)) :
    val_main_v122 (F := Ideal) x0 x1 x2 x3 x4 x5 x6 x7 x8 x9 x10 x11 x12 x13 x14 x15 x16 x17 x18 x19 x20 x21 x22 x23 = qArr x0 x1 x2 x3 x4 x5 x6 x7 x8 x9 x10 x11 x12 x13 x14 x15 x16 x17 x18 x19 x20 x21 x22 x23 :=
  funext fun i => (congrArg (val_main_v122 (F := Ideal) x0 x1 x2 x3 x4 x5 x6 x7 x8 x9 x10 x11 x12 x13 x14 x15 x16 x17 x18 x19 x20 x21 x22 x23) (eq_ix2 i)).trans
    (congrFun (q_row x0 x1 x2 x3 x4 x5 x6 x7 x8 x9 x10 x11 x12 x13 x14 x15 x16 x17 x18 x19 x20 x21 x22 x23 (i 0)) (i 1))

end Cert.ReferenceIdeal.Rows

end
-- ==== Proof.lean ====
/-
  A gated duelling Q-network evaluated on a batch of 65536 rows: a Pallas kernel that keeps 1024 rows per grid point and
  fuses the whole network (its value and advantage streams through one stacked first layer and one block-diagonal second
  layer) against a plain reference that runs the layers one tensor at a time with the two streams apart.

  On the extended reals a change of float format is the identity, a matrix unit's product and the host's dot are the same
  sums, the kernel's logistic and the reference's 1 / (1 + exp(−z)) are one function, and every literal (0.7, 0.3, 1e-5, the
  counts 4, 32, 64, 128) is the same word on both sides. Every result row depends on one batch row only, so both programs
  are read row by row as the network of module Net: the kernel's body block by block (KernelRows over LibKernelLayers,
  with the weights as laid out before the launch, HostGlue), the reference stage by stage (RefRows over LibHostLayers).
  The one law that joins them is that the fused head is the head with its two streams apart: the zero blocks contribute
  x · 0 = 0 to each sum, which holds for every extended real, so finiteness of the inputs is never used. The 64 blocks
  cover both result arrays (Blocks), and the two programs end with the same two arrays of the arguments.

  The three frames are the generated ones (the reference's is its generated run with the results dropped); the idealization
  rewrote nothing, so the kernel-to-idealized-kernel conjunct is trivial.
-/
import proofs.«145028_j88716844467015_2_alg».proof.Defs
import proofs.«145028_j88716844467015_2_alg».proof.Proof.Gen.Kernel
import proofs.«145028_j88716844467015_2_alg».proof.Proof.Gen.Kernel.Skeleton
import proofs.«145028_j88716844467015_2_alg».proof.Proof.Gen.Kernel.Launch
import proofs.«145028_j88716844467015_2_alg».proof.Proof.Gen.Kernel.Points
import proofs.«145028_j88716844467015_2_alg».proof.Proof.Gen.Kernel.Frame
import proofs.«145028_j88716844467015_2_alg».proof.Proof.Gen.KernelIdeal
import proofs.«145028_j88716844467015_2_alg».proof.Proof.Gen.KernelIdeal.Skeleton
import proofs.«145028_j88716844467015_2_alg».proof.Proof.Gen.KernelIdeal.Launch
import proofs.«145028_j88716844467015_2_alg».proof.Proof.Gen.KernelIdeal.Points
import proofs.«145028_j88716844467015_2_alg».proof.Proof.Gen.KernelIdeal.Frame
import proofs.«145028_j88716844467015_2_alg».proof.Proof.Gen.ReferenceIdeal
import proofs.«145028_j88716844467015_2_alg».proof.Proof.Gen.Pre_finite_inputs
import proofs.«145028_j88716844467015_2_alg».proof.Proof.Gen.KernelIdeal.Value
import proofs.«145028_j88716844467015_2_alg».proof.Proof.Gen.ReferenceIdeal.Run
import proofs.«145028_j88716844467015_2_alg».proof.Proof.Gen.ReferenceIdeal.Read
import proofs.«145028_j88716844467015_2_alg».proof.Proof.Blocks
import proofs.«145028_j88716844467015_2_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the q array and the gate array of the (agreeing) arguments. -/
theorem algebraic : Cert.algebraic_KernelIdeal_ReferenceIdeal := by
  intro m ρ m' ρ' _ hagree
  refine ⟨fun c => Cert.KernelIdeal.Blocks.qRes m c, fun c => Cert.KernelIdeal.Blocks.gateRes m c,
    Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19, a20, a21, a22, a23⟩ := hagree c
  refine ⟨(h c).1.trans ?_, (h c).2.1.trans ?_, (h c).2.2⟩
  · rw [Cert.ReferenceIdeal.Read.val_main_v122_eq, Cert.ReferenceIdeal.Rows.q_eq, a0, a1, a2, a3, a4, a5, a6, a7, a8, a9, a10, a11, a12, a13, a14, a15, a16, a17, a18, a19, a20, a21, a22, a23]
  · rw [Cert.ReferenceIdeal.Read.val_main_v16_eq, Cert.ReferenceIdeal.Rows.gate_eq, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
